-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16x32x32 : Shape := ⟨4, ![128, 16, 32, 32]⟩
abbrev S_ : Shape := ⟨0, ![]⟩

class Facts : Prop where
  bcast_S_S128x16x32x32 : S_.BroadcastsInDim S128x16x32x32 (![] : Fin 0 → Fin S128x16x32x32.rank)
  reducesTo_S128x16x32x32_S_d0_1_2_3 : S128x16x32x32.ReducesTo [0, 1, 2, 3] S_
  h_S_ : 0 < S_.numel

variable [Facts]

def fn_part1 {F : FTy → Type} [FloatOps F] (main_v13 : IVec S_ 1) (main_v16 : IVec S128x16x32x32 1) : IVec S_ 1 :=
  let main_c_5 : IVec S_ 1 := constantI S_ 1 1#1
  let main_v17 : IVec S_ 1 := (fun x v => Host.reduce IntOp.andi x v reducesTo_S128x16x32x32_S_d0_1_2_3 h_S_) main_v16 main_c_5
  let main_v18 : IVec S_ 1 := andi main_v13 main_v17
  main_v18

def fn {F : FTy → Type} [FloatOps F] (main_arg0 : FVec F S128x16x32x32 .f32) (main_arg1 : FVec F S128x16x32x32 .f32) (main_arg2 : FVec F S128x16x32x32 .f32) (main_arg3 : FVec F S128x16x32x32 .f32) : IVec S_ 1 :=
  let main_v0 : FVec F S128x16x32x32 .f32 := Host.absf main_arg0
  let main_cst : FVec F S_ .f32 := constant S_ .f32 0x7F800000#32
  let main_v1 : FVec F S128x16x32x32 .f32 := broadcastInDim S128x16x32x32 ![] bcast_S_S128x16x32x32 main_cst
  let main_v2 : IVec S128x16x32x32 1 := cmpf .olt main_v0 main_v1
  let main_c : IVec S_ 1 := constantI S_ 1 1#1
  let main_v3 : IVec S_ 1 := (fun x v => Host.reduce IntOp.andi x v reducesTo_S128x16x32x32_S_d0_1_2_3 h_S_) main_v2 main_c
  let main_v4 : FVec F S128x16x32x32 .f32 := Host.absf main_arg1
  let main_cst_0 : FVec F S_ .f32 := constant S_ .f32 0x7F800000#32
  let main_v5 : FVec F S128x16x32x32 .f32 := broadcastInDim S128x16x32x32 ![] bcast_S_S128x16x32x32 main_cst_0
  let main_v6 : IVec S128x16x32x32 1 := cmpf .olt main_v4 main_v5
  let main_c_1 : IVec S_ 1 := constantI S_ 1 1#1
  let main_v7 : IVec S_ 1 := (fun x v => Host.reduce IntOp.andi x v reducesTo_S128x16x32x32_S_d0_1_2_3 h_S_) main_v6 main_c_1
  let main_v8 : IVec S_ 1 := andi main_v3 main_v7
  let main_v9 : FVec F S128x16x32x32 .f32 := Host.absf main_arg2
  let main_cst_2 : FVec F S_ .f32 := constant S_ .f32 0x7F800000#32
  let main_v10 : FVec F S128x16x32x32 .f32 := broadcastInDim S128x16x32x32 ![] bcast_S_S128x16x32x32 main_cst_2
  let main_v11 : IVec S128x16x32x32 1 := cmpf .olt main_v9 main_v10
  let main_c_3 : IVec S_ 1 := constantI S_ 1 1#1
  let main_v12 : IVec S_ 1 := (fun x v => Host.reduce IntOp.andi x v reducesTo_S128x16x32x32_S_d0_1_2_3 h_S_) main_v11 main_c_3
  let main_v13 : IVec S_ 1 := andi main_v8 main_v12
  let main_v14 : FVec F S128x16x32x32 .f32 := Host.absf main_arg3
  let main_cst_4 : FVec F S_ .f32 := constant S_ .f32 0x7F800000#32
  let main_v15 : FVec F S128x16x32x32 .f32 := broadcastInDim S128x16x32x32 ![] bcast_S_S128x16x32x32 main_cst_4
  let main_v16 : IVec S128x16x32x32 1 := cmpf .olt main_v14 main_v15
  fn_part1 (F := F) main_v13 main_v16
-- ==== Kernel.lean ====
abbrev S128x16x32x32 : Shape := ⟨4, ![128, 16, 32, 32]⟩
abbrev S128x16x16x2x16x2 : Shape := ⟨6, ![128, 16, 16, 2, 16, 2]⟩
abbrev S_ : Shape := ⟨0, ![]⟩
abbrev S128x16x16x16 : Shape := ⟨4, ![128, 16, 16, 16]⟩
abbrev S128x4096 : Shape := ⟨2, ![128, 4096]⟩
abbrev S1x1 : Shape := ⟨2, ![1, 1]⟩
abbrev S32x128 : Shape := ⟨2, ![32, 128]⟩
abbrev S128x128 : Shape := ⟨2, ![128, 128]⟩
abbrev S32x1x128 : Shape := ⟨3, ![32, 1, 128]⟩
abbrev S1x128x128 : Shape := ⟨3, ![1, 128, 128]⟩
abbrev S32x128x128 : Shape := ⟨3, ![32, 128, 128]⟩
abbrev S32x128x1 : Shape := ⟨3, ![32, 128, 1]⟩
abbrev S32x1 : Shape := ⟨2, ![32, 1]⟩
abbrev S32x1x1 : Shape := ⟨3, ![32, 1, 1]⟩
abbrev S1x1x1 : Shape := ⟨3, ![1, 1, 1]⟩

abbrev nBuf : Space → Nat
  | .hbm => 50
  | .vmem => 30
  | .smem => 0
  | _ => 0

abbrev bufTy : (tb : Table) → Fin (tcTables nBuf tb) → BufTy
  | .hbm, ⟨0, _⟩ => ⟨S128x16x32x32, .f32⟩
  | .hbm, ⟨1, _⟩ => ⟨S128x16x32x32, .f32⟩
  | .hbm, ⟨2, _⟩ => ⟨S128x16x32x32, .f32⟩
  | .hbm, ⟨3, _⟩ => ⟨S128x16x32x32, .f32⟩
  | .hbm, ⟨4, _⟩ => ⟨S128x16x16x2x16x2, .f32⟩
  | .hbm, ⟨5, _⟩ => ⟨S_, .f32⟩
  | .hbm, ⟨6, _⟩ => ⟨S128x16x16x16, .f32⟩
  | .hbm, ⟨7, _⟩ => ⟨S_, .f32⟩
  | .hbm, ⟨8, _⟩ => ⟨S128x16x16x16, .f32⟩
  | .hbm, ⟨9, _⟩ => ⟨S128x16x16x16, .f32⟩
  | .hbm, ⟨10, _⟩ => ⟨S128x16x16x2x16x2, .f32⟩
  | .hbm, ⟨11, _⟩ => ⟨S_, .f32⟩
  | .hbm, ⟨12, _⟩ => ⟨S128x16x16x16, .f32⟩
  | .hbm, ⟨13, _⟩ => ⟨S_, .f32⟩
  | .hbm, ⟨14, _⟩ => ⟨S128x16x16x16, .f32⟩
  | .hbm, ⟨15, _⟩ => ⟨S128x16x16x16, .f32⟩
  | .hbm, ⟨16, _⟩ => ⟨S128x16x32x32, .f32⟩
  | .hbm, ⟨17, _⟩ => ⟨S128x16x16x2x16x2, .f32⟩
  | .hbm, ⟨18, _⟩ => ⟨S_, .f32⟩
  | .hbm, ⟨19, _⟩ => ⟨S128x16x16x16, .f32⟩
  | .hbm, ⟨20, _⟩ => ⟨S_, .f32⟩
  | .hbm, ⟨21, _⟩ => ⟨S128x16x16x16, .f32⟩
  | .hbm, ⟨22, _⟩ => ⟨S128x16x16x16, .f32⟩
  | .hbm, ⟨23, _⟩ => ⟨S_, .f32⟩
  | .hbm, ⟨24, _⟩ => ⟨S128x16x16x16, .f32⟩
  | .hbm, ⟨25, _⟩ => ⟨S128x16x16x16, .f32⟩
  | .hbm, ⟨26, _⟩ => ⟨S128x16x32x32, .f32⟩
  | .hbm, ⟨27, _⟩ => ⟨S128x16x16x2x16x2, .f32⟩
  | .hbm, ⟨28, _⟩ => ⟨S_, .f32⟩
  | .hbm, ⟨29, _⟩ => ⟨S128x16x16x16, .f32⟩
  | .hbm, ⟨30, _⟩ => ⟨S_, .f32⟩
  | .hbm, ⟨31, _⟩ => ⟨S128x16x16x16, .f32⟩
  | .hbm, ⟨32, _⟩ => ⟨S128x16x16x16, .f32⟩
  | .hbm, ⟨33, _⟩ => ⟨S_, .f32⟩
  | .hbm, ⟨34, _⟩ => ⟨S128x16x16x16, .f32⟩
  | .hbm, ⟨35, _⟩ => ⟨S128x16x16x16, .f32⟩
  | .hbm, ⟨36, _⟩ => ⟨S128x4096, .f32⟩
  | .hbm, ⟨37, _⟩ => ⟨S128x4096, .f32⟩
  | .hbm, ⟨38, _⟩ => ⟨S128x4096, .f32⟩
  | .hbm, ⟨39, _⟩ => ⟨S128x4096, .f32⟩
  | .hbm, ⟨40, _⟩ => ⟨S1x1, .f32⟩
  | .hbm, ⟨41, _⟩ => ⟨S1x1, .f32⟩
  | .hbm, ⟨42, _⟩ => ⟨S1x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x1, .f32⟩
  | .local _ .vmem, ⟨9, _⟩ => ⟨S1x1, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x1, .f32⟩
  | .local _ .vmem, ⟨19, _⟩ => ⟨S1x1, .f32⟩
  | .local _ .vmem, ⟨20, _⟩ => ⟨S32x128, .f32⟩
  | .local _ .vmem, ⟨21, _⟩ => ⟨S32x128, .f32⟩
  | .local _ .vmem, ⟨22, _⟩ => ⟨S32x128, .f32⟩
  | .local _ .vmem, ⟨23, _⟩ => ⟨S32x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S1x1, .f32⟩
  | .local _ .vmem, ⟨29, _⟩ => ⟨S1x1, .f32⟩
  | _, _ => ⟨S128x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg0 : BitVec 32 := BitVec.ofNat 32 (i 0).val
  let c3_i32 : BitVec 32 := 3#32
  let v42 : BitVec 1 := Scalar.cmpi .eq arg0 c3_i32
  let arg1 : BitVec 32 := BitVec.ofNat 32 (i 1).val
  let c31_i32 : BitVec 32 := 31#32
  let v43 : BitVec 1 := Scalar.cmpi .eq arg1 c31_i32
  let v44 : BitVec 1 := Scalar.andi v42 v43
  let v45 : BitVec 32 := Scalar.extui v44
  let c0_i32_16 : BitVec 32 := 0#32
  let v46 : BitVec 1 := Scalar.cmpi .ne v45 c0_i32_16
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![4, 32], ![false, false]⟩

def k1_cond2 (i : grid1.Coords) : BitVec 1 :=
  let arg0 : BitVec 32 := BitVec.ofNat 32 (i 0).val
  let c3_i32 : BitVec 32 := 3#32
  let v42 : BitVec 1 := Scalar.cmpi .eq arg0 c3_i32
  let arg1 : BitVec 32 := BitVec.ofNat 32 (i 1).val
  let c31_i32 : BitVec 32 := 31#32
  let v43 : BitVec 1 := Scalar.cmpi .eq arg1 c31_i32
  let v44 : BitVec 1 := Scalar.andi v42 v43
  let v45 : BitVec 32 := Scalar.extui v44
  let c0_i32_16 : BitVec 32 := 0#32
  let v46 : BitVec 1 := Scalar.cmpi .ne v45 c0_i32_16
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev grid2 : Pipeline.Grid := ⟨2, ![4, 32], ![false, false]⟩

def k2_cond2 (i : grid2.Coords) : BitVec 1 :=
  let arg0 : BitVec 32 := BitVec.ofNat 32 (i 0).val
  let c3_i32 : BitVec 32 := 3#32
  let v42 : BitVec 1 := Scalar.cmpi .eq arg0 c3_i32
  let arg1 : BitVec 32 := BitVec.ofNat 32 (i 1).val
  let c31_i32 : BitVec 32 := 31#32
  let v43 : BitVec 1 := Scalar.cmpi .eq arg1 c31_i32
  let v44 : BitVec 1 := Scalar.andi v42 v43
  let v45 : BitVec 32 := Scalar.extui v44
  let c0_i32_16 : BitVec 32 := 0#32
  let v46 : BitVec 1 := Scalar.cmpi .ne v45 c0_i32_16
  v46

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S32x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S32x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

class Facts₀ : Prop where
  shapeCasts_S128x16x32x32_S128x16x16x2x16x2 : S128x16x32x32.ShapeCasts S128x16x16x2x16x2
  reducesTo_S128x16x16x2x16x2_S128x16x16x16_d3_5 : S128x16x16x2x16x2.ReducesTo [3, 5] S128x16x16x16
  h_S_ : 0 < S_.numel
  bcast_S_S128x16x16x16 : S_.BroadcastsInDim S128x16x16x16 (![] : Fin 0 → Fin S128x16x16x16.rank)
  shapeCasts_S128x16x16x16_S128x4096 : S128x16x16x16.ShapeCasts S128x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S32x128_S32x1x128 : S32x128.ShapeCasts S32x1x128
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  reduces_S32x128x128_S32x128 : S32x128x128.Reduces [2] S32x128
  shapeCasts_S32x128_S32x128x1 : S32x128.ShapeCasts S32x128x1
  reduces_S32x128x1_S32x1 : S32x128x1.Reduces [1] S32x1
  shapeCasts_S32x1_S32x1x1 : S32x1.ShapeCasts S32x1x1
  reduces_S32x1x1_S1x1 : S32x1x1.Reduces [0] S1x1
  shapeCasts_S1x1_S1x1x1 : S1x1.ShapeCasts S1x1x1
  shapeCasts_S1x1x1_S1x1 : S1x1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S128x4096.size a
  hwx0_0 : ∀ i : grid0.Coords, EltTy.bits .f32 = 32 ∨ (Rect.block (s := S128x4096) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S128x4096.size a
  hwx0_1 : ∀ i : grid0.Coords, EltTy.bits .f32 = 32 ∨ (Rect.block (s := S128x4096) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x4096.size a
  hwx0_2 : ∀ i : grid0.Coords, EltTy.bits .f32 = 32 ∨ (Rect.block (s := S128x4096) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x4096.size a
  hwx0_3 : ∀ i : grid0.Coords, EltTy.bits .f32 = 32 ∨ (Rect.block (s := S128x4096) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128.size a ≤ S128x4096.size a
  hwx1_0 : ∀ i : grid1.Coords, EltTy.bits .f32 = 32 ∨ (Rect.block (s := S128x4096) S32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S128x4096.size a
  hwx1_1 : ∀ i : grid1.Coords, EltTy.bits .f32 = 32 ∨ (Rect.block (s := S128x4096) S32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x4096.size a
  hwx1_2 : ∀ i : grid1.Coords, EltTy.bits .f32 = 32 ∨ (Rect.block (s := S128x4096) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x4096.size a
  hwx1_3 : ∀ i : grid1.Coords, EltTy.bits .f32 = 32 ∨ (Rect.block (s := S128x4096) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x128.size a ≤ S128x4096.size a
  hwx2_0 : ∀ i : grid2.Coords, EltTy.bits .f32 = 32 ∨ (Rect.block (s := S128x4096) S32x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x128.size a ≤ S128x4096.size a
  hwx2_1 : ∀ i : grid2.Coords, EltTy.bits .f32 = 32 ∨ (Rect.block (s := S128x4096) S32x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x4096.size a
  hwx2_2 : ∀ i : grid2.Coords, EltTy.bits .f32 = 32 ∨ (Rect.block (s := S128x4096) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x4096.size a
  hwx2_3 : ∀ i : grid2.Coords, EltTy.bits .f32 = 32 ∨ (Rect.block (s := S128x4096) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

abbrev win0_0 : Pipeline.Window sig grid0 :=
  Pipeline.Window.ofSpec (Memref.whole main_v22) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v22) S32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v23) S32x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S32x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S128x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S128x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S128x16x32x32 : Shape := ⟨4, ![128, 16, 32, 32]⟩
abbrev S128x16x16x2x16x2 : Shape := ⟨6, ![128, 16, 16, 2, 16, 2]⟩
abbrev S_ : Shape := ⟨0, ![]⟩
abbrev S128x16x16x16 : Shape := ⟨4, ![128, 16, 16, 16]⟩
abbrev S128x4096 : Shape := ⟨2, ![128, 4096]⟩
abbrev S128x1x4096 : Shape := ⟨3, ![128, 1, 4096]⟩
abbrev S1x128x4096 : Shape := ⟨3, ![1, 128, 4096]⟩
abbrev S128x128x4096 : Shape := ⟨3, ![128, 128, 4096]⟩

abbrev nBuf : Space → Nat
  | .hbm => 104
  | .vmem => 0
  | .smem => 0
  | _ => 0

abbrev bufTy : (tb : Table) → Fin (tcTables nBuf tb) → BufTy
  | .hbm, ⟨0, _⟩ => ⟨S128x16x32x32, .f32⟩
  | .hbm, ⟨1, _⟩ => ⟨S128x16x32x32, .f32⟩
  | .hbm, ⟨2, _⟩ => ⟨S128x16x32x32, .f32⟩
  | .hbm, ⟨3, _⟩ => ⟨S128x16x32x32, .f32⟩
  | .hbm, ⟨4, _⟩ => ⟨S128x16x16x2x16x2, .f32⟩
  | .hbm, ⟨5, _⟩ => ⟨S_, .f32⟩
  | .hbm, ⟨6, _⟩ => ⟨S128x16x16x16, .f32⟩
  | .hbm, ⟨7, _⟩ => ⟨S_, .f32⟩
  | .hbm, ⟨8, _⟩ => ⟨S128x16x16x16, .f32⟩
  | .hbm, ⟨9, _⟩ => ⟨S128x16x16x16, .f32⟩
  | .hbm, ⟨10, _⟩ => ⟨S128x16x16x2x16x2, .f32⟩
  | .hbm, ⟨11, _⟩ => ⟨S_, .f32⟩
  | .hbm, ⟨12, _⟩ => ⟨S128x16x16x16, .f32⟩
  | .hbm, ⟨13, _⟩ => ⟨S_, .f32⟩
  | .hbm, ⟨14, _⟩ => ⟨S128x16x16x16, .f32⟩
  | .hbm, ⟨15, _⟩ => ⟨S128x16x16x16, .f32⟩
  | .hbm, ⟨16, _⟩ => ⟨S128x16x32x32, .f32⟩
  | .hbm, ⟨17, _⟩ => ⟨S128x16x16x2x16x2, .f32⟩
  | .hbm, ⟨18, _⟩ => ⟨S_, .f32⟩
  | .hbm, ⟨19, _⟩ => ⟨S128x16x16x16, .f32⟩
  | .hbm, ⟨20, _⟩ => ⟨S_, .f32⟩
  | .hbm, ⟨21, _⟩ => ⟨S128x16x16x16, .f32⟩
  | .hbm, ⟨22, _⟩ => ⟨S128x16x16x16, .f32⟩
  | .hbm, ⟨23, _⟩ => ⟨S_, .f32⟩
  | .hbm, ⟨24, _⟩ => ⟨S128x16x16x16, .f32⟩
  | .hbm, ⟨25, _⟩ => ⟨S128x16x16x16, .f32⟩
  | .hbm, ⟨26, _⟩ => ⟨S128x16x32x32, .f32⟩
  | .hbm, ⟨27, _⟩ => ⟨S128x16x16x2x16x2, .f32⟩
  | .hbm, ⟨28, _⟩ => ⟨S_, .f32⟩
  | .hbm, ⟨29, _⟩ => ⟨S128x16x16x16, .f32⟩
  | .hbm, ⟨30, _⟩ => ⟨S_, .f32⟩
  | .hbm, ⟨31, _⟩ => ⟨S128x16x16x16, .f32⟩
  | .hbm, ⟨32, _⟩ => ⟨S128x16x16x16, .f32⟩
  | .hbm, ⟨33, _⟩ => ⟨S_, .f32⟩
  | .hbm, ⟨34, _⟩ => ⟨S128x16x16x16, .f32⟩
  | .hbm, ⟨35, _⟩ => ⟨S128x16x16x16, .f32⟩
  | .hbm, ⟨36, _⟩ => ⟨S128x4096, .f32⟩
  | .hbm, ⟨37, _⟩ => ⟨S128x4096, .f32⟩
  | .hbm, ⟨38, _⟩ => ⟨S128x4096, .f32⟩
  | .hbm, ⟨39, _⟩ => ⟨S128x4096, .f32⟩
  | .hbm, ⟨40, _⟩ => ⟨S128x1x4096, .f32⟩
  | .hbm, ⟨41, _⟩ => ⟨S1x128x4096, .f32⟩
  | .hbm, ⟨42, _⟩ => ⟨S128x128x4096, .f32⟩
  | .hbm, ⟨43, _⟩ => ⟨S128x128x4096, .f32⟩
  | .hbm, ⟨44, _⟩ => ⟨S128x128x4096, .f32⟩
  | .hbm, ⟨45, _⟩ => ⟨S128x1x4096, .f32⟩
  | .hbm, ⟨46, _⟩ => ⟨S1x128x4096, .f32⟩
  | .hbm, ⟨47, _⟩ => ⟨S128x128x4096, .f32⟩
  | .hbm, ⟨48, _⟩ => ⟨S128x128x4096, .f32⟩
  | .hbm, ⟨49, _⟩ => ⟨S128x128x4096, .f32⟩
  | .hbm, ⟨50, _⟩ => ⟨S128x128x4096, .f32⟩
  | .hbm, ⟨51, _⟩ => ⟨S128x128x4096, .f32⟩
  | .hbm, ⟨52, _⟩ => ⟨S128x128x4096, .f32⟩
  | .hbm, ⟨53, _⟩ => ⟨S128x128x4096, .f32⟩
  | .hbm, ⟨54, _⟩ => ⟨S_, .f32⟩
  | .hbm, ⟨55, _⟩ => ⟨S128x128x4096, .f32⟩
  | .hbm, ⟨56, _⟩ => ⟨S128x128x4096, .f32⟩
  | .hbm, ⟨57, _⟩ => ⟨S128x128x4096, .f32⟩
  | .hbm, ⟨58, _⟩ => ⟨S_, .f32⟩
  | .hbm, ⟨59, _⟩ => ⟨S_, .f32⟩
  | .hbm, ⟨60, _⟩ => ⟨S128x1x4096, .f32⟩
  | .hbm, ⟨61, _⟩ => ⟨S1x128x4096, .f32⟩
  | .hbm, ⟨62, _⟩ => ⟨S128x128x4096, .f32⟩
  | .hbm, ⟨63, _⟩ => ⟨S128x128x4096, .f32⟩
  | .hbm, ⟨64, _⟩ => ⟨S128x128x4096, .f32⟩
  | .hbm, ⟨65, _⟩ => ⟨S128x1x4096, .f32⟩
  | .hbm, ⟨66, _⟩ => ⟨S1x128x4096, .f32⟩
  | .hbm, ⟨67, _⟩ => ⟨S128x128x4096, .f32⟩
  | .hbm, ⟨68, _⟩ => ⟨S128x128x4096, .f32⟩
  | .hbm, ⟨69, _⟩ => ⟨S128x128x4096, .f32⟩
  | .hbm, ⟨70, _⟩ => ⟨S128x128x4096, .f32⟩
  | .hbm, ⟨71, _⟩ => ⟨S128x128x4096, .f32⟩
  | .hbm, ⟨72, _⟩ => ⟨S128x128x4096, .f32⟩
  | .hbm, ⟨73, _⟩ => ⟨S128x128x4096, .f32⟩
  | .hbm, ⟨74, _⟩ => ⟨S_, .f32⟩
  | .hbm, ⟨75, _⟩ => ⟨S128x128x4096, .f32⟩
  | .hbm, ⟨76, _⟩ => ⟨S128x128x4096, .f32⟩
  | .hbm, ⟨77, _⟩ => ⟨S128x128x4096, .f32⟩
  | .hbm, ⟨78, _⟩ => ⟨S_, .f32⟩
  | .hbm, ⟨79, _⟩ => ⟨S_, .f32⟩
  | .hbm, ⟨80, _⟩ => ⟨S128x1x4096, .f32⟩
  | .hbm, ⟨81, _⟩ => ⟨S1x128x4096, .f32⟩
  | .hbm, ⟨82, _⟩ => ⟨S128x128x4096, .f32⟩
  | .hbm, ⟨83, _⟩ => ⟨S128x128x4096, .f32⟩
  | .hbm, ⟨84, _⟩ => ⟨S128x128x4096, .f32⟩
  | .hbm, ⟨85, _⟩ => ⟨S128x1x4096, .f32⟩
  | .hbm, ⟨86, _⟩ => ⟨S1x128x4096, .f32⟩
  | .hbm, ⟨87, _⟩ => ⟨S128x128x4096, .f32⟩
  | .hbm, ⟨88, _⟩ => ⟨S128x128x4096, .f32⟩
  | .hbm, ⟨89, _⟩ => ⟨S128x128x4096, .f32⟩
  | .hbm, ⟨90, _⟩ => ⟨S128x128x4096, .f32⟩
  | .hbm, ⟨91, _⟩ => ⟨S128x128x4096, .f32⟩
  | .hbm, ⟨92, _⟩ => ⟨S128x128x4096, .f32⟩
  | .hbm, ⟨93, _⟩ => ⟨S128x128x4096, .f32⟩
  | .hbm, ⟨94, _⟩ => ⟨S_, .f32⟩
  | .hbm, ⟨95, _⟩ => ⟨S128x128x4096, .f32⟩
  | .hbm, ⟨96, _⟩ => ⟨S128x128x4096, .f32⟩
  | .hbm, ⟨97, _⟩ => ⟨S128x128x4096, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S128x16x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_13 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_14 : Ref sig .tc := ⟨.hbm, 98, rfl⟩
abbrev main_v79 : Ref sig .tc := ⟨.hbm, 99, rfl⟩
abbrev main_v80 : Ref sig .tc := ⟨.hbm, 100, rfl⟩
abbrev main_cst_15 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]

class Facts₀ : Prop where
  shapeCasts_S128x16x32x32_S128x16x16x2x16x2 : S128x16x32x32.ShapeCasts S128x16x16x2x16x2
  reducesTo_S128x16x16x2x16x2_S128x16x16x16_d3_5 : S128x16x16x2x16x2.ReducesTo [3, 5] S128x16x16x16
  h_S_ : 0 < S_.numel
  bcast_S_S128x16x16x16 : S_.BroadcastsInDim S128x16x16x16 (![] : Fin 0 → Fin S128x16x16x16.rank)
  shapeCasts_S128x16x16x16_S128x4096 : S128x16x16x16.ShapeCasts S128x4096
  bcast_S128x4096_S128x1x4096_0_2 : S128x4096.BroadcastsInDim S128x1x4096 (![0, 2] : Fin 2 → Fin S128x1x4096.rank)
  bcast_S128x4096_S1x128x4096_1_2 : S128x4096.BroadcastsInDim S1x128x4096 (![1, 2] : Fin 2 → Fin S1x128x4096.rank)
  bcast_S128x1x4096_S128x128x4096_0_1_2 : S128x1x4096.BroadcastsInDim S128x128x4096 (![0, 1, 2] : Fin 3 → Fin S128x128x4096.rank)
  bcast_S1x128x4096_S128x128x4096_0_1_2 : S1x128x4096.BroadcastsInDim S128x128x4096 (![0, 1, 2] : Fin 3 → Fin S128x128x4096.rank)
  bcast_S_S128x128x4096 : S_.BroadcastsInDim S128x128x4096 (![] : Fin 0 → Fin S128x128x4096.rank)
  reducesTo_S128x128x4096_S_d0_1_2 : S128x128x4096.ReducesTo [0, 1, 2] S_

variable [Facts₀]

class Facts : Prop extends Facts₀ where

variable [Facts]
-- ==== Proof.KernelBody0.lean ====
/-
  The body of the first pair-sum kernel run once per control case, at any float instance.

  The body keeps a running total in a one-cell scratch.  At the grid's first point (case A) it first stores zero there;
  at every point it loads its four input blocks and the scratch and stores back the scratch plus the block's partial sum;
  at the grid's last point (case C) it also copies the scratch into the one-cell output block.  At every other point
  (case B) the output block is not touched.  Each run below states, for whole staging buffers holding the input blocks,
  that the body terminates without a fault, leaves the inputs as they were, and leaves the scratch (and in case C the
  output block) overwritten by a list of stored pieces that covers it.
-/
import proofs.«159096_j1580547971931_1_alg».proof.Proof.Gen.Kernel.Launch
import proofs.«159096_j1580547971931_1_alg».proof.Proof.Gen.Kernel.Skeleton
import proofs.«159096_j1580547971931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first grid point": both coordinates are zero. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "This is the last grid point": the coordinates are (3, 31). -/
abbrev cond0_1 (i : grid0.Coords) : Prop := k0_cond2 i = 1#1

/-- The first condition holds exactly at point 0 of the 128. -/
theorem hcond0_0 : ∀ t : Fin cfg0.N, cond0_0 (grid0.coords t) ↔ t.val = 0 :=
  (by decide +kernel : ∀ t : Fin grid0.N, cond0_0 (grid0.coords t) ↔ t.val = 0)
/-- The second condition holds exactly at point 127. -/
theorem hcond0_1 : ∀ t : Fin cfg0.N, cond0_1 (grid0.coords t) ↔ t.val = 127 :=
  (by decide +kernel : ∀ t : Fin grid0.N, cond0_1 (grid0.coords t) ↔ t.val = 127)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the output block is idle (nothing is stored into it) -/
theorem idleAt0_4 : ∀ t : Fin cfg0.N, ¬cond0_1 (grid0.coords t) → cfg0.idle 4 (grid0.coords t) = true := by decide +kernel
/-- and is not written back; -/
theorem noFlush0_4 : ∀ t : Fin cfg0.N, ¬cond0_1 (grid0.coords t) → (cfg0.win 4).flush t = false := by decide +kernel
/-- at the last point it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The scratch cell holding the running total. -/
abbrev scM0 : Memref sig .tc .vmem S1x1 .f32 := Memref.whole cc0_scratch0
/-- The views through which the scratch's and the output block's contents are stated. -/
abbrev VS0 : View sig .tc .vmem S1x1 .f32 := (scM0).view
abbrev VO0 : View sig .tc .vmem S1x1 .f32 := (Memref.whole cc0_stg4_0 : Memref sig .tc .vmem S1x1 .f32).view

/-! ## The three runs -/

set_option maxHeartbeats 1000000 in
/-- Case A, the first point: the scratch may hold anything; it ends overwritten by the found pieces. -/
noncomputable def kernelRun0_A (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 : Vec F S32x128 .f32) (x2 x3 : Vec F S128x128 .f32) :
    { LS0 : List (View.Piece (Elt F) S1x1 .f32) //
      ∀ (x4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LS0)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, fun x4 E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, ⟨%f3, %hf3, H3⟩, H4, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexists _; iexact HS0

set_option maxHeartbeats 1000000 in
/-- Case B, a middle point: the scratch holds the running total `xs0`; the output block is handed back untouched. -/
noncomputable def kernelRun0_B (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 : Vec F S32x128 .f32) (x2 x3 : Vec F S128x128 .f32) (xs0 : Vec F S1x1 .f32) :
    { LS0 : List (View.Piece (Elt F) S1x1 .f32) //
      ∀ (x4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LS0)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, fun x4 E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, ⟨%f3, %hf3, H3⟩, H4, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexists _; iexact HS0

set_option maxHeartbeats 1000000 in
/-- Case C, the last point: the scratch holds the running total `xs0`; both the scratch and the output block end
    overwritten by the found pieces. -/
noncomputable def kernelRun0_C (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 : Vec F S32x128 .f32) (x2 x3 : Vec F S128x128 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, ?_, fun E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What the runs leave, read back -/

theorem scover0_A (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 : Vec F S32x128 .f32) (x2 x3 : Vec F S128x128 .f32) (y : S1x1.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1x1.size (by sl_kernel_rfl) y
theorem scover0_B (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 : Vec F S32x128 .f32) (x2 x3 : Vec F S128x128 .f32) (xs0 : Vec F S1x1 .f32) (y : S1x1.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S1x1.size (by sl_kernel_rfl) y
theorem scover0_C (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S32x128 .f32) (x2 x3 : Vec F S128x128 .f32) (xs0 : Vec F S1x1 .f32) (y : S1x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1x1.size (by sl_kernel_rfl) y
theorem cover0_C (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S32x128 .f32) (x2 x3 : Vec F S128x128 .f32) (xs0 : Vec F S1x1 .f32) (y : S1x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1.size (by sl_kernel_rfl) y

/-- The scratch after case A, B, C: the run's pieces read back. -/
def sout0_A (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 : Vec F S32x128 .f32) (x2 x3 : Vec F S128x128 .f32) : Vec F S1x1 .f32 :=
  VS0.read (Elt F) (VS0.writes (Elt F) VS0.junk (kernelRun0_A c i arg2 harg2 arg3 harg3 arg4 harg4 arg5 harg5 arg6 harg6 arg7 harg7 hc0 hc1 x0 x1 x2 x3).1)
def sout0_B (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 : Vec F S32x128 .f32) (x2 x3 : Vec F S128x128 .f32) (xs0 : Vec F S1x1 .f32) : Vec F S1x1 .f32 :=
  VS0.read (Elt F) (VS0.writes (Elt F) VS0.junk (kernelRun0_B c i arg2 harg2 arg3 harg3 arg4 harg4 arg5 harg5 arg6 harg6 arg7 harg7 hc0 hc1 x0 x1 x2 x3 xs0).1)
def sout0_C (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S32x128 .f32) (x2 x3 : Vec F S128x128 .f32) (xs0 : Vec F S1x1 .f32) : Vec F S1x1 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)
/-- The output block after case C. -/
def out0_C (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S32x128 .f32) (x2 x3 : Vec F S128x128 .f32) (xs0 : Vec F S1x1 .f32) : Vec F S1x1 .f32 :=
  VO0.read (Elt F) (VO0.writes (Elt F) VO0.junk (kernelRun0_C c i arg2 harg2 arg3 harg3 arg4 harg4 arg5 harg5 arg6 harg6 arg7 harg7 hc0 hc1 x0 x1 x2 x3 xs0).1)

end Cert.Kernel.Gen

end
-- ==== Proof.KernelRegion0.lean ====
/-
  Pair-sum kernel 0 over its 128 grid points, at any float instance and at any contents `V` of the core's buffers
  when the region is entered.

  The scratch cell after point n (`accAt`) is defined by recursion on the point from the runs' read-back pieces: at
  point 0 the first-point run over the point's four input blocks, afterwards the middle (or, at point 127, the last)
  run over the point's blocks and what the point before left.  The output block matters at point 127 only, where the
  last run stores the scratch into it.  The region invariant before point n is the class's before the first point and
  afterwards holds the scratch at `accAt (n − 1)`, the core's other scoped buffers at anything and the generator
  register at some state.  With these the body obligation holds at every point.
-/
import proofs.«159096_j1580547971931_1_alg».proof.Proof.Gen.Kernel.Launch
import proofs.«159096_j1580547971931_1_alg».proof.Proof.Gen.Kernel.Skeleton
import proofs.«159096_j1580547971931_1_alg».proof.Proof.Gen.Kernel.Points
import proofs.«159096_j1580547971931_1_alg».proof.Proof.KernelBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point (each is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The scratch and the output block, point by point -/

/-- The scratch cell after point `n`. -/
def accAt0 (c : Dev nD) : (n : ℕ) → n < cfg0.N → Vec F S1x1 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr rfl) (fun h => by have h' := (hcond0_1 ⟨0, hn⟩).mp h; (try dsimp only at h'); omega) (iblk0 V c 0 ⟨0, hn⟩) (iblk0 V c 1 ⟨0, hn⟩) (iblk0 V c 2 ⟨0, hn⟩) (iblk0 V c 3 ⟨0, hn⟩)
  | n + 1, hn =>
    if h1 : n + 1 = 127 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => by have h' := (hcond0_0 ⟨n + 1, hn⟩).mp h; (try dsimp only at h'); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => by have h' := (hcond0_0 ⟨n + 1, hn⟩).mp h; (try dsimp only at h'); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn))

theorem accAt0_A (c : Dev nD) (t : Fin cfg0.N) (h0 : t.val = 0) (h1 : ¬t.val = 127) :
    accAt0 V c t.val t.isLt = sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t) := by
  obtain ⟨n, hn⟩ := t
  cases n with
  | zero => exact rfl
  | succ n => exact absurd h0 (Nat.succ_ne_zero n)

theorem accAt0_B (c : Dev nD) (t : Fin cfg0.N) (h0 : ¬t.val = 0) (h1 : ¬t.val = 127) :
    accAt0 V c t.val t.isLt = sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (accAt0 V c (t.val - 1) (Nat.lt_of_le_of_lt (Nat.sub_le _ _) t.isLt)) := by
  obtain ⟨n, hn⟩ := t
  cases n with
  | zero => exact absurd rfl h0
  | succ n => exact (dif_neg h1).trans rfl

theorem accAt0_C (c : Dev nD) (t : Fin cfg0.N) (h0 : ¬t.val = 0) (h1 : t.val = 127) :
    accAt0 V c t.val t.isLt = sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt)) := by
  obtain ⟨n, hn⟩ := t
  cases n with
  | zero => exact absurd rfl h0
  | succ n => exact (dif_pos h1).trans rfl

/-- The output block after point `t`: at the last point what the last run stores (the scratch); elsewhere a
    placeholder nothing reads (the block is idle there and not written back). -/
def outAt0 (c : Dev nD) (t : Fin cfg0.N) : Vec F S1x1 .f32 :=
  if h1 : t.val = 127 then
    out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => by have h' := (hcond0_0 t).mp h; omega) ((hcond0_1 t).mpr h1) (iblk0 V c 0 t) (iblk0 V c 1 t) (iblk0 V c 2 t) (iblk0 V c 3 t) (accAt0 V c (t.val - 1) (Nat.lt_of_le_of_lt (Nat.sub_le _ _) t.isLt))
  else VO0.read (Elt F) VO0.junk

/-! ## The region invariant -/

/-- The core's scoped buffers other than the kernel's staging buffers and its scratch, each at some contents. -/
def restS0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The class's invariant with the scratch cell taken out as a memref owned at some contents. -/
theorem PhiA0_eq (c : Dev nD) :
    (Pipeline.ΦA spec0 c : sProp 𝕄) = iprop(((∃ d, owns (c : Thread nD τ) scM0 fullShare d) ∗ restS0 c) ∗ (∃ r, prngReg c r)) := by
  unfold Pipeline.ΦA Pipeline.scopedRest restS0
  rw [bigSep_erase (i := cc0_scratch0) (by decide)]
  simp only [scM0, owns_whole]
  try rfl

/-- Before point `n`: the class's invariant at the start, afterwards the scratch at what the point before left. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (accAt0 V c n hn) ∗ restS0 c) ∗ (∃ r, prngReg c r)) := rfl
theorem PhiS0_pos (c : Dev nD) (n : ℕ) (h : n ≤ cfg0.N) (hz : n ≠ 0) :
    PhiS0 V c n h = iprop((owns (c : Thread nD τ) scM0 fullShare (accAt0 V c (n - 1) (by omega)) ∗ restS0 c) ∗ (∃ r, prngReg c r)) := by
  cases n with
  | zero => exact absurd rfl hz
  | succ n => rfl

/-! ## The proof data -/

/-- Pipeline 0's proof data on core `c`: the arrays as the region finds them; after the body each input buffer at
    its block, the output block at `outAt`; the invariant `PhiS`; nothing owed; the two arrays that two windows read
    are held half and half by their windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the point is the first, the last or neither, and
    that case's run applies; the invariant hands over the scratch (at anything at the first point, else at what the
    point before left) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  by_cases h1 : t.val = 127
  · have h0 : ¬t.val = 0 := by omega
    rw [show (dat0 V c).leavesExact 4 t = owns (c : Thread nD τ) (ms0_4 t) fullShare ((dat0 V c).after 4 t) from by
        unfold Dat.leavesExact; rw [liveAt0_4 t ((hcond0_1 t).mpr h1)], after0_4]
    rw [accAt0_C V c t h0 h1]
    rw [show outAt0 V c t = out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt)) from by
        unfold outAt0; exact dif_pos h1]
    unfold out0_C sout0_C; (try dsimp only)
    rw [PhiS0_castSucc V c t, PhiS0_pos V c _ _ h0]
    iintro ⟨⟨⟨HS0, Hr⟩, Hg⟩, Ho, ⟨%d0, H0⟩, ⟨%d1, H1⟩, ⟨%d2, H2⟩, ⟨%d3, H3⟩, ⟨%d4, H4⟩⟩
    iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt))).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_C c _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_C c _ _ _ _ _ _ _ _ _ _ _ _ _ _ _ _ _ _ _ _)
  · rw [Dat.leavesExact_idle (dat0 V c) 4 t (idleAt0_4 t (fun h => h1 ((hcond0_1 t).mp h))) (noFlush0_4 t (fun h => h1 ((hcond0_1 t).mp h)))]
    by_cases h0 : t.val = 0
    · rw [accAt0_A V c t h0 h1]
      unfold sout0_A; (try dsimp only)
      rw [PhiS0_castSucc V c t, PhiS0_zero V c _ _ h0, PhiA0_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [accAt0_B V c t h0 h1]
      unfold sout0_B; (try dsimp only)
      rw [PhiS0_castSucc V c t, PhiS0_pos V c _ _ h0]
      iintro ⟨⟨⟨HS0, Hr⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (accAt0 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS0, Hr⟩, Hg⟩
  isplitl [HS0 Hr]
  · isplitl [HS0]
    · iexists _; iexact HS0
    iexact Hr
  iexact Hg

end Region

end Cert.Kernel.Gen

end
-- ==== Proof.KernelBody1.lean ====
/-
  The body of the second pair-sum kernel run once per control case, at any float instance.

  The body keeps a running total in a one-cell scratch.  At the grid's first point (case A) it first stores zero there;
  at every point it loads its four input blocks and the scratch and stores back the scratch plus the block's partial sum;
  at the grid's last point (case C) it also copies the scratch into the one-cell output block.  At every other point
  (case B) the output block is not touched.  Each run below states, for whole staging buffers holding the input blocks,
  that the body terminates without a fault, leaves the inputs as they were, and leaves the scratch (and in case C the
  output block) overwritten by a list of stored pieces that covers it.
-/
import proofs.«159096_j1580547971931_1_alg».proof.Proof.Gen.Kernel.Launch
import proofs.«159096_j1580547971931_1_alg».proof.Proof.Gen.Kernel.Skeleton
import proofs.«159096_j1580547971931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first grid point": both coordinates are zero. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "This is the last grid point": the coordinates are (3, 31). -/
abbrev cond1_1 (i : grid1.Coords) : Prop := k1_cond2 i = 1#1

/-- The first condition holds exactly at point 0 of the 128. -/
theorem hcond1_0 : ∀ t : Fin cfg1.N, cond1_0 (grid1.coords t) ↔ t.val = 0 :=
  (by decide +kernel : ∀ t : Fin grid1.N, cond1_0 (grid1.coords t) ↔ t.val = 0)
/-- The second condition holds exactly at point 127. -/
theorem hcond1_1 : ∀ t : Fin cfg1.N, cond1_1 (grid1.coords t) ↔ t.val = 127 :=
  (by decide +kernel : ∀ t : Fin grid1.N, cond1_1 (grid1.coords t) ↔ t.val = 127)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point the output block is idle (nothing is stored into it) -/
theorem idleAt1_4 : ∀ t : Fin cfg1.N, ¬cond1_1 (grid1.coords t) → cfg1.idle 4 (grid1.coords t) = true := by decide +kernel
/-- and is not written back; -/
theorem noFlush1_4 : ∀ t : Fin cfg1.N, ¬cond1_1 (grid1.coords t) → (cfg1.win 4).flush t = false := by decide +kernel
/-- at the last point it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S32x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The scratch cell holding the running total. -/
abbrev scM1 : Memref sig .tc .vmem S1x1 .f32 := Memref.whole cc1_scratch0
/-- The views through which the scratch's and the output block's contents are stated. -/
abbrev VS1 : View sig .tc .vmem S1x1 .f32 := (scM1).view
abbrev VO1 : View sig .tc .vmem S1x1 .f32 := (Memref.whole cc1_stg4_0 : Memref sig .tc .vmem S1x1 .f32).view

/-! ## The three runs -/

set_option maxHeartbeats 1000000 in
/-- Case A, the first point: the scratch may hold anything; it ends overwritten by the found pieces. -/
noncomputable def kernelRun1_A (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 x1 : Vec F S32x128 .f32) (x2 x3 : Vec F S128x128 .f32) :
    { LS0 : List (View.Piece (Elt F) S1x1 .f32) //
      ∀ (x4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LS0)) -∗ K ⟨⟩))
          ⊢ wp frame (wpE (defs₀ (F := F)) Variants.none c none) E (cc1__pair_kernel i arg2 harg2 arg3 harg3 arg4 harg4 arg5 harg5 arg6 harg6 arg7 harg7) K } := by
  refine ⟨?_, fun x4 E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, H4, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexists _; iexact HS0

set_option maxHeartbeats 1000000 in
/-- Case B, a middle point: the scratch holds the running total `xs0`; the output block is handed back untouched. -/
noncomputable def kernelRun1_B (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 x1 : Vec F S32x128 .f32) (x2 x3 : Vec F S128x128 .f32) (xs0 : Vec F S1x1 .f32) :
    { LS0 : List (View.Piece (Elt F) S1x1 .f32) //
      ∀ (x4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LS0)) -∗ K ⟨⟩))
          ⊢ wp frame (wpE (defs₀ (F := F)) Variants.none c none) E (cc1__pair_kernel i arg2 harg2 arg3 harg3 arg4 harg4 arg5 harg5 arg6 harg6 arg7 harg7) K } := by
  refine ⟨?_, fun x4 E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, H4, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexists _; iexact HS0

set_option maxHeartbeats 1000000 in
/-- Case C, the last point: the scratch holds the running total `xs0`; both the scratch and the output block end
    overwritten by the found pieces. -/
noncomputable def kernelRun1_C (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 x1 : Vec F S32x128 .f32) (x2 x3 : Vec F S128x128 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__pair_kernel i arg2 harg2 arg3 harg3 arg4 harg4 arg5 harg5 arg6 harg6 arg7 harg7) K } := by
  refine ⟨?_, ?_, fun E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What the runs leave, read back -/

theorem scover1_A (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i) (x0 x1 : Vec F S32x128 .f32) (x2 x3 : Vec F S128x128 .f32) (y : S1x1.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S1x1.size (by sl_kernel_rfl) y
theorem scover1_B (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i) (x0 x1 : Vec F S32x128 .f32) (x2 x3 : Vec F S128x128 .f32) (xs0 : Vec F S1x1 .f32) (y : S1x1.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S1x1.size (by sl_kernel_rfl) y
theorem scover1_C (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 x1 : Vec F S32x128 .f32) (x2 x3 : Vec F S128x128 .f32) (xs0 : Vec F S1x1 .f32) (y : S1x1.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1x1.size (by sl_kernel_rfl) y
theorem cover1_C (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 x1 : Vec F S32x128 .f32) (x2 x3 : Vec F S128x128 .f32) (xs0 : Vec F S1x1 .f32) (y : S1x1.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1x1.size (by sl_kernel_rfl) y

/-- The scratch after case A, B, C: the run's pieces read back. -/
def sout1_A (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i) (x0 x1 : Vec F S32x128 .f32) (x2 x3 : Vec F S128x128 .f32) : Vec F S1x1 .f32 :=
  VS1.read (Elt F) (VS1.writes (Elt F) VS1.junk (kernelRun1_A c i arg2 harg2 arg3 harg3 arg4 harg4 arg5 harg5 arg6 harg6 arg7 harg7 hc0 hc1 x0 x1 x2 x3).1)
def sout1_B (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i) (x0 x1 : Vec F S32x128 .f32) (x2 x3 : Vec F S128x128 .f32) (xs0 : Vec F S1x1 .f32) : Vec F S1x1 .f32 :=
  VS1.read (Elt F) (VS1.writes (Elt F) VS1.junk (kernelRun1_B c i arg2 harg2 arg3 harg3 arg4 harg4 arg5 harg5 arg6 harg6 arg7 harg7 hc0 hc1 x0 x1 x2 x3 xs0).1)
def sout1_C (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 x1 : Vec F S32x128 .f32) (x2 x3 : Vec F S128x128 .f32) (xs0 : Vec F S1x1 .f32) : Vec F S1x1 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)
/-- The output block after case C. -/
def out1_C (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 x1 : Vec F S32x128 .f32) (x2 x3 : Vec F S128x128 .f32) (xs0 : Vec F S1x1 .f32) : Vec F S1x1 .f32 :=
  VO1.read (Elt F) (VO1.writes (Elt F) VO1.junk (kernelRun1_C c i arg2 harg2 arg3 harg3 arg4 harg4 arg5 harg5 arg6 harg6 arg7 harg7 hc0 hc1 x0 x1 x2 x3 xs0).1)

end Cert.Kernel.Gen

end
-- ==== Proof.KernelRegion1.lean ====
/-
  Pair-sum kernel 1 over its 128 grid points, at any float instance and at any contents `V` of the core's buffers
  when the region is entered.

  The scratch cell after point n (`accAt`) is defined by recursion on the point from the runs' read-back pieces: at
  point 0 the first-point run over the point's four input blocks, afterwards the middle (or, at point 127, the last)
  run over the point's blocks and what the point before left.  The output block matters at point 127 only, where the
  last run stores the scratch into it.  The region invariant before point n is the class's before the first point and
  afterwards holds the scratch at `accAt (n − 1)`, the core's other scoped buffers at anything and the generator
  register at some state.  With these the body obligation holds at every point.
-/
import proofs.«159096_j1580547971931_1_alg».proof.Proof.Gen.Kernel.Launch
import proofs.«159096_j1580547971931_1_alg».proof.Proof.Gen.Kernel.Skeleton
import proofs.«159096_j1580547971931_1_alg».proof.Proof.Gen.Kernel.Points
import proofs.«159096_j1580547971931_1_alg».proof.Proof.KernelBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point (each is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The scratch and the output block, point by point -/

/-- The scratch cell after point `n`. -/
def accAt1 (c : Dev nD) : (n : ℕ) → n < cfg1.N → Vec F S1x1 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr rfl) (fun h => by have h' := (hcond1_1 ⟨0, hn⟩).mp h; (try dsimp only at h'); omega) (iblk1 V c 0 ⟨0, hn⟩) (iblk1 V c 1 ⟨0, hn⟩) (iblk1 V c 2 ⟨0, hn⟩) (iblk1 V c 3 ⟨0, hn⟩)
  | n + 1, hn =>
    if h1 : n + 1 = 127 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => by have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => by have h' := (hcond1_0 ⟨n + 1, hn⟩).mp h; (try dsimp only at h'); omega) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))

theorem accAt1_A (c : Dev nD) (t : Fin cfg1.N) (h0 : t.val = 0) (h1 : ¬t.val = 127) :
    accAt1 V c t.val t.isLt = sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t) := by
  obtain ⟨n, hn⟩ := t
  cases n with
  | zero => exact rfl
  | succ n => exact absurd h0 (Nat.succ_ne_zero n)

theorem accAt1_B (c : Dev nD) (t : Fin cfg1.N) (h0 : ¬t.val = 0) (h1 : ¬t.val = 127) :
    accAt1 V c t.val t.isLt = sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (accAt1 V c (t.val - 1) (Nat.lt_of_le_of_lt (Nat.sub_le _ _) t.isLt)) := by
  obtain ⟨n, hn⟩ := t
  cases n with
  | zero => exact absurd rfl h0
  | succ n => exact (dif_neg h1).trans rfl

theorem accAt1_C (c : Dev nD) (t : Fin cfg1.N) (h0 : ¬t.val = 0) (h1 : t.val = 127) :
    accAt1 V c t.val t.isLt = sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (accAt1 V c (t.val - 1) (Nat.lt_of_le_of_lt (Nat.sub_le _ _) t.isLt)) := by
  obtain ⟨n, hn⟩ := t
  cases n with
  | zero => exact absurd rfl h0
  | succ n => exact (dif_pos h1).trans rfl

/-- The output block after point `t`: at the last point what the last run stores (the scratch); elsewhere a
    placeholder nothing reads (the block is idle there and not written back). -/
def outAt1 (c : Dev nD) (t : Fin cfg1.N) : Vec F S1x1 .f32 :=
  if h1 : t.val = 127 then
    out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => by have h' := (hcond1_0 t).mp h; omega) ((hcond1_1 t).mpr h1) (iblk1 V c 0 t) (iblk1 V c 1 t) (iblk1 V c 2 t) (iblk1 V c 3 t) (accAt1 V c (t.val - 1) (Nat.lt_of_le_of_lt (Nat.sub_le _ _) t.isLt))
  else VO1.read (Elt F) VO1.junk

/-! ## The region invariant -/

/-- The core's scoped buffers other than the kernel's staging buffers and its scratch, each at some contents. -/
def restS1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The class's invariant with the scratch cell taken out as a memref owned at some contents. -/
theorem PhiA1_eq (c : Dev nD) :
    (Pipeline.ΦA spec1 c : sProp 𝕄) = iprop(((∃ d, owns (c : Thread nD τ) scM1 fullShare d) ∗ restS1 c) ∗ (∃ r, prngReg c r)) := by
  unfold Pipeline.ΦA Pipeline.scopedRest restS1
  rw [bigSep_erase (i := cc1_scratch0) (by decide)]
  simp only [scM1, owns_whole]
  try rfl

/-- Before point `n`: the class's invariant at the start, afterwards the scratch at what the point before left. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (accAt1 V c n hn) ∗ restS1 c) ∗ (∃ r, prngReg c r)) := rfl
theorem PhiS1_pos (c : Dev nD) (n : ℕ) (h : n ≤ cfg1.N) (hz : n ≠ 0) :
    PhiS1 V c n h = iprop((owns (c : Thread nD τ) scM1 fullShare (accAt1 V c (n - 1) (by omega)) ∗ restS1 c) ∗ (∃ r, prngReg c r)) := by
  cases n with
  | zero => exact absurd rfl hz
  | succ n => rfl

/-! ## The proof data -/

/-- Pipeline 1's proof data on core `c`: the arrays as the region finds them; after the body each input buffer at
    its block, the output block at `outAt`; the invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the point is the first, the last or neither, and
    that case's run applies; the invariant hands over the scratch (at anything at the first point, else at what the
    point before left) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h1 : t.val = 127
  · have h0 : ¬t.val = 0 := by omega
    rw [show (dat1 V c).leavesExact 4 t = owns (c : Thread nD τ) (ms1_4 t) fullShare ((dat1 V c).after 4 t) from by
        unfold Dat.leavesExact; rw [liveAt1_4 t ((hcond1_1 t).mpr h1)], after1_4]
    rw [accAt1_C V c t h0 h1]
    rw [show outAt1 V c t = out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (accAt1 V c (t.val - 1) (Nat.lt_of_le_of_lt (Nat.sub_le _ _) t.isLt)) from by
        unfold outAt1; exact dif_pos h1]
    unfold out1_C sout1_C; (try dsimp only)
    rw [PhiS1_castSucc V c t, PhiS1_pos V c _ _ h0]
    iintro ⟨⟨⟨HS0, Hr⟩, Hg⟩, Ho, ⟨%d0, H0⟩, ⟨%d1, H1⟩, ⟨%d2, H2⟩, ⟨%d3, H3⟩, ⟨%d4, H4⟩⟩
    iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) (accAt1 V c (t.val - 1) (Nat.lt_of_le_of_lt (Nat.sub_le _ _) t.isLt))).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_C c _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_C c _ _ _ _ _ _ _ _ _ _ _ _ _ _ _ _ _ _ _ _)
  · rw [Dat.leavesExact_idle (dat1 V c) 4 t (idleAt1_4 t (fun h => h1 ((hcond1_1 t).mp h))) (noFlush1_4 t (fun h => h1 ((hcond1_1 t).mp h)))]
    by_cases h0 : t.val = 0
    · rw [accAt1_A V c t h0 h1]
      unfold sout1_A; (try dsimp only)
      rw [PhiS1_castSucc V c t, PhiS1_zero V c _ _ h0, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [accAt1_B V c t h0 h1]
      unfold sout1_B; (try dsimp only)
      rw [PhiS1_castSucc V c t, PhiS1_pos V c _ _ h0]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (accAt1 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨HS0, Hr⟩, Hg⟩
  isplitl [HS0 Hr]
  · isplitl [HS0]
    · iexists _; iexact HS0
    iexact Hr
  iexact Hg

end Region

end Cert.Kernel.Gen

end
-- ==== Proof.KernelBody2.lean ====
/-
  The body of the third pair-sum kernel run once per control case, at any float instance.

  The body keeps a running total in a one-cell scratch.  At the grid's first point (case A) it first stores zero there;
  at every point it loads its four input blocks and the scratch and stores back the scratch plus the block's partial sum;
  at the grid's last point (case C) it also copies the scratch into the one-cell output block.  At every other point
  (case B) the output block is not touched.  Each run below states, for whole staging buffers holding the input blocks,
  that the body terminates without a fault, leaves the inputs as they were, and leaves the scratch (and in case C the
  output block) overwritten by a list of stored pieces that covers it.
-/
import proofs.«159096_j1580547971931_1_alg».proof.Proof.Gen.Kernel.Launch
import proofs.«159096_j1580547971931_1_alg».proof.Proof.Gen.Kernel.Skeleton
import proofs.«159096_j1580547971931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first grid point": both coordinates are zero. -/
abbrev cond2_0 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "This is the last grid point": the coordinates are (3, 31). -/
abbrev cond2_1 (i : grid2.Coords) : Prop := k2_cond2 i = 1#1

/-- The first condition holds exactly at point 0 of the 128. -/
theorem hcond2_0 : ∀ t : Fin cfg2.N, cond2_0 (grid2.coords t) ↔ t.val = 0 :=
  (by decide +kernel : ∀ t : Fin grid2.N, cond2_0 (grid2.coords t) ↔ t.val = 0)
/-- The second condition holds exactly at point 127. -/
theorem hcond2_1 : ∀ t : Fin cfg2.N, cond2_1 (grid2.coords t) ↔ t.val = 127 :=
  (by decide +kernel : ∀ t : Fin grid2.N, cond2_1 (grid2.coords t) ↔ t.val = 127)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last point the output block is idle (nothing is stored into it) -/
theorem idleAt2_4 : ∀ t : Fin cfg2.N, ¬cond2_1 (grid2.coords t) → cfg2.idle 4 (grid2.coords t) = true := by decide +kernel
/-- and is not written back; -/
theorem noFlush2_4 : ∀ t : Fin cfg2.N, ¬cond2_1 (grid2.coords t) → (cfg2.win 4).flush t = false := by decide +kernel
/-- at the last point it is live. -/
theorem liveAt2_4 : ∀ t : Fin cfg2.N, cond2_1 (grid2.coords t) → cfg2.idle 4 (grid2.coords t) = false := by decide +kernel

/-! ## The memrefs the body is called with -/

abbrev ms2_0 (t : Fin cfg2.N) : Memref sig .tc .vmem S32x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S32x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
/-- The scratch cell holding the running total. -/
abbrev scM2 : Memref sig .tc .vmem S1x1 .f32 := Memref.whole cc2_scratch0
/-- The views through which the scratch's and the output block's contents are stated. -/
abbrev VS2 : View sig .tc .vmem S1x1 .f32 := (scM2).view
abbrev VO2 : View sig .tc .vmem S1x1 .f32 := (Memref.whole cc2_stg4_0 : Memref sig .tc .vmem S1x1 .f32).view

/-! ## The three runs -/

set_option maxHeartbeats 1000000 in
/-- Case A, the first point: the scratch may hold anything; it ends overwritten by the found pieces. -/
noncomputable def kernelRun2_A (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i)
    (x0 x1 : Vec F S32x128 .f32) (x2 x3 : Vec F S128x128 .f32) :
    { LS0 : List (View.Piece (Elt F) S1x1 .f32) //
      ∀ (x4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LS0)) -∗ K ⟨⟩))
          ⊢ wp frame (wpE (defs₀ (F := F)) Variants.none c none) E (cc2__pair_kernel i arg2 harg2 arg3 harg3 arg4 harg4 arg5 harg5 arg6 harg6 arg7 harg7) K } := by
  refine ⟨?_, fun x4 E K => ?run⟩
  case run =>
    simp only [cc2__pair_kernel_eq_skeleton]; unfold cc2__pair_kernel_skel
    unfold owns
    iintro ⟨⟨%f0, %hf0, H0⟩, ⟨%f1, %hf1, H1⟩, ⟨%f2, %hf2, H2⟩, ⟨%f3, %hf3, H3⟩, H4, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexists _; iexact HS0

set_option maxHeartbeats 1000000 in
/-- Case B, a middle point: the scratch holds the running total `xs0`; the output block is handed back untouched. -/
noncomputable def kernelRun2_B (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i)
    (x0 x1 : Vec F S32x128 .f32) (x2 x3 : Vec F S128x128 .f32) (xs0 : Vec F S1x1 .f32) :
    { LS0 : List (View.Piece (Elt F) S1x1 .f32) //
      ∀ (x4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LS0)) -∗ K ⟨⟩))
          ⊢ wp frame (wpE (defs₀ (F := F)) Variants.none c none) E (cc2__pair_kernel i arg2 harg2 arg3 harg3 arg4 harg4 arg5 harg5 arg6 harg6 arg7 harg7) K } := by
  refine ⟨?_, fun x4 E K => ?run⟩
  case run =>
    simp only [cc2__pair_kernel_eq_skeleton]; unfold cc2__pair_kernel_skel
    unfold owns
    iintro ⟨⟨%f0, %hf0, H0⟩, ⟨%f1, %hf1, H1⟩, ⟨%f2, %hf2, H2⟩, ⟨%f3, %hf3, H3⟩, H4, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexists _; iexact HS0

set_option maxHeartbeats 1000000 in
/-- Case C, the last point: the scratch holds the running total `xs0`; both the scratch and the output block end
    overwritten by the found pieces. -/
noncomputable def kernelRun2_C (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 x1 : Vec F S32x128 .f32) (x2 x3 : Vec F S128x128 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__pair_kernel i arg2 harg2 arg3 harg3 arg4 harg4 arg5 harg5 arg6 harg6 arg7 harg7) K } := by
  refine ⟨?_, ?_, fun E K => ?run⟩
  case run =>
    simp only [cc2__pair_kernel_eq_skeleton]; unfold cc2__pair_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What the runs leave, read back -/

theorem scover2_A (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i) (x0 x1 : Vec F S32x128 .f32) (x2 x3 : Vec F S128x128 .f32) (y : S1x1.Idx) :
    ∃ pc ∈ (kernelRun2_A c i arg2 harg2 arg3 harg3 arg4 harg4 arg5 harg5 arg6 harg6 arg7 harg7 hc0 hc1 x0 x1 x2 x3).1, y ∈ pc.1.set :=
  View.cover_of_tiledL (kernelRun2_A c i arg2 harg2 arg3 harg3 arg4 harg4 arg5 harg5 arg6 harg6 arg7 harg7 hc0 hc1 x0 x1 x2 x3).1 S1x1.size (by sl_kernel_rfl) y
theorem scover2_B (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i) (x0 x1 : Vec F S32x128 .f32) (x2 x3 : Vec F S128x128 .f32) (xs0 : Vec F S1x1 .f32) (y : S1x1.Idx) :
    ∃ pc ∈ (kernelRun2_B c i arg2 harg2 arg3 harg3 arg4 harg4 arg5 harg5 arg6 harg6 arg7 harg7 hc0 hc1 x0 x1 x2 x3 xs0).1, y ∈ pc.1.set :=
  View.cover_of_tiledL (kernelRun2_B c i arg2 harg2 arg3 harg3 arg4 harg4 arg5 harg5 arg6 harg6 arg7 harg7 hc0 hc1 x0 x1 x2 x3 xs0).1 S1x1.size (by sl_kernel_rfl) y
theorem scover2_C (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i) (x0 x1 : Vec F S32x128 .f32) (x2 x3 : Vec F S128x128 .f32) (xs0 : Vec F S1x1 .f32) (y : S1x1.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S1x1.size (by sl_kernel_rfl) y
theorem cover2_C (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i) (x0 x1 : Vec F S32x128 .f32) (x2 x3 : Vec F S128x128 .f32) (xs0 : Vec F S1x1 .f32) (y : S1x1.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S1x1.size (by sl_kernel_rfl) y

/-- The scratch after case A, B, C: the run's pieces read back. -/
def sout2_A (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i) (x0 x1 : Vec F S32x128 .f32) (x2 x3 : Vec F S128x128 .f32) : Vec F S1x1 .f32 :=
  VS2.read (Elt F) (VS2.writes (Elt F) VS2.junk (kernelRun2_A c i arg2 harg2 arg3 harg3 arg4 harg4 arg5 harg5 arg6 harg6 arg7 harg7 hc0 hc1 x0 x1 x2 x3).1)
def sout2_B (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i) (x0 x1 : Vec F S32x128 .f32) (x2 x3 : Vec F S128x128 .f32) (xs0 : Vec F S1x1 .f32) : Vec F S1x1 .f32 :=
  VS2.read (Elt F) (VS2.writes (Elt F) VS2.junk (kernelRun2_B c i arg2 harg2 arg3 harg3 arg4 harg4 arg5 harg5 arg6 harg6 arg7 harg7 hc0 hc1 x0 x1 x2 x3 xs0).1)
def sout2_C (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i) (x0 x1 : Vec F S32x128 .f32) (x2 x3 : Vec F S128x128 .f32) (xs0 : Vec F S1x1 .f32) : Vec F S1x1 .f32 :=
  VS2.read (Elt F) (VS2.writes (Elt F) VS2.junk (kernelRun2_C c i arg2 harg2 arg3 harg3 arg4 harg4 arg5 harg5 arg6 harg6 arg7 harg7 hc0 hc1 x0 x1 x2 x3 xs0).2.1)
/-- The output block after case C. -/
def out2_C (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i) (x0 x1 : Vec F S32x128 .f32) (x2 x3 : Vec F S128x128 .f32) (xs0 : Vec F S1x1 .f32) : Vec F S1x1 .f32 :=
  VO2.read (Elt F) (VO2.writes (Elt F) VO2.junk (kernelRun2_C c i arg2 harg2 arg3 harg3 arg4 harg4 arg5 harg5 arg6 harg6 arg7 harg7 hc0 hc1 x0 x1 x2 x3 xs0).1)

end Cert.Kernel.Gen

end
-- ==== Proof.KernelRegion2.lean ====
/-
  Pair-sum kernel 2 over its 128 grid points, at any float instance and at any contents `V` of the core's buffers
  when the region is entered.

  The scratch cell after point n (`accAt`) is defined by recursion on the point from the runs' read-back pieces: at
  point 0 the first-point run over the point's four input blocks, afterwards the middle (or, at point 127, the last)
  run over the point's blocks and what the point before left.  The output block matters at point 127 only, where the
  last run stores the scratch into it.  The region invariant before point n is the class's before the first point and
  afterwards holds the scratch at `accAt (n − 1)`, the core's other scoped buffers at anything and the generator
  register at some state.  With these the body obligation holds at every point.
-/
import proofs.«159096_j1580547971931_1_alg».proof.Proof.Gen.Kernel.Launch
import proofs.«159096_j1580547971931_1_alg».proof.Proof.Gen.Kernel.Skeleton
import proofs.«159096_j1580547971931_1_alg».proof.Proof.Gen.Kernel.Points
import proofs.«159096_j1580547971931_1_alg».proof.Proof.KernelBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point (each is fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The scratch and the output block, point by point -/

/-- The scratch cell after point `n`. -/
def accAt2 (c : Dev nD) : (n : ℕ) → n < cfg2.N → Vec F S1x1 .f32
  | 0, hn => sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr rfl) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩)
  | n + 1, hn =>
    if h1 : n + 1 = 127 then
      sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => by have h' := (hcond2_0 ⟨n + 1, hn⟩).mp h; (try dsimp only at h'); omega) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (accAt2 c n (Nat.lt_of_succ_lt hn))
    else
      sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => by have h' := (hcond2_0 ⟨n + 1, hn⟩).mp h; (try dsimp only at h'); omega) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (accAt2 c n (Nat.lt_of_succ_lt hn))

theorem accAt2_A (c : Dev nD) (t : Fin cfg2.N) (h0 : t.val = 0) (h1 : ¬t.val = 127) :
    accAt2 V c t.val t.isLt = sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t) := by
  obtain ⟨n, hn⟩ := t
  cases n with
  | zero => exact rfl
  | succ n => exact absurd h0 (Nat.succ_ne_zero n)

theorem accAt2_B (c : Dev nD) (t : Fin cfg2.N) (h0 : ¬t.val = 0) (h1 : ¬t.val = 127) :
    accAt2 V c t.val t.isLt = sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (accAt2 V c (t.val - 1) (Nat.lt_of_le_of_lt (Nat.sub_le _ _) t.isLt)) := by
  obtain ⟨n, hn⟩ := t
  cases n with
  | zero => exact absurd rfl h0
  | succ n => exact (dif_neg h1).trans rfl

theorem accAt2_C (c : Dev nD) (t : Fin cfg2.N) (h0 : ¬t.val = 0) (h1 : t.val = 127) :
    accAt2 V c t.val t.isLt = sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (accAt2 V c (t.val - 1) (Nat.lt_of_le_of_lt (Nat.sub_le _ _) t.isLt)) := by
  obtain ⟨n, hn⟩ := t
  cases n with
  | zero => exact absurd rfl h0
  | succ n => exact (dif_pos h1).trans rfl

/-- The output block after point `t`: at the last point what the last run stores (the scratch); elsewhere a
    placeholder nothing reads (the block is idle there and not written back). -/
def outAt2 (c : Dev nD) (t : Fin cfg2.N) : Vec F S1x1 .f32 :=
  if h1 : t.val = 127 then
    out2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => by have h' := (hcond2_0 t).mp h; omega) ((hcond2_1 t).mpr h1) (iblk2 V c 0 t) (iblk2 V c 1 t) (iblk2 V c 2 t) (iblk2 V c 3 t) (accAt2 V c (t.val - 1) (Nat.lt_of_le_of_lt (Nat.sub_le _ _) t.isLt))
  else VO2.read (Elt F) VO2.junk

/-! ## The region invariant -/

/-- The core's scoped buffers other than the kernel's staging buffers and its scratch, each at some contents. -/
def restS2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

/-- The class's invariant with the scratch cell taken out as a memref owned at some contents. -/
theorem PhiA2_eq (c : Dev nD) :
    (Pipeline.ΦA spec2 c : sProp 𝕄) = iprop(((∃ d, owns (c : Thread nD τ) scM2 fullShare d) ∗ restS2 c) ∗ (∃ r, prngReg c r)) := by
  unfold Pipeline.ΦA Pipeline.scopedRest restS2
  rw [bigSep_erase (i := cc2_scratch0) (by decide)]
  simp only [scM2, owns_whole]
  try rfl

/-- Before point `n`: the class's invariant at the start, afterwards the scratch at what the point before left. -/
def PhiS2 (c : Dev nD) : (n : ℕ) → n ≤ cfg2.N → sProp 𝕄
  | 0, _ => Pipeline.ΦA spec2 c
  | n + 1, hn => iprop((owns (c : Thread nD τ) scM2 fullShare (accAt2 V c n hn) ∗ restS2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare (accAt2 V c n hn) ∗ restS2 c) ∗ (∃ r, prngReg c r)) := rfl
theorem PhiS2_pos (c : Dev nD) (n : ℕ) (h : n ≤ cfg2.N) (hz : n ≠ 0) :
    PhiS2 V c n h = iprop((owns (c : Thread nD τ) scM2 fullShare (accAt2 V c (n - 1) (by omega)) ∗ restS2 c) ∗ (∃ r, prngReg c r)) := by
  cases n with
  | zero => exact absurd rfl hz
  | succ n => rfl

/-! ## The proof data -/

/-- Pipeline 2's proof data on core `c`: the arrays as the region finds them; after the body each input buffer at
    its block, the output block at `outAt`; the invariant `PhiS`; nothing owed; the two arrays that two windows read
    are held half and half by their windows. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ t := PhiS2 V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the point is the first, the last or neither, and
    that case's run applies; the invariant hands over the scratch (at anything at the first point, else at what the
    point before left) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  rw [show (dat2 V c).leavesExact 3 t = owns (c : Thread nD τ) (ms2_3 t) fullShare ((dat2 V c).after 3 t) from by
        unfold Dat.leavesExact; rw [liveAt2_3 t], after2_3]
  by_cases h1 : t.val = 127
  · have h0 : ¬t.val = 0 := by omega
    rw [show (dat2 V c).leavesExact 4 t = owns (c : Thread nD τ) (ms2_4 t) fullShare ((dat2 V c).after 4 t) from by
        unfold Dat.leavesExact; rw [liveAt2_4 t ((hcond2_1 t).mpr h1)], after2_4]
    rw [accAt2_C V c t h0 h1]
    rw [show outAt2 V c t = out2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (accAt2 V c (t.val - 1) (Nat.lt_of_le_of_lt (Nat.sub_le _ _) t.isLt)) from by
        unfold outAt2; exact dif_pos h1]
    unfold out2_C sout2_C; (try dsimp only)
    rw [PhiS2_castSucc V c t, PhiS2_pos V c _ _ h0]
    iintro ⟨⟨⟨HS0, Hr⟩, Hg⟩, Ho, ⟨%d0, H0⟩, ⟨%d1, H1⟩, ⟨%d2, H2⟩, ⟨%d3, H3⟩, ⟨%d4, H4⟩⟩
    iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) (accAt2 V c (t.val - 1) (Nat.lt_of_le_of_lt (Nat.sub_le _ _) t.isLt))).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover2_C c _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_C c _ _ _ _ _ _ _ _ _ _ _ _ _ _ _ _ _ _ _ _)
  · rw [Dat.leavesExact_idle (dat2 V c) 4 t (idleAt2_4 t (fun h => h1 ((hcond2_1 t).mp h))) (noFlush2_4 t (fun h => h1 ((hcond2_1 t).mp h)))]
    by_cases h0 : t.val = 0
    · rw [accAt2_A V c t h0 h1]
      unfold sout2_A; (try dsimp only)
      rw [PhiS2_castSucc V c t, PhiS2_zero V c _ _ h0, PhiA2_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [accAt2_B V c t h0 h1]
      unfold sout2_B; (try dsimp only)
      rw [PhiS2_castSucc V c t, PhiS2_pos V c _ _ h0]
      iintro ⟨⟨⟨HS0, Hr⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (accAt2 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 128 := N_2; omega
  rw [show (dat2 V c).Φ (Fin.last cfg2.N) = PhiS2 V c (Fin.last cfg2.N).val (Nat.le_of_lt_succ (Fin.last cfg2.N).isLt) from rfl, PhiS2_pos V c _ _ hne, PhiA2_eq]
  iintro ⟨⟨HS0, Hr⟩, Hg⟩
  isplitl [HS0 Hr]
  · isplitl [HS0]
    · iexists _; iexact HS0
    iexact Hr
  iexact Hg

end Region

end Cert.Kernel.Gen

end
-- ==== Proof.KernelFrame.lean ====
/-
  The run of the whole program, at any float instance: host operations, three pair-sum regions, host operations.

  Between two of these every unscoped buffer of a core is held at a named valuation: the launch contents, then the
  first stretch of host operations applied, then after each region the region's one-cell output array overwritten by
  what the region's last grid point writes back, then the last stretch applied.  Each region is entered from the
  valuation before it and left at the one after it; in the first and third region two windows stand on one table, so
  that table's buffer is held half and half and joined again at the exit.  The run ends with every unscoped buffer
  read at the last valuation, from which the frame claim and the result's value are both read.
-/
import proofs.«159096_j1580547971931_1_alg».proof.Proof.Gen.Kernel.Launch
import proofs.«159096_j1580547971931_1_alg».proof.Proof.Gen.Kernel.Skeleton
import proofs.«159096_j1580547971931_1_alg».proof.Proof.Gen.Kernel.Points
import proofs.«159096_j1580547971931_1_alg».proof.Proof.KernelRegion0
import proofs.«159096_j1580547971931_1_alg».proof.Proof.KernelRegion1
import proofs.«159096_j1580547971931_1_alg».proof.Proof.KernelRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit its output array holds what the write-back at the last point leaves, and every other buffer
    what it held at entry. -/
def W2 (c : Dev nD) : Valuation τ sig (Elt F) :=
  Function.update (W1 m ρ c) (Proc.devRef .tc main_v26) ((dat0 (V1 m ρ) c).arrAt 4 cfg0.N)
abbrev V2 : (c : Dev nD) → (b : Ref sig .tc) → Buf (Elt F) ((c : Thread nD τ).loc b) := fun c b => W2 m ρ c b
theorem W2_out (c : Dev nD) : W2 m ρ c (Proc.devRef .tc main_v26) = (dat0 (V1 m ρ) c).arrAt 4 cfg0.N := by
  unfold W2; exact Function.update_self ..
theorem W2_of_ne (c : Dev nD) (b : Ref sig .tc) (hb : b ≠ main_v26) : W2 m ρ c (Proc.devRef .tc b) = W1 m ρ c (Proc.devRef .tc b) := by
  unfold W2; exact Function.update_of_ne (StableHlo.devRef_ne_of_ne hb) ..
theorem hF0 (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq0 (V1 m ρ) c 0)).trans (W2_of_ne m ρ c _ (by decide)).symm
  | ⟨1, _⟩ => exact (((dat0 (V1 m ρ) c).arrAt_in 1 rfl _).trans (A_eq0 (V1 m ρ) c 1)).trans (W2_of_ne m ρ c _ (by decide)).symm
  | ⟨2, _⟩ => exact (((dat0 (V1 m ρ) c).arrAt_in 2 rfl _).trans (A_eq0 (V1 m ρ) c 2)).trans (W2_of_ne m ρ c _ (by decide)).symm
  | ⟨3, _⟩ => exact (((dat0 (V1 m ρ) c).arrAt_in 3 rfl _).trans (A_eq0 (V1 m ρ) c 3)).trans (W2_of_ne m ρ c _ (by decide)).symm
  | ⟨4, _⟩ => exact (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨4, Finset.mem_univ _, e.symm⟩)

/-- At region 1's exit its output array holds what the write-back at the last point leaves, and every other buffer
    what it held at entry. -/
def W3 (c : Dev nD) : Valuation τ sig (Elt F) :=
  Function.update (W2 m ρ c) (Proc.devRef .tc main_v27) ((dat1 (V2 m ρ) c).arrAt 4 cfg1.N)
abbrev V3 : (c : Dev nD) → (b : Ref sig .tc) → Buf (Elt F) ((c : Thread nD τ).loc b) := fun c b => W3 m ρ c b
theorem W3_out (c : Dev nD) : W3 m ρ c (Proc.devRef .tc main_v27) = (dat1 (V2 m ρ) c).arrAt 4 cfg1.N := by
  unfold W3; exact Function.update_self ..
theorem W3_of_ne (c : Dev nD) (b : Ref sig .tc) (hb : b ≠ main_v27) : W3 m ρ c (Proc.devRef .tc b) = W2 m ρ c (Proc.devRef .tc b) := by
  unfold W3; exact Function.update_of_ne (StableHlo.devRef_ne_of_ne hb) ..
theorem hF1 (c : Dev nD) (w : Fin cfg1.W) : (dat1 (V2 m ρ) c).arrAt w cfg1.N = V3 m ρ c (Pipeline.arrRef spec1 w) := by
  match w with
  | ⟨0, _⟩ => exact (((dat1 (V2 m ρ) c).arrAt_in 0 rfl _).trans (A_eq1 (V2 m ρ) c 0)).trans (W3_of_ne m ρ c _ (by decide)).symm
  | ⟨1, _⟩ => exact (((dat1 (V2 m ρ) c).arrAt_in 1 rfl _).trans (A_eq1 (V2 m ρ) c 1)).trans (W3_of_ne m ρ c _ (by decide)).symm
  | ⟨2, _⟩ => exact (((dat1 (V2 m ρ) c).arrAt_in 2 rfl _).trans (A_eq1 (V2 m ρ) c 2)).trans (W3_of_ne m ρ c _ (by decide)).symm
  | ⟨3, _⟩ => exact (((dat1 (V2 m ρ) c).arrAt_in 3 rfl _).trans (A_eq1 (V2 m ρ) c 3)).trans (W3_of_ne m ρ c _ (by decide)).symm
  | ⟨4, _⟩ => exact (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨4, Finset.mem_univ _, e.symm⟩)

/-- At region 2's exit its output array holds what the write-back at the last point leaves, and every other buffer
    what it held at entry. -/
def W4 (c : Dev nD) : Valuation τ sig (Elt F) :=
  Function.update (W3 m ρ c) (Proc.devRef .tc main_v28) ((dat2 (V3 m ρ) c).arrAt 4 cfg2.N)
abbrev V4 : (c : Dev nD) → (b : Ref sig .tc) → Buf (Elt F) ((c : Thread nD τ).loc b) := fun c b => W4 m ρ c b
theorem W4_out (c : Dev nD) : W4 m ρ c (Proc.devRef .tc main_v28) = (dat2 (V3 m ρ) c).arrAt 4 cfg2.N := by
  unfold W4; exact Function.update_self ..
theorem W4_of_ne (c : Dev nD) (b : Ref sig .tc) (hb : b ≠ main_v28) : W4 m ρ c (Proc.devRef .tc b) = W3 m ρ c (Proc.devRef .tc b) := by
  unfold W4; exact Function.update_of_ne (StableHlo.devRef_ne_of_ne hb) ..
theorem hF2 (c : Dev nD) (w : Fin cfg2.W) : (dat2 (V3 m ρ) c).arrAt w cfg2.N = V4 m ρ c (Pipeline.arrRef spec2 w) := by
  match w with
  | ⟨0, _⟩ => exact (((dat2 (V3 m ρ) c).arrAt_in 0 rfl _).trans (A_eq2 (V3 m ρ) c 0)).trans (W4_of_ne m ρ c _ (by decide)).symm
  | ⟨1, _⟩ => exact (((dat2 (V3 m ρ) c).arrAt_in 1 rfl _).trans (A_eq2 (V3 m ρ) c 1)).trans (W4_of_ne m ρ c _ (by decide)).symm
  | ⟨2, _⟩ => exact (((dat2 (V3 m ρ) c).arrAt_in 2 rfl _).trans (A_eq2 (V3 m ρ) c 2)).trans (W4_of_ne m ρ c _ (by decide)).symm
  | ⟨3, _⟩ => exact (((dat2 (V3 m ρ) c).arrAt_in 3 rfl _).trans (A_eq2 (V3 m ρ) c 3)).trans (W4_of_ne m ρ c _ (by decide)).symm
  | ⟨4, _⟩ => exact (W4_out m ρ c).symm
theorem hrest2 (c : Dev nD) : ∀ b, b ∉ Finset.univ.image (Pipeline.arrRef spec2) → V4 m ρ c b = V3 m ρ c b :=
  fun b hb => W4_of_ne m ρ c b fun e => hb (Finset.mem_image.mpr ⟨4, Finset.mem_univ _, e.symm⟩)

/-- After the last stretch of host operations. -/
abbrev W5 : Dev nD → Valuation τ sig (Elt F) := fun c => StableHlo.after hostOps3 (W4 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem winFacts₀_0 : Pipeline.WinFacts₀ (pcfgs (F := F) 0).spec := winFacts₀0
theorem winFacts₀_1 : Pipeline.WinFacts₀ (pcfgs (F := F) 1).spec := launch1.win.to₀
theorem winFacts₀_2 : Pipeline.WinFacts₀ (pcfgs (F := F) 2).spec := winFacts₀2

/-! ### Region 0: two windows read the means' table and two the variances' table, so each table is held half and half -/

theorem share0_0 (c : Dev nD) : (pdats m ρ 0 c).share 0 = fullShare.left := rfl
theorem share0_1 (c : Dev nD) : (pdats m ρ 0 c).share 1 = fullShare.left := rfl
theorem share0_2 (c : Dev nD) : (pdats m ρ 0 c).share 2 = fullShare.right := rfl
theorem share0_3 (c : Dev nD) : (pdats m ρ 0 c).share 3 = fullShare.right := rfl
theorem share0_4 (c : Dev nD) : (pdats m ρ 0 c).share 4 = fullShare := rfl

/-- The distinct buffers behind region 0's five windows. -/
theorem arrImage0 : Finset.univ.image (Pipeline.arrRef spec0) = {main_v22, main_v24, main_v26} := by decide

/-- The pipeline's arrays at contents `G` of the buffers behind them, window by window, each at its share. -/
theorem arrays0_eq (c : Dev nD) (G : (b : Ref sig .tc) → Buf (Elt F) ((c : Thread nD τ).loc b))
    (X : (w : Fin (Pipeline.pin (pcfgs (F := F)) adm 0).W) → Buf (Elt F) (((Pipeline.pin (pcfgs (F := F)) adm 0).spec w).arr.view.loc (c : Thread nD τ)))
    (hX : ∀ w, X w = G (Pipeline.arrRef spec0 w)) :
    (pdats m ρ 0 c).arrays X = bigSep Finset.univ fun w : Fin (Pipeline.pin (pcfgs (F := F)) adm 0).W =>
      (((c : Thread nD τ).loc (Pipeline.arrRef spec0 w)) ↦{(pdats m ρ 0 c).share w} G (Pipeline.arrRef spec0 w) : sProp 𝕄) := by
  have harr : ∀ w, ((Pipeline.pin (pcfgs (F := F)) adm 0).spec w).arr.IsWhole := arr_whole0
  unfold Pipeline.Dat.arrays
  exact bigSep_congr fun w _ => by rw [(harr w).set_eq_univ, hX w]; rfl

/-- The pipeline's arrays at contents `G` (the two windows on one table holding the same contents) are the three
    buffers behind them, each whole: the halves of a table's share joined, or a whole share split. -/
theorem arrays0_iff (c : Dev nD) (G : (b : Ref sig .tc) → Buf (Elt F) ((c : Thread nD τ).loc b))
    (X : (w : Fin (Pipeline.pin (pcfgs (F := F)) adm 0).W) → Buf (Elt F) (((Pipeline.pin (pcfgs (F := F)) adm 0).spec w).arr.view.loc (c : Thread nD τ)))
    (hX : ∀ w, X w = G (Pipeline.arrRef spec0 w)) :
    (pdats m ρ 0 c).arrays X ⊣⊢ (Pipeline.arrBufs (Ix := Unit) (Name := ℕ) (U := UR sig nD τ) (Lvl := ℕ) spec0 c G : sProp 𝕄) := by
  rw [arrays0_eq m ρ c G X hX]
  unfold Pipeline.arrBufs
  rw [arrImage0, bigSep_insert (by decide), bigSep_insert (by decide), bigSep_singleton]
  rw [show (Finset.univ : Finset (Fin (Pipeline.pin (pcfgs (F := F)) adm 0).W)) = (Finset.univ : Finset (Fin 5)) from rfl, bigSep_W0]
  simp only [share0_0, share0_1, share0_2, share0_3, share0_4]
  show iprop((((c : Thread nD τ).loc main_v22) ↦{fullShare.left} G main_v22) ∗ (((c : Thread nD τ).loc main_v24) ↦{fullShare.left} G main_v24) ∗ (((c : Thread nD τ).loc main_v22) ↦{fullShare.right} G main_v22) ∗ (((c : Thread nD τ).loc main_v24) ↦{fullShare.right} G main_v24) ∗ (((c : Thread nD τ).loc main_v26) ↦{fullShare} G main_v26))
    ⊣⊢ (iprop((((c : Thread nD τ).loc main_v22) ↦{fullShare} G main_v22) ∗ (((c : Thread nD τ).loc main_v24) ↦{fullShare} G main_v24) ∗ (((c : Thread nD τ).loc main_v26) ↦{fullShare} G main_v26)) : sProp 𝕄)
  constructor
  · iintro ⟨H0, H1, H2, H3, H4⟩
    isplitl [H0 H2]
    · iapply (pointsTo_share (PosShare.mem_left_op_right fullShare)).2
      isplitl [H0]; · iexact H0
      iexact H2
    isplitl [H1 H3]
    · iapply (pointsTo_share (PosShare.mem_left_op_right fullShare)).2
      isplitl [H1]; · iexact H1
      iexact H3
    iexact H4
  · iintro ⟨Ha, Hb, H4⟩
    ihave Ha' := (pointsTo_share (PosShare.mem_left_op_right fullShare)).1 $$ Ha
    ihave Hb' := (pointsTo_share (PosShare.mem_left_op_right fullShare)).1 $$ Hb
    icases Ha' with ⟨H0, H2⟩
    icases Hb' with ⟨H1, H3⟩
    isplitl [H0]; · iexact H0
    isplitl [H1]; · iexact H1
    isplitl [H2]; · iexact H2
    isplitl [H3]; · iexact H3
    iexact H4

/-- ENTRY: the core's unscoped buffers at the entry contents are the pipeline's arrays at entry and the rest. -/
theorem entry0 (c : Dev nD) :
    (unscopedBufs c (V1 m ρ c) : sProp 𝕄) ⊢ iprop((pdats m ρ 0 c).arrays ((pdats m ρ 0 c).arrAt · 0) ∗ Pipeline.unscopedRest (Ix := Unit) (Name := ℕ) (U := UR sig nD τ) (Lvl := ℕ) spec0 c (V1 m ρ c)) := by
  rw [Pipeline.unscopedBufs_split₀ cfgs 0 winFacts₀0.arr_unscoped c (V1 m ρ c)]
  exact sep_mono (arrays0_iff m ρ c (V1 m ρ c) _ (fun w => rfl)).2 .rfl

/-- EXIT: the arrays at their final contents and the rest are the unscoped buffers at the exit contents. -/
theorem exit0 (c : Dev nD) :
    iprop((pdats m ρ 0 c).arrays ((pdats m ρ 0 c).arrAt · cfg0.N) ∗ Pipeline.unscopedRest (Ix := Unit) (Name := ℕ) (U := UR sig nD τ) (Lvl := ℕ) spec0 c (V1 m ρ c))
      ⊢ (unscopedBufs c (V2 m ρ c) : sProp 𝕄) := by
  rw [Pipeline.unscopedBufs_split₀ cfgs 0 winFacts₀0.arr_unscoped c (V2 m ρ c)]
  refine sep_mono (arrays0_iff m ρ c (V2 m ρ c) _ (hF0 m ρ c)).1 (Entails.of_eq ?_)
  unfold Pipeline.unscopedRest
  exact bigSep_congr fun b hb => by rw [hrest0 m ρ c b (Finset.mem_sdiff.mp hb).2]

/-! ### Region 1: its five windows stand on five distinct buffers, each held whole -/

theorem entry1 (c : Dev nD) :
    (unscopedBufs c (V2 m ρ c) : sProp 𝕄) ⊢ iprop((pdats m ρ 1 c).arrays ((pdats m ρ 1 c).arrAt · 0) ∗ Pipeline.unscopedRest (Ix := Unit) (Name := ℕ) (U := UR sig nD τ) (Lvl := ℕ) spec1 c (V2 m ρ c)) :=
  Pipeline.arrays_of_unscopedBufs (p := 1) (pcfgs (F := F)) adm (pdats m ρ) launch1.win launch1.arr_whole c
    ((pdats m ρ 1 c).share_full fun _ => rfl) (V2 m ρ c) fun _ => rfl

theorem exit1 (c : Dev nD) :
    iprop((pdats m ρ 1 c).arrays ((pdats m ρ 1 c).arrAt · cfg1.N) ∗ Pipeline.unscopedRest (Ix := Unit) (Name := ℕ) (U := UR sig nD τ) (Lvl := ℕ) spec1 c (V2 m ρ c))
      ⊢ (unscopedBufs c (V3 m ρ c) : sProp 𝕄) :=
  Pipeline.unscopedBufs_of_arrays (p := 1) (pcfgs (F := F)) adm (Ix := Unit) (Name := ℕ) (U := UR sig nD τ) (Lvl := ℕ)
    launch1.win launch1.arr_whole c (pdats m ρ) ((pdats m ρ 1 c).share_full fun _ => rfl)
    (V2 m ρ c) (V3 m ρ c) ((pdats m ρ 1 c).arrAt · cfg1.N) (hF1 m ρ c) (hrest1 m ρ c)

/-! ### Region 2: two windows read the means' table and two the variances' table, so each table is held half and half -/

theorem share2_0 (c : Dev nD) : (pdats m ρ 2 c).share 0 = fullShare.left := rfl
theorem share2_1 (c : Dev nD) : (pdats m ρ 2 c).share 1 = fullShare.left := rfl
theorem share2_2 (c : Dev nD) : (pdats m ρ 2 c).share 2 = fullShare.right := rfl
theorem share2_3 (c : Dev nD) : (pdats m ρ 2 c).share 3 = fullShare.right := rfl
theorem share2_4 (c : Dev nD) : (pdats m ρ 2 c).share 4 = fullShare := rfl

/-- The distinct buffers behind region 2's five windows. -/
theorem arrImage2 : Finset.univ.image (Pipeline.arrRef spec2) = {main_v23, main_v25, main_v28} := by decide

/-- The pipeline's arrays at contents `G` of the buffers behind them, window by window, each at its share. -/
theorem arrays2_eq (c : Dev nD) (G : (b : Ref sig .tc) → Buf (Elt F) ((c : Thread nD τ).loc b))
    (X : (w : Fin (Pipeline.pin (pcfgs (F := F)) adm 2).W) → Buf (Elt F) (((Pipeline.pin (pcfgs (F := F)) adm 2).spec w).arr.view.loc (c : Thread nD τ)))
    (hX : ∀ w, X w = G (Pipeline.arrRef spec2 w)) :
    (pdats m ρ 2 c).arrays X = bigSep Finset.univ fun w : Fin (Pipeline.pin (pcfgs (F := F)) adm 2).W =>
      (((c : Thread nD τ).loc (Pipeline.arrRef spec2 w)) ↦{(pdats m ρ 2 c).share w} G (Pipeline.arrRef spec2 w) : sProp 𝕄) := by
  have harr : ∀ w, ((Pipeline.pin (pcfgs (F := F)) adm 2).spec w).arr.IsWhole := arr_whole2
  unfold Pipeline.Dat.arrays
  exact bigSep_congr fun w _ => by rw [(harr w).set_eq_univ, hX w]; rfl

/-- The pipeline's arrays at contents `G` (the two windows on one table holding the same contents) are the three
    buffers behind them, each whole: the halves of a table's share joined, or a whole share split. -/
theorem arrays2_iff (c : Dev nD) (G : (b : Ref sig .tc) → Buf (Elt F) ((c : Thread nD τ).loc b))
    (X : (w : Fin (Pipeline.pin (pcfgs (F := F)) adm 2).W) → Buf (Elt F) (((Pipeline.pin (pcfgs (F := F)) adm 2).spec w).arr.view.loc (c : Thread nD τ)))
    (hX : ∀ w, X w = G (Pipeline.arrRef spec2 w)) :
    (pdats m ρ 2 c).arrays X ⊣⊢ (Pipeline.arrBufs (Ix := Unit) (Name := ℕ) (U := UR sig nD τ) (Lvl := ℕ) spec2 c G : sProp 𝕄) := by
  rw [arrays2_eq m ρ c G X hX]
  unfold Pipeline.arrBufs
  rw [arrImage2, bigSep_insert (by decide), bigSep_insert (by decide), bigSep_singleton]
  rw [show (Finset.univ : Finset (Fin (Pipeline.pin (pcfgs (F := F)) adm 2).W)) = (Finset.univ : Finset (Fin 5)) from rfl, bigSep_W2]
  simp only [share2_0, share2_1, share2_2, share2_3, share2_4]
  show iprop((((c : Thread nD τ).loc main_v23) ↦{fullShare.left} G main_v23) ∗ (((c : Thread nD τ).loc main_v25) ↦{fullShare.left} G main_v25) ∗ (((c : Thread nD τ).loc main_v23) ↦{fullShare.right} G main_v23) ∗ (((c : Thread nD τ).loc main_v25) ↦{fullShare.right} G main_v25) ∗ (((c : Thread nD τ).loc main_v28) ↦{fullShare} G main_v28))
    ⊣⊢ (iprop((((c : Thread nD τ).loc main_v23) ↦{fullShare} G main_v23) ∗ (((c : Thread nD τ).loc main_v25) ↦{fullShare} G main_v25) ∗ (((c : Thread nD τ).loc main_v28) ↦{fullShare} G main_v28)) : sProp 𝕄)
  constructor
  · iintro ⟨H0, H1, H2, H3, H4⟩
    isplitl [H0 H2]
    · iapply (pointsTo_share (PosShare.mem_left_op_right fullShare)).2
      isplitl [H0]; · iexact H0
      iexact H2
    isplitl [H1 H3]
    · iapply (pointsTo_share (PosShare.mem_left_op_right fullShare)).2
      isplitl [H1]; · iexact H1
      iexact H3
    iexact H4
  · iintro ⟨Ha, Hb, H4⟩
    ihave Ha' := (pointsTo_share (PosShare.mem_left_op_right fullShare)).1 $$ Ha
    ihave Hb' := (pointsTo_share (PosShare.mem_left_op_right fullShare)).1 $$ Hb
    icases Ha' with ⟨H0, H2⟩
    icases Hb' with ⟨H1, H3⟩
    isplitl [H0]; · iexact H0
    isplitl [H1]; · iexact H1
    isplitl [H2]; · iexact H2
    isplitl [H3]; · iexact H3
    iexact H4

/-- ENTRY: the core's unscoped buffers at the entry contents are the pipeline's arrays at entry and the rest. -/
theorem entry2 (c : Dev nD) :
    (unscopedBufs c (V3 m ρ c) : sProp 𝕄) ⊢ iprop((pdats m ρ 2 c).arrays ((pdats m ρ 2 c).arrAt · 0) ∗ Pipeline.unscopedRest (Ix := Unit) (Name := ℕ) (U := UR sig nD τ) (Lvl := ℕ) spec2 c (V3 m ρ c)) := by
  rw [Pipeline.unscopedBufs_split₀ cfgs 2 winFacts₀2.arr_unscoped c (V3 m ρ c)]
  exact sep_mono (arrays2_iff m ρ c (V3 m ρ c) _ (fun w => rfl)).2 .rfl

/-- EXIT: the arrays at their final contents and the rest are the unscoped buffers at the exit contents. -/
theorem exit2 (c : Dev nD) :
    iprop((pdats m ρ 2 c).arrays ((pdats m ρ 2 c).arrAt · cfg2.N) ∗ Pipeline.unscopedRest (Ix := Unit) (Name := ℕ) (U := UR sig nD τ) (Lvl := ℕ) spec2 c (V3 m ρ c))
      ⊢ (unscopedBufs c (V4 m ρ c) : sProp 𝕄) := by
  rw [Pipeline.unscopedBufs_split₀ cfgs 2 winFacts₀2.arr_unscoped c (V4 m ρ c)]
  refine sep_mono (arrays2_iff m ρ c (V4 m ρ c) _ (hF2 m ρ c)).1 (Entails.of_eq ?_)
  unfold Pipeline.unscopedRest
  exact bigSep_congr fun b hb => by rw [hrest2 m ρ c b (Finset.mem_sdiff.mp hb).2]

/-! ## The regions as segments -/

-- a library lemma stated over the pinned configuration unifies with the printed one only when unification may unfold
-- plain definitions in a metavariable's type
set_option backward.isDefEq.respectTransparency.types false in
/-- REGION 0 as a segment: entered from every unscoped buffer at `W1`, left at `W2`; the generator register
    goes into the invariant and comes back; nothing is owed; the kernel has no semaphore of its own. -/
def reg0 : Pipeline.RegionSeg (pcfgs (F := F)) adm (pdats m ρ) () defs₀ 𝒱₀ L lv 0 where
  win := winFacts₀_0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := exit0 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 as a segment: entered from every unscoped buffer at `W2`, left at `W3`; the generator register
    goes into the invariant and comes back; nothing is owed; the kernel has no semaphore of its own. -/
def reg1 : Pipeline.RegionSeg (pcfgs (F := F)) adm (pdats m ρ) () defs₀ 𝒱₀ L lv 1 where
  win := winFacts₀_1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 as a segment: entered from every unscoped buffer at `W3`, left at `W4`; the generator register
    goes into the invariant and comes back; nothing is owed; the kernel has no semaphore of its own. -/
def reg2 : Pipeline.RegionSeg (pcfgs (F := F)) adm (pdats m ρ) () defs₀ 𝒱₀ L lv 2 where
  win := winFacts₀_2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := entry2 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V3 m ρ) c)
    unfold Pipeline.ΦA
    iintro ⟨Hp, -, Hr⟩
    isplitl [Hr]; · iexact Hr
    iexact Hp
  hout c := by
    rw [Pipeline.ownSems0_none]
    refine (hout2 (V3 m ρ) c).trans ?_
    unfold Pipeline.ΦA
    iintro ⟨Hr, Hp⟩
    isplitl [Hp]; · iexact Hp
    isplitr; · iempintro
    iexact Hr
  hexit c := by
    have hjoin := exit2 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ),
    .host (hseg hostOps3 hostOps3_sub hostOps3_fresh' (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of every core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W5 m ρ c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Gen

end
-- ==== Proof.KernelArgs.lean ====
/-
  The four argument arrays end as launched: neither stretch of host operations writes one, and each region's only
  written array is its own one-cell output.  With the run this gives the frame claim at any float instance.
-/
import proofs.«159096_j1580547971931_1_alg».proof.Proof.Gen.Kernel.Launch
import proofs.«159096_j1580547971931_1_alg».proof.Proof.Gen.Kernel.Skeleton
import proofs.«159096_j1580547971931_1_alg».proof.Proof.Gen.Kernel.Points
import proofs.«159096_j1580547971931_1_alg».proof.Proof.KernelFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 0 reaches the end as launched: no host operation writes it and no region's output is it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 1 reaches the end as launched: no host operation writes it and no region's output is it. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 2 reaches the end as launched: no host operation writes it and no region's output is it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 reaches the end as launched: no host operation writes it and no region's output is it. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- THE FRAME at any float instance: every weakly fair execution of @main terminates, nothing faulting, with the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_main m ρ)

end Cert.Kernel.Gen

end
-- ==== Proof.KernelIdealBody0.lean ====
/-
  The body of the first pair-sum kernel run once per control case, at any float instance.

  The body keeps a running total in a one-cell scratch.  At the grid's first point (case A) it first stores zero there;
  at every point it loads its four input blocks and the scratch and stores back the scratch plus the block's partial sum;
  at the grid's last point (case C) it also copies the scratch into the one-cell output block.  At every other point
  (case B) the output block is not touched.  Each run below states, for whole staging buffers holding the input blocks,
  that the body terminates without a fault, leaves the inputs as they were, and leaves the scratch (and in case C the
  output block) overwritten by a list of stored pieces that covers it.
-/
import proofs.«159096_j1580547971931_1_alg».proof.Proof.Gen.KernelIdeal.Launch
import proofs.«159096_j1580547971931_1_alg».proof.Proof.Gen.KernelIdeal.Skeleton
import proofs.«159096_j1580547971931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first grid point": both coordinates are zero. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "This is the last grid point": the coordinates are (3, 31). -/
abbrev cond0_1 (i : grid0.Coords) : Prop := k0_cond2 i = 1#1

/-- The first condition holds exactly at point 0 of the 128. -/
theorem hcond0_0 : ∀ t : Fin cfg0.N, cond0_0 (grid0.coords t) ↔ t.val = 0 :=
  (by decide +kernel : ∀ t : Fin grid0.N, cond0_0 (grid0.coords t) ↔ t.val = 0)
/-- The second condition holds exactly at point 127. -/
theorem hcond0_1 : ∀ t : Fin cfg0.N, cond0_1 (grid0.coords t) ↔ t.val = 127 :=
  (by decide +kernel : ∀ t : Fin grid0.N, cond0_1 (grid0.coords t) ↔ t.val = 127)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the output block is idle (nothing is stored into it) -/
theorem idleAt0_4 : ∀ t : Fin cfg0.N, ¬cond0_1 (grid0.coords t) → cfg0.idle 4 (grid0.coords t) = true := by decide +kernel
/-- and is not written back; -/
theorem noFlush0_4 : ∀ t : Fin cfg0.N, ¬cond0_1 (grid0.coords t) → (cfg0.win 4).flush t = false := by decide +kernel
/-- at the last point it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The scratch cell holding the running total. -/
abbrev scM0 : Memref sig .tc .vmem S1x1 .f32 := Memref.whole cc0_scratch0
/-- The views through which the scratch's and the output block's contents are stated. -/
abbrev VS0 : View sig .tc .vmem S1x1 .f32 := (scM0).view
abbrev VO0 : View sig .tc .vmem S1x1 .f32 := (Memref.whole cc0_stg4_0 : Memref sig .tc .vmem S1x1 .f32).view

/-! ## The three runs -/

set_option maxHeartbeats 1000000 in
/-- Case A, the first point: the scratch may hold anything; it ends overwritten by the found pieces. -/
noncomputable def kernelRun0_A (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 : Vec F S32x128 .f32) (x2 x3 : Vec F S128x128 .f32) :
    { LS0 : List (View.Piece (Elt F) S1x1 .f32) //
      ∀ (x4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LS0)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, fun x4 E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, ⟨%f3, %hf3, H3⟩, H4, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexists _; iexact HS0

set_option maxHeartbeats 1000000 in
/-- Case B, a middle point: the scratch holds the running total `xs0`; the output block is handed back untouched. -/
noncomputable def kernelRun0_B (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 : Vec F S32x128 .f32) (x2 x3 : Vec F S128x128 .f32) (xs0 : Vec F S1x1 .f32) :
    { LS0 : List (View.Piece (Elt F) S1x1 .f32) //
      ∀ (x4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LS0)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, fun x4 E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, ⟨%f3, %hf3, H3⟩, H4, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexists _; iexact HS0

set_option maxHeartbeats 1000000 in
/-- Case C, the last point: the scratch holds the running total `xs0`; both the scratch and the output block end
    overwritten by the found pieces. -/
noncomputable def kernelRun0_C (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 : Vec F S32x128 .f32) (x2 x3 : Vec F S128x128 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, ?_, fun E K => ?run⟩
  case run =>
    simp only [cc0__pair_kernel_eq_skeleton]; unfold cc0__pair_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What the runs leave, read back -/

theorem scover0_A (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 : Vec F S32x128 .f32) (x2 x3 : Vec F S128x128 .f32) (y : S1x1.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1x1.size (by sl_kernel_rfl) y
theorem scover0_B (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 : Vec F S32x128 .f32) (x2 x3 : Vec F S128x128 .f32) (xs0 : Vec F S1x1 .f32) (y : S1x1.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S1x1.size (by sl_kernel_rfl) y
theorem scover0_C (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S32x128 .f32) (x2 x3 : Vec F S128x128 .f32) (xs0 : Vec F S1x1 .f32) (y : S1x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1x1.size (by sl_kernel_rfl) y
theorem cover0_C (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S32x128 .f32) (x2 x3 : Vec F S128x128 .f32) (xs0 : Vec F S1x1 .f32) (y : S1x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1.size (by sl_kernel_rfl) y

/-- The scratch after case A, B, C: the run's pieces read back. -/
def sout0_A (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 : Vec F S32x128 .f32) (x2 x3 : Vec F S128x128 .f32) : Vec F S1x1 .f32 :=
  VS0.read (Elt F) (VS0.writes (Elt F) VS0.junk (kernelRun0_A c i arg2 harg2 arg3 harg3 arg4 harg4 arg5 harg5 arg6 harg6 arg7 harg7 hc0 hc1 x0 x1 x2 x3).1)
def sout0_B (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 : Vec F S32x128 .f32) (x2 x3 : Vec F S128x128 .f32) (xs0 : Vec F S1x1 .f32) : Vec F S1x1 .f32 :=
  VS0.read (Elt F) (VS0.writes (Elt F) VS0.junk (kernelRun0_B c i arg2 harg2 arg3 harg3 arg4 harg4 arg5 harg5 arg6 harg6 arg7 harg7 hc0 hc1 x0 x1 x2 x3 xs0).1)
def sout0_C (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S32x128 .f32) (x2 x3 : Vec F S128x128 .f32) (xs0 : Vec F S1x1 .f32) : Vec F S1x1 .f32 :=
  VS0.read (Elt F) (VS0.writes (Elt F) VS0.junk (kernelRun0_C c i arg2 harg2 arg3 harg3 arg4 harg4 arg5 harg5 arg6 harg6 arg7 harg7 hc0 hc1 x0 x1 x2 x3 xs0).2.1)
/-- The output block after case C. -/
def out0_C (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S32x128 .f32) (x2 x3 : Vec F S128x128 .f32) (xs0 : Vec F S1x1 .f32) : Vec F S1x1 .f32 :=
  VO0.read (Elt F) (VO0.writes (Elt F) VO0.junk (kernelRun0_C c i arg2 harg2 arg3 harg3 arg4 harg4 arg5 harg5 arg6 harg6 arg7 harg7 hc0 hc1 x0 x1 x2 x3 xs0).1)

end Cert.KernelIdeal.Gen

end
-- ==== Proof.KernelIdealRegion0.lean ====
/-
  Pair-sum kernel 0 over its 128 grid points, at any float instance and at any contents `V` of the core's buffers
  when the region is entered.

  The scratch cell after point n (`accAt`) is defined by recursion on the point from the runs' read-back pieces: at
  point 0 the first-point run over the point's four input blocks, afterwards the middle (or, at point 127, the last)
  run over the point's blocks and what the point before left.  The output block matters at point 127 only, where the
  last run stores the scratch into it.  The region invariant before point n is the class's before the first point and
  afterwards holds the scratch at `accAt (n − 1)`, the core's other scoped buffers at anything and the generator
  register at some state.  With these the body obligation holds at every point.
-/
import proofs.«159096_j1580547971931_1_alg».proof.Proof.Gen.KernelIdeal.Launch
import proofs.«159096_j1580547971931_1_alg».proof.Proof.Gen.KernelIdeal.Skeleton
import proofs.«159096_j1580547971931_1_alg».proof.Proof.Gen.KernelIdeal.Points
import proofs.«159096_j1580547971931_1_alg».proof.Proof.KernelIdealBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point (each is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The scratch and the output block, point by point -/

/-- The scratch cell after point `n`. -/
def accAt0 (c : Dev nD) : (n : ℕ) → n < cfg0.N → Vec F S1x1 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr rfl) (fun h => by have h' := (hcond0_1 ⟨0, hn⟩).mp h; (try dsimp only at h'); omega) (iblk0 V c 0 ⟨0, hn⟩) (iblk0 V c 1 ⟨0, hn⟩) (iblk0 V c 2 ⟨0, hn⟩) (iblk0 V c 3 ⟨0, hn⟩)
  | n + 1, hn =>
    if h1 : n + 1 = 127 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => by have h' := (hcond0_0 ⟨n + 1, hn⟩).mp h; (try dsimp only at h'); omega) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => by have h' := (hcond0_0 ⟨n + 1, hn⟩).mp h; (try dsimp only at h'); omega) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (accAt0 c n (Nat.lt_of_succ_lt hn))

theorem accAt0_A (c : Dev nD) (t : Fin cfg0.N) (h0 : t.val = 0) (h1 : ¬t.val = 127) :
    accAt0 V c t.val t.isLt = sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t) := by
  obtain ⟨n, hn⟩ := t
  cases n with
  | zero => exact rfl
  | succ n => exact absurd h0 (Nat.succ_ne_zero n)

theorem accAt0_B (c : Dev nD) (t : Fin cfg0.N) (h0 : ¬t.val = 0) (h1 : ¬t.val = 127) :
    accAt0 V c t.val t.isLt = sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (accAt0 V c (t.val - 1) (Nat.lt_of_le_of_lt (Nat.sub_le _ _) t.isLt)) := by
  obtain ⟨n, hn⟩ := t
  cases n with
  | zero => exact absurd rfl h0
  | succ n => exact (dif_neg h1).trans rfl

theorem accAt0_C (c : Dev nD) (t : Fin cfg0.N) (h0 : ¬t.val = 0) (h1 : t.val = 127) :
    accAt0 V c t.val t.isLt = sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt)) := by
  obtain ⟨n, hn⟩ := t
  cases n with
  | zero => exact absurd rfl h0
  | succ n => exact (dif_pos h1).trans rfl

/-- The output block after point `t`: at the last point what the last run stores (the scratch); elsewhere a
    placeholder nothing reads (the block is idle there and not written back). -/
def outAt0 (c : Dev nD) (t : Fin cfg0.N) : Vec F S1x1 .f32 :=
  if h1 : t.val = 127 then
    out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => by have h' := (hcond0_0 t).mp h; omega) ((hcond0_1 t).mpr h1) (iblk0 V c 0 t) (iblk0 V c 1 t) (iblk0 V c 2 t) (iblk0 V c 3 t) (accAt0 V c (t.val - 1) (Nat.lt_of_le_of_lt (Nat.sub_le _ _) t.isLt))
  else VO0.read (Elt F) VO0.junk

/-! ## The region invariant -/

/-- The core's scoped buffers other than the kernel's staging buffers and its scratch, each at some contents. -/
def restS0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The class's invariant with the scratch cell taken out as a memref owned at some contents. -/
theorem PhiA0_eq (c : Dev nD) :
    (Pipeline.ΦA spec0 c : sProp 𝕄) = iprop(((∃ d, owns (c : Thread nD τ) scM0 fullShare d) ∗ restS0 c) ∗ (∃ r, prngReg c r)) := by
  unfold Pipeline.ΦA Pipeline.scopedRest restS0
  rw [bigSep_erase (i := cc0_scratch0) (by decide)]
  simp only [scM0, owns_whole]
  try rfl

/-- Before point `n`: the class's invariant at the start, afterwards the scratch at what the point before left. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (accAt0 V c n hn) ∗ restS0 c) ∗ (∃ r, prngReg c r)) := rfl
theorem PhiS0_pos (c : Dev nD) (n : ℕ) (h : n ≤ cfg0.N) (hz : n ≠ 0) :
    PhiS0 V c n h = iprop((owns (c : Thread nD τ) scM0 fullShare (accAt0 V c (n - 1) (by omega)) ∗ restS0 c) ∗ (∃ r, prngReg c r)) := by
  cases n with
  | zero => exact absurd rfl hz
  | succ n => rfl

/-! ## The proof data -/

/-- Pipeline 0's proof data on core `c`: the arrays as the region finds them; after the body each input buffer at
    its block, the output block at `outAt`; the invariant `PhiS`; nothing owed; the two arrays that two windows read
    are held half and half by their windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the point is the first, the last or neither, and
    that case's run applies; the invariant hands over the scratch (at anything at the first point, else at what the
    point before left) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  by_cases h1 : t.val = 127
  · have h0 : ¬t.val = 0 := by omega
    rw [show (dat0 V c).leavesExact 4 t = owns (c : Thread nD τ) (ms0_4 t) fullShare ((dat0 V c).after 4 t) from by
        unfold Dat.leavesExact; rw [liveAt0_4 t ((hcond0_1 t).mpr h1)], after0_4]
    rw [accAt0_C V c t h0 h1]
    rw [show outAt0 V c t = out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt)) from by
        unfold outAt0; exact dif_pos h1]
    unfold out0_C sout0_C; (try dsimp only)
    rw [PhiS0_castSucc V c t, PhiS0_pos V c _ _ h0]
    iintro ⟨⟨⟨HS0, Hr⟩, Hg⟩, Ho, ⟨%d0, H0⟩, ⟨%d1, H1⟩, ⟨%d2, H2⟩, ⟨%d3, H3⟩, ⟨%d4, H4⟩⟩
    iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) (accAt0 V c (t.val - 1) (Nat.lt_of_le_of_lt (Nat.sub_le _ _) t.isLt))).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_C c _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_C c _ _ _ _ _ _ _ _ _ _ _ _ _ _ _ _ _ _ _ _)
  · rw [Dat.leavesExact_idle (dat0 V c) 4 t (idleAt0_4 t (fun h => h1 ((hcond0_1 t).mp h))) (noFlush0_4 t (fun h => h1 ((hcond0_1 t).mp h)))]
    by_cases h0 : t.val = 0
    · rw [accAt0_A V c t h0 h1]
      unfold sout0_A; (try dsimp only)
      rw [PhiS0_castSucc V c t, PhiS0_zero V c _ _ h0, PhiA0_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [accAt0_B V c t h0 h1]
      unfold sout0_B; (try dsimp only)
      rw [PhiS0_castSucc V c t, PhiS0_pos V c _ _ h0]
      iintro ⟨⟨⟨HS0, Hr⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (accAt0 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS0, Hr⟩, Hg⟩
  isplitl [HS0 Hr]
  · isplitl [HS0]
    · iexists _; iexact HS0
    iexact Hr
  iexact Hg

end Region

end Cert.KernelIdeal.Gen

end
-- ==== Proof.KernelIdealBody1.lean ====
/-
  The body of the second pair-sum kernel run once per control case, at any float instance.

  The body keeps a running total in a one-cell scratch.  At the grid's first point (case A) it first stores zero there;
  at every point it loads its four input blocks and the scratch and stores back the scratch plus the block's partial sum;
  at the grid's last point (case C) it also copies the scratch into the one-cell output block.  At every other point
  (case B) the output block is not touched.  Each run below states, for whole staging buffers holding the input blocks,
  that the body terminates without a fault, leaves the inputs as they were, and leaves the scratch (and in case C the
  output block) overwritten by a list of stored pieces that covers it.
-/
import proofs.«159096_j1580547971931_1_alg».proof.Proof.Gen.KernelIdeal.Launch
import proofs.«159096_j1580547971931_1_alg».proof.Proof.Gen.KernelIdeal.Skeleton
import proofs.«159096_j1580547971931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first grid point": both coordinates are zero. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "This is the last grid point": the coordinates are (3, 31). -/
abbrev cond1_1 (i : grid1.Coords) : Prop := k1_cond2 i = 1#1

/-- The first condition holds exactly at point 0 of the 128. -/
theorem hcond1_0 : ∀ t : Fin cfg1.N, cond1_0 (grid1.coords t) ↔ t.val = 0 :=
  (by decide +kernel : ∀ t : Fin grid1.N, cond1_0 (grid1.coords t) ↔ t.val = 0)
/-- The second condition holds exactly at point 127. -/
theorem hcond1_1 : ∀ t : Fin cfg1.N, cond1_1 (grid1.coords t) ↔ t.val = 127 :=
  (by decide +kernel : ∀ t : Fin grid1.N, cond1_1 (grid1.coords t) ↔ t.val = 127)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point the output block is idle (nothing is stored into it) -/
theorem idleAt1_4 : ∀ t : Fin cfg1.N, ¬cond1_1 (grid1.coords t) → cfg1.idle 4 (grid1.coords t) = true := by decide +kernel
/-- and is not written back; -/
theorem noFlush1_4 : ∀ t : Fin cfg1.N, ¬cond1_1 (grid1.coords t) → (cfg1.win 4).flush t = false := by decide +kernel
/-- at the last point it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S32x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The scratch cell holding the running total. -/
abbrev scM1 : Memref sig .tc .vmem S1x1 .f32 := Memref.whole cc1_scratch0
/-- The views through which the scratch's and the output block's contents are stated. -/
abbrev VS1 : View sig .tc .vmem S1x1 .f32 := (scM1).view
abbrev VO1 : View sig .tc .vmem S1x1 .f32 := (Memref.whole cc1_stg4_0 : Memref sig .tc .vmem S1x1 .f32).view

/-! ## The three runs -/

set_option maxHeartbeats 1000000 in
/-- Case A, the first point: the scratch may hold anything; it ends overwritten by the found pieces. -/
noncomputable def kernelRun1_A (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 x1 : Vec F S32x128 .f32) (x2 x3 : Vec F S128x128 .f32) :
    { LS0 : List (View.Piece (Elt F) S1x1 .f32) //
      ∀ (x4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LS0)) -∗ K ⟨⟩))
          ⊢ wp frame (wpE (defs₀ (F := F)) Variants.none c none) E (cc1__pair_kernel i arg2 harg2 arg3 harg3 arg4 harg4 arg5 harg5 arg6 harg6 arg7 harg7) K } := by
  refine ⟨?_, fun x4 E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, H4, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexists _; iexact HS0

set_option maxHeartbeats 1000000 in
/-- Case B, a middle point: the scratch holds the running total `xs0`; the output block is handed back untouched. -/
noncomputable def kernelRun1_B (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 x1 : Vec F S32x128 .f32) (x2 x3 : Vec F S128x128 .f32) (xs0 : Vec F S1x1 .f32) :
    { LS0 : List (View.Piece (Elt F) S1x1 .f32) //
      ∀ (x4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LS0)) -∗ K ⟨⟩))
          ⊢ wp frame (wpE (defs₀ (F := F)) Variants.none c none) E (cc1__pair_kernel i arg2 harg2 arg3 harg3 arg4 harg4 arg5 harg5 arg6 harg6 arg7 harg7) K } := by
  refine ⟨?_, fun x4 E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, H4, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexists _; iexact HS0

set_option maxHeartbeats 1000000 in
/-- Case C, the last point: the scratch holds the running total `xs0`; both the scratch and the output block end
    overwritten by the found pieces. -/
noncomputable def kernelRun1_C (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 x1 : Vec F S32x128 .f32) (x2 x3 : Vec F S128x128 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__pair_kernel i arg2 harg2 arg3 harg3 arg4 harg4 arg5 harg5 arg6 harg6 arg7 harg7) K } := by
  refine ⟨?_, ?_, fun E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What the runs leave, read back -/

theorem scover1_A (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i) (x0 x1 : Vec F S32x128 .f32) (x2 x3 : Vec F S128x128 .f32) (y : S1x1.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S1x1.size (by sl_kernel_rfl) y
theorem scover1_B (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i) (x0 x1 : Vec F S32x128 .f32) (x2 x3 : Vec F S128x128 .f32) (xs0 : Vec F S1x1 .f32) (y : S1x1.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S1x1.size (by sl_kernel_rfl) y
theorem scover1_C (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 x1 : Vec F S32x128 .f32) (x2 x3 : Vec F S128x128 .f32) (xs0 : Vec F S1x1 .f32) (y : S1x1.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1x1.size (by sl_kernel_rfl) y
theorem cover1_C (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 x1 : Vec F S32x128 .f32) (x2 x3 : Vec F S128x128 .f32) (xs0 : Vec F S1x1 .f32) (y : S1x1.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1x1.size (by sl_kernel_rfl) y

/-- The scratch after case A, B, C: the run's pieces read back. -/
def sout1_A (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i) (x0 x1 : Vec F S32x128 .f32) (x2 x3 : Vec F S128x128 .f32) : Vec F S1x1 .f32 :=
  VS1.read (Elt F) (VS1.writes (Elt F) VS1.junk (kernelRun1_A c i arg2 harg2 arg3 harg3 arg4 harg4 arg5 harg5 arg6 harg6 arg7 harg7 hc0 hc1 x0 x1 x2 x3).1)
def sout1_B (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i) (x0 x1 : Vec F S32x128 .f32) (x2 x3 : Vec F S128x128 .f32) (xs0 : Vec F S1x1 .f32) : Vec F S1x1 .f32 :=
  VS1.read (Elt F) (VS1.writes (Elt F) VS1.junk (kernelRun1_B c i arg2 harg2 arg3 harg3 arg4 harg4 arg5 harg5 arg6 harg6 arg7 harg7 hc0 hc1 x0 x1 x2 x3 xs0).1)
def sout1_C (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 x1 : Vec F S32x128 .f32) (x2 x3 : Vec F S128x128 .f32) (xs0 : Vec F S1x1 .f32) : Vec F S1x1 .f32 :=
  VS1.read (Elt F) (VS1.writes (Elt F) VS1.junk (kernelRun1_C c i arg2 harg2 arg3 harg3 arg4 harg4 arg5 harg5 arg6 harg6 arg7 harg7 hc0 hc1 x0 x1 x2 x3 xs0).2.1)
/-- The output block after case C. -/
def out1_C (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 x1 : Vec F S32x128 .f32) (x2 x3 : Vec F S128x128 .f32) (xs0 : Vec F S1x1 .f32) : Vec F S1x1 .f32 :=
  VO1.read (Elt F) (VO1.writes (Elt F) VO1.junk (kernelRun1_C c i arg2 harg2 arg3 harg3 arg4 harg4 arg5 harg5 arg6 harg6 arg7 harg7 hc0 hc1 x0 x1 x2 x3 xs0).1)

end Cert.KernelIdeal.Gen

end
-- ==== Proof.KernelIdealRegion1.lean ====
/-
  Pair-sum kernel 1 over its 128 grid points, at any float instance and at any contents `V` of the core's buffers
  when the region is entered.

  The scratch cell after point n (`accAt`) is defined by recursion on the point from the runs' read-back pieces: at
  point 0 the first-point run over the point's four input blocks, afterwards the middle (or, at point 127, the last)
  run over the point's blocks and what the point before left.  The output block matters at point 127 only, where the
  last run stores the scratch into it.  The region invariant before point n is the class's before the first point and
  afterwards holds the scratch at `accAt (n − 1)`, the core's other scoped buffers at anything and the generator
  register at some state.  With these the body obligation holds at every point.
-/
import proofs.«159096_j1580547971931_1_alg».proof.Proof.Gen.KernelIdeal.Launch
import proofs.«159096_j1580547971931_1_alg».proof.Proof.Gen.KernelIdeal.Skeleton
import proofs.«159096_j1580547971931_1_alg».proof.Proof.Gen.KernelIdeal.Points
import proofs.«159096_j1580547971931_1_alg».proof.Proof.KernelIdealBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point (each is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The scratch and the output block, point by point -/

/-- The scratch cell after point `n`. -/
def accAt1 (c : Dev nD) : (n : ℕ) → n < cfg1.N → Vec F S1x1 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr rfl) (fun h => by have h' := (hcond1_1 ⟨0, hn⟩).mp h; (try dsimp only at h'); omega) (iblk1 V c 0 ⟨0, hn⟩) (iblk1 V c 1 ⟨0, hn⟩) (iblk1 V c 2 ⟨0, hn⟩) (iblk1 V c 3 ⟨0, hn⟩)
  | n + 1, hn =>
    if h1 : n + 1 = 127 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => by have h' := (hcond1_0 ⟨n + 1, hn⟩).mp h; (try dsimp only at h'); omega) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => by have h' := (hcond1_0 ⟨n + 1, hn⟩).mp h; (try dsimp only at h'); omega) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))

theorem accAt1_A (c : Dev nD) (t : Fin cfg1.N) (h0 : t.val = 0) (h1 : ¬t.val = 127) :
    accAt1 V c t.val t.isLt = sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t) := by
  obtain ⟨n, hn⟩ := t
  cases n with
  | zero => exact rfl
  | succ n => exact absurd h0 (Nat.succ_ne_zero n)

theorem accAt1_B (c : Dev nD) (t : Fin cfg1.N) (h0 : ¬t.val = 0) (h1 : ¬t.val = 127) :
    accAt1 V c t.val t.isLt = sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (accAt1 V c (t.val - 1) (Nat.lt_of_le_of_lt (Nat.sub_le _ _) t.isLt)) := by
  obtain ⟨n, hn⟩ := t
  cases n with
  | zero => exact absurd rfl h0
  | succ n => exact (dif_neg h1).trans rfl

theorem accAt1_C (c : Dev nD) (t : Fin cfg1.N) (h0 : ¬t.val = 0) (h1 : t.val = 127) :
    accAt1 V c t.val t.isLt = sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (accAt1 V c (t.val - 1) (Nat.lt_of_le_of_lt (Nat.sub_le _ _) t.isLt)) := by
  obtain ⟨n, hn⟩ := t
  cases n with
  | zero => exact absurd rfl h0
  | succ n => exact (dif_pos h1).trans rfl

/-- The output block after point `t`: at the last point what the last run stores (the scratch); elsewhere a
    placeholder nothing reads (the block is idle there and not written back). -/
def outAt1 (c : Dev nD) (t : Fin cfg1.N) : Vec F S1x1 .f32 :=
  if h1 : t.val = 127 then
    out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => by have h' := (hcond1_0 t).mp h; omega) ((hcond1_1 t).mpr h1) (iblk1 V c 0 t) (iblk1 V c 1 t) (iblk1 V c 2 t) (iblk1 V c 3 t) (accAt1 V c (t.val - 1) (Nat.lt_of_le_of_lt (Nat.sub_le _ _) t.isLt))
  else VO1.read (Elt F) VO1.junk

/-! ## The region invariant -/

/-- The core's scoped buffers other than the kernel's staging buffers and its scratch, each at some contents. -/
def restS1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The class's invariant with the scratch cell taken out as a memref owned at some contents. -/
theorem PhiA1_eq (c : Dev nD) :
    (Pipeline.ΦA spec1 c : sProp 𝕄) = iprop(((∃ d, owns (c : Thread nD τ) scM1 fullShare d) ∗ restS1 c) ∗ (∃ r, prngReg c r)) := by
  unfold Pipeline.ΦA Pipeline.scopedRest restS1
  rw [bigSep_erase (i := cc1_scratch0) (by decide)]
  simp only [scM1, owns_whole]
  try rfl

/-- Before point `n`: the class's invariant at the start, afterwards the scratch at what the point before left. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (accAt1 V c n hn) ∗ restS1 c) ∗ (∃ r, prngReg c r)) := rfl
theorem PhiS1_pos (c : Dev nD) (n : ℕ) (h : n ≤ cfg1.N) (hz : n ≠ 0) :
    PhiS1 V c n h = iprop((owns (c : Thread nD τ) scM1 fullShare (accAt1 V c (n - 1) (by omega)) ∗ restS1 c) ∗ (∃ r, prngReg c r)) := by
  cases n with
  | zero => exact absurd rfl hz
  | succ n => rfl

/-! ## The proof data -/

/-- Pipeline 1's proof data on core `c`: the arrays as the region finds them; after the body each input buffer at
    its block, the output block at `outAt`; the invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the point is the first, the last or neither, and
    that case's run applies; the invariant hands over the scratch (at anything at the first point, else at what the
    point before left) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  by_cases h1 : t.val = 127
  · have h0 : ¬t.val = 0 := by omega
    rw [show (dat1 V c).leavesExact 4 t = owns (c : Thread nD τ) (ms1_4 t) fullShare ((dat1 V c).after 4 t) from by
        unfold Dat.leavesExact; rw [liveAt1_4 t ((hcond1_1 t).mpr h1)], after1_4]
    rw [accAt1_C V c t h0 h1]
    rw [show outAt1 V c t = out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (accAt1 V c (t.val - 1) (Nat.lt_of_le_of_lt (Nat.sub_le _ _) t.isLt)) from by
        unfold outAt1; exact dif_pos h1]
    unfold out1_C sout1_C; (try dsimp only)
    rw [PhiS1_castSucc V c t, PhiS1_pos V c _ _ h0]
    iintro ⟨⟨⟨HS0, Hr⟩, Hg⟩, Ho, ⟨%d0, H0⟩, ⟨%d1, H1⟩, ⟨%d2, H2⟩, ⟨%d3, H3⟩, ⟨%d4, H4⟩⟩
    iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) (accAt1 V c (t.val - 1) (Nat.lt_of_le_of_lt (Nat.sub_le _ _) t.isLt))).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover1_C c _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_C c _ _ _ _ _ _ _ _ _ _ _ _ _ _ _ _ _ _ _ _)
  · rw [Dat.leavesExact_idle (dat1 V c) 4 t (idleAt1_4 t (fun h => h1 ((hcond1_1 t).mp h))) (noFlush1_4 t (fun h => h1 ((hcond1_1 t).mp h)))]
    by_cases h0 : t.val = 0
    · rw [accAt1_A V c t h0 h1]
      unfold sout1_A; (try dsimp only)
      rw [PhiS1_castSucc V c t, PhiS1_zero V c _ _ h0, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [accAt1_B V c t h0 h1]
      unfold sout1_B; (try dsimp only)
      rw [PhiS1_castSucc V c t, PhiS1_pos V c _ _ h0]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (accAt1 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨HS0, Hr⟩, Hg⟩
  isplitl [HS0 Hr]
  · isplitl [HS0]
    · iexists _; iexact HS0
    iexact Hr
  iexact Hg

end Region

end Cert.KernelIdeal.Gen

end
-- ==== Proof.KernelIdealBody2.lean ====
/-
  The body of the third pair-sum kernel run once per control case, at any float instance.

  The body keeps a running total in a one-cell scratch.  At the grid's first point (case A) it first stores zero there;
  at every point it loads its four input blocks and the scratch and stores back the scratch plus the block's partial sum;
  at the grid's last point (case C) it also copies the scratch into the one-cell output block.  At every other point
  (case B) the output block is not touched.  Each run below states, for whole staging buffers holding the input blocks,
  that the body terminates without a fault, leaves the inputs as they were, and leaves the scratch (and in case C the
  output block) overwritten by a list of stored pieces that covers it.
-/
import proofs.«159096_j1580547971931_1_alg».proof.Proof.Gen.KernelIdeal.Launch
import proofs.«159096_j1580547971931_1_alg».proof.Proof.Gen.KernelIdeal.Skeleton
import proofs.«159096_j1580547971931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first grid point": both coordinates are zero. -/
abbrev cond2_0 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "This is the last grid point": the coordinates are (3, 31). -/
abbrev cond2_1 (i : grid2.Coords) : Prop := k2_cond2 i = 1#1

/-- The first condition holds exactly at point 0 of the 128. -/
theorem hcond2_0 : ∀ t : Fin cfg2.N, cond2_0 (grid2.coords t) ↔ t.val = 0 :=
  (by decide +kernel : ∀ t : Fin grid2.N, cond2_0 (grid2.coords t) ↔ t.val = 0)
/-- The second condition holds exactly at point 127. -/
theorem hcond2_1 : ∀ t : Fin cfg2.N, cond2_1 (grid2.coords t) ↔ t.val = 127 :=
  (by decide +kernel : ∀ t : Fin grid2.N, cond2_1 (grid2.coords t) ↔ t.val = 127)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Away from the last point the output block is idle (nothing is stored into it) -/
theorem idleAt2_4 : ∀ t : Fin cfg2.N, ¬cond2_1 (grid2.coords t) → cfg2.idle 4 (grid2.coords t) = true := by decide +kernel
/-- and is not written back; -/
theorem noFlush2_4 : ∀ t : Fin cfg2.N, ¬cond2_1 (grid2.coords t) → (cfg2.win 4).flush t = false := by decide +kernel
/-- at the last point it is live. -/
theorem liveAt2_4 : ∀ t : Fin cfg2.N, cond2_1 (grid2.coords t) → cfg2.idle 4 (grid2.coords t) = false := by decide +kernel

/-! ## The memrefs the body is called with -/

abbrev ms2_0 (t : Fin cfg2.N) : Memref sig .tc .vmem S32x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S32x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
/-- The scratch cell holding the running total. -/
abbrev scM2 : Memref sig .tc .vmem S1x1 .f32 := Memref.whole cc2_scratch0
/-- The views through which the scratch's and the output block's contents are stated. -/
abbrev VS2 : View sig .tc .vmem S1x1 .f32 := (scM2).view
abbrev VO2 : View sig .tc .vmem S1x1 .f32 := (Memref.whole cc2_stg4_0 : Memref sig .tc .vmem S1x1 .f32).view

/-! ## The three runs -/

set_option maxHeartbeats 1000000 in
/-- Case A, the first point: the scratch may hold anything; it ends overwritten by the found pieces. -/
noncomputable def kernelRun2_A (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i)
    (x0 x1 : Vec F S32x128 .f32) (x2 x3 : Vec F S128x128 .f32) :
    { LS0 : List (View.Piece (Elt F) S1x1 .f32) //
      ∀ (x4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LS0)) -∗ K ⟨⟩))
          ⊢ wp frame (wpE (defs₀ (F := F)) Variants.none c none) E (cc2__pair_kernel i arg2 harg2 arg3 harg3 arg4 harg4 arg5 harg5 arg6 harg6 arg7 harg7) K } := by
  refine ⟨?_, fun x4 E K => ?run⟩
  case run =>
    simp only [cc2__pair_kernel_eq_skeleton]; unfold cc2__pair_kernel_skel
    unfold owns
    iintro ⟨⟨%f0, %hf0, H0⟩, ⟨%f1, %hf1, H1⟩, ⟨%f2, %hf2, H2⟩, ⟨%f3, %hf3, H3⟩, H4, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexists _; iexact HS0

set_option maxHeartbeats 1000000 in
/-- Case B, a middle point: the scratch holds the running total `xs0`; the output block is handed back untouched. -/
noncomputable def kernelRun2_B (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i)
    (x0 x1 : Vec F S32x128 .f32) (x2 x3 : Vec F S128x128 .f32) (xs0 : Vec F S1x1 .f32) :
    { LS0 : List (View.Piece (Elt F) S1x1 .f32) //
      ∀ (x4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LS0)) -∗ K ⟨⟩))
          ⊢ wp frame (wpE (defs₀ (F := F)) Variants.none c none) E (cc2__pair_kernel i arg2 harg2 arg3 harg3 arg4 harg4 arg5 harg5 arg6 harg6 arg7 harg7) K } := by
  refine ⟨?_, fun x4 E K => ?run⟩
  case run =>
    simp only [cc2__pair_kernel_eq_skeleton]; unfold cc2__pair_kernel_skel
    unfold owns
    iintro ⟨⟨%f0, %hf0, H0⟩, ⟨%f1, %hf1, H1⟩, ⟨%f2, %hf2, H2⟩, ⟨%f3, %hf3, H3⟩, H4, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexists _; iexact HS0

set_option maxHeartbeats 1000000 in
/-- Case C, the last point: the scratch holds the running total `xs0`; both the scratch and the output block end
    overwritten by the found pieces. -/
noncomputable def kernelRun2_C (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 x1 : Vec F S32x128 .f32) (x2 x3 : Vec F S128x128 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc2__pair_kernel i arg2 harg2 arg3 harg3 arg4 harg4 arg5 harg5 arg6 harg6 arg7 harg7) K } := by
  refine ⟨?_, ?_, fun E K => ?run⟩
  case run =>
    simp only [cc2__pair_kernel_eq_skeleton]; unfold cc2__pair_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What the runs leave, read back -/

theorem scover2_A (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i) (x0 x1 : Vec F S32x128 .f32) (x2 x3 : Vec F S128x128 .f32) (y : S1x1.Idx) :
    ∃ pc ∈ (kernelRun2_A c i arg2 harg2 arg3 harg3 arg4 harg4 arg5 harg5 arg6 harg6 arg7 harg7 hc0 hc1 x0 x1 x2 x3).1, y ∈ pc.1.set :=
  View.cover_of_tiledL (kernelRun2_A c i arg2 harg2 arg3 harg3 arg4 harg4 arg5 harg5 arg6 harg6 arg7 harg7 hc0 hc1 x0 x1 x2 x3).1 S1x1.size (by sl_kernel_rfl) y
theorem scover2_B (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i) (x0 x1 : Vec F S32x128 .f32) (x2 x3 : Vec F S128x128 .f32) (xs0 : Vec F S1x1 .f32) (y : S1x1.Idx) :
    ∃ pc ∈ (kernelRun2_B c i arg2 harg2 arg3 harg3 arg4 harg4 arg5 harg5 arg6 harg6 arg7 harg7 hc0 hc1 x0 x1 x2 x3 xs0).1, y ∈ pc.1.set :=
  View.cover_of_tiledL (kernelRun2_B c i arg2 harg2 arg3 harg3 arg4 harg4 arg5 harg5 arg6 harg6 arg7 harg7 hc0 hc1 x0 x1 x2 x3 xs0).1 S1x1.size (by sl_kernel_rfl) y
theorem scover2_C (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i) (x0 x1 : Vec F S32x128 .f32) (x2 x3 : Vec F S128x128 .f32) (xs0 : Vec F S1x1 .f32) (y : S1x1.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S1x1.size (by sl_kernel_rfl) y
theorem cover2_C (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i) (x0 x1 : Vec F S32x128 .f32) (x2 x3 : Vec F S128x128 .f32) (xs0 : Vec F S1x1 .f32) (y : S1x1.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S1x1.size (by sl_kernel_rfl) y

/-- The scratch after case A, B, C: the run's pieces read back. -/
def sout2_A (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i) (x0 x1 : Vec F S32x128 .f32) (x2 x3 : Vec F S128x128 .f32) : Vec F S1x1 .f32 :=
  VS2.read (Elt F) (VS2.writes (Elt F) VS2.junk (kernelRun2_A c i arg2 harg2 arg3 harg3 arg4 harg4 arg5 harg5 arg6 harg6 arg7 harg7 hc0 hc1 x0 x1 x2 x3).1)
def sout2_B (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i) (x0 x1 : Vec F S32x128 .f32) (x2 x3 : Vec F S128x128 .f32) (xs0 : Vec F S1x1 .f32) : Vec F S1x1 .f32 :=
  VS2.read (Elt F) (VS2.writes (Elt F) VS2.junk (kernelRun2_B c i arg2 harg2 arg3 harg3 arg4 harg4 arg5 harg5 arg6 harg6 arg7 harg7 hc0 hc1 x0 x1 x2 x3 xs0).1)
def sout2_C (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i) (x0 x1 : Vec F S32x128 .f32) (x2 x3 : Vec F S128x128 .f32) (xs0 : Vec F S1x1 .f32) : Vec F S1x1 .f32 :=
  VS2.read (Elt F) (VS2.writes (Elt F) VS2.junk (kernelRun2_C c i arg2 harg2 arg3 harg3 arg4 harg4 arg5 harg5 arg6 harg6 arg7 harg7 hc0 hc1 x0 x1 x2 x3 xs0).2.1)
/-- The output block after case C. -/
def out2_C (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i) (x0 x1 : Vec F S32x128 .f32) (x2 x3 : Vec F S128x128 .f32) (xs0 : Vec F S1x1 .f32) : Vec F S1x1 .f32 :=
  VO2.read (Elt F) (VO2.writes (Elt F) VO2.junk (kernelRun2_C c i arg2 harg2 arg3 harg3 arg4 harg4 arg5 harg5 arg6 harg6 arg7 harg7 hc0 hc1 x0 x1 x2 x3 xs0).1)

end Cert.KernelIdeal.Gen

end
-- ==== Proof.KernelIdealRegion2.lean ====
/-
  Pair-sum kernel 2 over its 128 grid points, at any float instance and at any contents `V` of the core's buffers
  when the region is entered.

  The scratch cell after point n (`accAt`) is defined by recursion on the point from the runs' read-back pieces: at
  point 0 the first-point run over the point's four input blocks, afterwards the middle (or, at point 127, the last)
  run over the point's blocks and what the point before left.  The output block matters at point 127 only, where the
  last run stores the scratch into it.  The region invariant before point n is the class's before the first point and
  afterwards holds the scratch at `accAt (n − 1)`, the core's other scoped buffers at anything and the generator
  register at some state.  With these the body obligation holds at every point.
-/
import proofs.«159096_j1580547971931_1_alg».proof.Proof.Gen.KernelIdeal.Launch
import proofs.«159096_j1580547971931_1_alg».proof.Proof.Gen.KernelIdeal.Skeleton
import proofs.«159096_j1580547971931_1_alg».proof.Proof.Gen.KernelIdeal.Points
import proofs.«159096_j1580547971931_1_alg».proof.Proof.KernelIdealBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point (each is fetched at every point). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The scratch and the output block, point by point -/

/-- The scratch cell after point `n`. -/
def accAt2 (c : Dev nD) : (n : ℕ) → n < cfg2.N → Vec F S1x1 .f32
  | 0, hn => sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr rfl) (fun h => by have h' := (hcond2_1 ⟨0, hn⟩).mp h; (try dsimp only at h'); omega) (iblk2 V c 0 ⟨0, hn⟩) (iblk2 V c 1 ⟨0, hn⟩) (iblk2 V c 2 ⟨0, hn⟩) (iblk2 V c 3 ⟨0, hn⟩)
  | n + 1, hn =>
    if h1 : n + 1 = 127 then
      sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => by have h' := (hcond2_0 ⟨n + 1, hn⟩).mp h; (try dsimp only at h'); omega) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (accAt2 c n (Nat.lt_of_succ_lt hn))
    else
      sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => by have h' := (hcond2_0 ⟨n + 1, hn⟩).mp h; (try dsimp only at h'); omega) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (accAt2 c n (Nat.lt_of_succ_lt hn))

theorem accAt2_A (c : Dev nD) (t : Fin cfg2.N) (h0 : t.val = 0) (h1 : ¬t.val = 127) :
    accAt2 V c t.val t.isLt = sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t) := by
  obtain ⟨n, hn⟩ := t
  cases n with
  | zero => exact rfl
  | succ n => exact absurd h0 (Nat.succ_ne_zero n)

theorem accAt2_B (c : Dev nD) (t : Fin cfg2.N) (h0 : ¬t.val = 0) (h1 : ¬t.val = 127) :
    accAt2 V c t.val t.isLt = sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (accAt2 V c (t.val - 1) (Nat.lt_of_le_of_lt (Nat.sub_le _ _) t.isLt)) := by
  obtain ⟨n, hn⟩ := t
  cases n with
  | zero => exact absurd rfl h0
  | succ n => exact (dif_neg h1).trans rfl

theorem accAt2_C (c : Dev nD) (t : Fin cfg2.N) (h0 : ¬t.val = 0) (h1 : t.val = 127) :
    accAt2 V c t.val t.isLt = sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (accAt2 V c (t.val - 1) (Nat.lt_of_le_of_lt (Nat.sub_le _ _) t.isLt)) := by
  obtain ⟨n, hn⟩ := t
  cases n with
  | zero => exact absurd rfl h0
  | succ n => exact (dif_pos h1).trans rfl

/-- The output block after point `t`: at the last point what the last run stores (the scratch); elsewhere a
    placeholder nothing reads (the block is idle there and not written back). -/
def outAt2 (c : Dev nD) (t : Fin cfg2.N) : Vec F S1x1 .f32 :=
  if h1 : t.val = 127 then
    out2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => by have h' := (hcond2_0 t).mp h; omega) ((hcond2_1 t).mpr h1) (iblk2 V c 0 t) (iblk2 V c 1 t) (iblk2 V c 2 t) (iblk2 V c 3 t) (accAt2 V c (t.val - 1) (Nat.lt_of_le_of_lt (Nat.sub_le _ _) t.isLt))
  else VO2.read (Elt F) VO2.junk

/-! ## The region invariant -/

/-- The core's scoped buffers other than the kernel's staging buffers and its scratch, each at some contents. -/
def restS2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

/-- The class's invariant with the scratch cell taken out as a memref owned at some contents. -/
theorem PhiA2_eq (c : Dev nD) :
    (Pipeline.ΦA spec2 c : sProp 𝕄) = iprop(((∃ d, owns (c : Thread nD τ) scM2 fullShare d) ∗ restS2 c) ∗ (∃ r, prngReg c r)) := by
  unfold Pipeline.ΦA Pipeline.scopedRest restS2
  rw [bigSep_erase (i := cc2_scratch0) (by decide)]
  simp only [scM2, owns_whole]
  try rfl

/-- Before point `n`: the class's invariant at the start, afterwards the scratch at what the point before left. -/
def PhiS2 (c : Dev nD) : (n : ℕ) → n ≤ cfg2.N → sProp 𝕄
  | 0, _ => Pipeline.ΦA spec2 c
  | n + 1, hn => iprop((owns (c : Thread nD τ) scM2 fullShare (accAt2 V c n hn) ∗ restS2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare (accAt2 V c n hn) ∗ restS2 c) ∗ (∃ r, prngReg c r)) := rfl
theorem PhiS2_pos (c : Dev nD) (n : ℕ) (h : n ≤ cfg2.N) (hz : n ≠ 0) :
    PhiS2 V c n h = iprop((owns (c : Thread nD τ) scM2 fullShare (accAt2 V c (n - 1) (by omega)) ∗ restS2 c) ∗ (∃ r, prngReg c r)) := by
  cases n with
  | zero => exact absurd rfl hz
  | succ n => rfl

/-! ## The proof data -/

/-- Pipeline 2's proof data on core `c`: the arrays as the region finds them; after the body each input buffer at
    its block, the output block at `outAt`; the invariant `PhiS`; nothing owed; the two arrays that two windows read
    are held half and half by their windows. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ t := PhiS2 V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the point is the first, the last or neither, and
    that case's run applies; the invariant hands over the scratch (at anything at the first point, else at what the
    point before left) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  rw [show (dat2 V c).leavesExact 3 t = owns (c : Thread nD τ) (ms2_3 t) fullShare ((dat2 V c).after 3 t) from by
        unfold Dat.leavesExact; rw [liveAt2_3 t], after2_3]
  by_cases h1 : t.val = 127
  · have h0 : ¬t.val = 0 := by omega
    rw [show (dat2 V c).leavesExact 4 t = owns (c : Thread nD τ) (ms2_4 t) fullShare ((dat2 V c).after 4 t) from by
        unfold Dat.leavesExact; rw [liveAt2_4 t ((hcond2_1 t).mpr h1)], after2_4]
    rw [accAt2_C V c t h0 h1]
    rw [show outAt2 V c t = out2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (accAt2 V c (t.val - 1) (Nat.lt_of_le_of_lt (Nat.sub_le _ _) t.isLt)) from by
        unfold outAt2; exact dif_pos h1]
    unfold out2_C sout2_C; (try dsimp only)
    rw [PhiS2_castSucc V c t, PhiS2_pos V c _ _ h0]
    iintro ⟨⟨⟨HS0, Hr⟩, Hg⟩, Ho, ⟨%d0, H0⟩, ⟨%d1, H1⟩, ⟨%d2, H2⟩, ⟨%d3, H3⟩, ⟨%d4, H4⟩⟩
    iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) (accAt2 V c (t.val - 1) (Nat.lt_of_le_of_lt (Nat.sub_le _ _) t.isLt))).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover2_C c _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_C c _ _ _ _ _ _ _ _ _ _ _ _ _ _ _ _ _ _ _ _)
  · rw [Dat.leavesExact_idle (dat2 V c) 4 t (idleAt2_4 t (fun h => h1 ((hcond2_1 t).mp h))) (noFlush2_4 t (fun h => h1 ((hcond2_1 t).mp h)))]
    by_cases h0 : t.val = 0
    · rw [accAt2_A V c t h0 h1]
      unfold sout2_A; (try dsimp only)
      rw [PhiS2_castSucc V c t, PhiS2_zero V c _ _ h0, PhiA2_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_A c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4
    · rw [accAt2_B V c t h0 h1]
      unfold sout2_B; (try dsimp only)
      rw [PhiS2_castSucc V c t, PhiS2_pos V c _ _ h0]
      iintro ⟨⟨⟨HS0, Hr⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (accAt2 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 128 := N_2; omega
  rw [show (dat2 V c).Φ (Fin.last cfg2.N) = PhiS2 V c (Fin.last cfg2.N).val (Nat.le_of_lt_succ (Fin.last cfg2.N).isLt) from rfl, PhiS2_pos V c _ _ hne, PhiA2_eq]
  iintro ⟨⟨HS0, Hr⟩, Hg⟩
  isplitl [HS0 Hr]
  · isplitl [HS0]
    · iexists _; iexact HS0
    iexact Hr
  iexact Hg

end Region

end Cert.KernelIdeal.Gen

end
-- ==== Proof.KernelIdealFrame.lean ====
/-
  The run of the whole program, at any float instance: host operations, three pair-sum regions, host operations.

  Between two of these every unscoped buffer of a core is held at a named valuation: the launch contents, then the
  first stretch of host operations applied, then after each region the region's one-cell output array overwritten by
  what the region's last grid point writes back, then the last stretch applied.  Each region is entered from the
  valuation before it and left at the one after it; in the first and third region two windows stand on one table, so
  that table's buffer is held half and half and joined again at the exit.  The run ends with every unscoped buffer
  read at the last valuation, from which the frame claim and the result's value are both read.
-/
import proofs.«159096_j1580547971931_1_alg».proof.Proof.Gen.KernelIdeal.Launch
import proofs.«159096_j1580547971931_1_alg».proof.Proof.Gen.KernelIdeal.Skeleton
import proofs.«159096_j1580547971931_1_alg».proof.Proof.Gen.KernelIdeal.Points
import proofs.«159096_j1580547971931_1_alg».proof.Proof.KernelIdealRegion0
import proofs.«159096_j1580547971931_1_alg».proof.Proof.KernelIdealRegion1
import proofs.«159096_j1580547971931_1_alg».proof.Proof.KernelIdealRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit its output array holds what the write-back at the last point leaves, and every other buffer
    what it held at entry. -/
def W2 (c : Dev nD) : Valuation τ sig (Elt F) :=
  Function.update (W1 m ρ c) (Proc.devRef .tc main_v26) ((dat0 (V1 m ρ) c).arrAt 4 cfg0.N)
abbrev V2 : (c : Dev nD) → (b : Ref sig .tc) → Buf (Elt F) ((c : Thread nD τ).loc b) := fun c b => W2 m ρ c b
theorem W2_out (c : Dev nD) : W2 m ρ c (Proc.devRef .tc main_v26) = (dat0 (V1 m ρ) c).arrAt 4 cfg0.N := by
  unfold W2; exact Function.update_self ..
theorem W2_of_ne (c : Dev nD) (b : Ref sig .tc) (hb : b ≠ main_v26) : W2 m ρ c (Proc.devRef .tc b) = W1 m ρ c (Proc.devRef .tc b) := by
  unfold W2; exact Function.update_of_ne (StableHlo.devRef_ne_of_ne hb) ..
theorem hF0 (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq0 (V1 m ρ) c 0)).trans (W2_of_ne m ρ c _ (by decide)).symm
  | ⟨1, _⟩ => exact (((dat0 (V1 m ρ) c).arrAt_in 1 rfl _).trans (A_eq0 (V1 m ρ) c 1)).trans (W2_of_ne m ρ c _ (by decide)).symm
  | ⟨2, _⟩ => exact (((dat0 (V1 m ρ) c).arrAt_in 2 rfl _).trans (A_eq0 (V1 m ρ) c 2)).trans (W2_of_ne m ρ c _ (by decide)).symm
  | ⟨3, _⟩ => exact (((dat0 (V1 m ρ) c).arrAt_in 3 rfl _).trans (A_eq0 (V1 m ρ) c 3)).trans (W2_of_ne m ρ c _ (by decide)).symm
  | ⟨4, _⟩ => exact (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨4, Finset.mem_univ _, e.symm⟩)

/-- At region 1's exit its output array holds what the write-back at the last point leaves, and every other buffer
    what it held at entry. -/
def W3 (c : Dev nD) : Valuation τ sig (Elt F) :=
  Function.update (W2 m ρ c) (Proc.devRef .tc main_v27) ((dat1 (V2 m ρ) c).arrAt 4 cfg1.N)
abbrev V3 : (c : Dev nD) → (b : Ref sig .tc) → Buf (Elt F) ((c : Thread nD τ).loc b) := fun c b => W3 m ρ c b
theorem W3_out (c : Dev nD) : W3 m ρ c (Proc.devRef .tc main_v27) = (dat1 (V2 m ρ) c).arrAt 4 cfg1.N := by
  unfold W3; exact Function.update_self ..
theorem W3_of_ne (c : Dev nD) (b : Ref sig .tc) (hb : b ≠ main_v27) : W3 m ρ c (Proc.devRef .tc b) = W2 m ρ c (Proc.devRef .tc b) := by
  unfold W3; exact Function.update_of_ne (StableHlo.devRef_ne_of_ne hb) ..
theorem hF1 (c : Dev nD) (w : Fin cfg1.W) : (dat1 (V2 m ρ) c).arrAt w cfg1.N = V3 m ρ c (Pipeline.arrRef spec1 w) := by
  match w with
  | ⟨0, _⟩ => exact (((dat1 (V2 m ρ) c).arrAt_in 0 rfl _).trans (A_eq1 (V2 m ρ) c 0)).trans (W3_of_ne m ρ c _ (by decide)).symm
  | ⟨1, _⟩ => exact (((dat1 (V2 m ρ) c).arrAt_in 1 rfl _).trans (A_eq1 (V2 m ρ) c 1)).trans (W3_of_ne m ρ c _ (by decide)).symm
  | ⟨2, _⟩ => exact (((dat1 (V2 m ρ) c).arrAt_in 2 rfl _).trans (A_eq1 (V2 m ρ) c 2)).trans (W3_of_ne m ρ c _ (by decide)).symm
  | ⟨3, _⟩ => exact (((dat1 (V2 m ρ) c).arrAt_in 3 rfl _).trans (A_eq1 (V2 m ρ) c 3)).trans (W3_of_ne m ρ c _ (by decide)).symm
  | ⟨4, _⟩ => exact (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨4, Finset.mem_univ _, e.symm⟩)

/-- At region 2's exit its output array holds what the write-back at the last point leaves, and every other buffer
    what it held at entry. -/
def W4 (c : Dev nD) : Valuation τ sig (Elt F) :=
  Function.update (W3 m ρ c) (Proc.devRef .tc main_v28) ((dat2 (V3 m ρ) c).arrAt 4 cfg2.N)
abbrev V4 : (c : Dev nD) → (b : Ref sig .tc) → Buf (Elt F) ((c : Thread nD τ).loc b) := fun c b => W4 m ρ c b
theorem W4_out (c : Dev nD) : W4 m ρ c (Proc.devRef .tc main_v28) = (dat2 (V3 m ρ) c).arrAt 4 cfg2.N := by
  unfold W4; exact Function.update_self ..
theorem W4_of_ne (c : Dev nD) (b : Ref sig .tc) (hb : b ≠ main_v28) : W4 m ρ c (Proc.devRef .tc b) = W3 m ρ c (Proc.devRef .tc b) := by
  unfold W4; exact Function.update_of_ne (StableHlo.devRef_ne_of_ne hb) ..
theorem hF2 (c : Dev nD) (w : Fin cfg2.W) : (dat2 (V3 m ρ) c).arrAt w cfg2.N = V4 m ρ c (Pipeline.arrRef spec2 w) := by
  match w with
  | ⟨0, _⟩ => exact (((dat2 (V3 m ρ) c).arrAt_in 0 rfl _).trans (A_eq2 (V3 m ρ) c 0)).trans (W4_of_ne m ρ c _ (by decide)).symm
  | ⟨1, _⟩ => exact (((dat2 (V3 m ρ) c).arrAt_in 1 rfl _).trans (A_eq2 (V3 m ρ) c 1)).trans (W4_of_ne m ρ c _ (by decide)).symm
  | ⟨2, _⟩ => exact (((dat2 (V3 m ρ) c).arrAt_in 2 rfl _).trans (A_eq2 (V3 m ρ) c 2)).trans (W4_of_ne m ρ c _ (by decide)).symm
  | ⟨3, _⟩ => exact (((dat2 (V3 m ρ) c).arrAt_in 3 rfl _).trans (A_eq2 (V3 m ρ) c 3)).trans (W4_of_ne m ρ c _ (by decide)).symm
  | ⟨4, _⟩ => exact (W4_out m ρ c).symm
theorem hrest2 (c : Dev nD) : ∀ b, b ∉ Finset.univ.image (Pipeline.arrRef spec2) → V4 m ρ c b = V3 m ρ c b :=
  fun b hb => W4_of_ne m ρ c b fun e => hb (Finset.mem_image.mpr ⟨4, Finset.mem_univ _, e.symm⟩)

/-- After the last stretch of host operations. -/
abbrev W5 : Dev nD → Valuation τ sig (Elt F) := fun c => StableHlo.after hostOps3 (W4 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem winFacts₀_0 : Pipeline.WinFacts₀ (pcfgs (F := F) 0).spec := winFacts₀0
theorem winFacts₀_1 : Pipeline.WinFacts₀ (pcfgs (F := F) 1).spec := launch1.win.to₀
theorem winFacts₀_2 : Pipeline.WinFacts₀ (pcfgs (F := F) 2).spec := winFacts₀2

/-! ### Region 0: two windows read the means' table and two the variances' table, so each table is held half and half -/

theorem share0_0 (c : Dev nD) : (pdats m ρ 0 c).share 0 = fullShare.left := rfl
theorem share0_1 (c : Dev nD) : (pdats m ρ 0 c).share 1 = fullShare.left := rfl
theorem share0_2 (c : Dev nD) : (pdats m ρ 0 c).share 2 = fullShare.right := rfl
theorem share0_3 (c : Dev nD) : (pdats m ρ 0 c).share 3 = fullShare.right := rfl
theorem share0_4 (c : Dev nD) : (pdats m ρ 0 c).share 4 = fullShare := rfl

/-- The distinct buffers behind region 0's five windows. -/
theorem arrImage0 : Finset.univ.image (Pipeline.arrRef spec0) = {main_v22, main_v24, main_v26} := by decide

/-- The pipeline's arrays at contents `G` of the buffers behind them, window by window, each at its share. -/
theorem arrays0_eq (c : Dev nD) (G : (b : Ref sig .tc) → Buf (Elt F) ((c : Thread nD τ).loc b))
    (X : (w : Fin (Pipeline.pin (pcfgs (F := F)) adm 0).W) → Buf (Elt F) (((Pipeline.pin (pcfgs (F := F)) adm 0).spec w).arr.view.loc (c : Thread nD τ)))
    (hX : ∀ w, X w = G (Pipeline.arrRef spec0 w)) :
    (pdats m ρ 0 c).arrays X = bigSep Finset.univ fun w : Fin (Pipeline.pin (pcfgs (F := F)) adm 0).W =>
      (((c : Thread nD τ).loc (Pipeline.arrRef spec0 w)) ↦{(pdats m ρ 0 c).share w} G (Pipeline.arrRef spec0 w) : sProp 𝕄) := by
  have harr : ∀ w, ((Pipeline.pin (pcfgs (F := F)) adm 0).spec w).arr.IsWhole := arr_whole0
  unfold Pipeline.Dat.arrays
  exact bigSep_congr fun w _ => by rw [(harr w).set_eq_univ, hX w]; rfl

/-- The pipeline's arrays at contents `G` (the two windows on one table holding the same contents) are the three
    buffers behind them, each whole: the halves of a table's share joined, or a whole share split. -/
theorem arrays0_iff (c : Dev nD) (G : (b : Ref sig .tc) → Buf (Elt F) ((c : Thread nD τ).loc b))
    (X : (w : Fin (Pipeline.pin (pcfgs (F := F)) adm 0).W) → Buf (Elt F) (((Pipeline.pin (pcfgs (F := F)) adm 0).spec w).arr.view.loc (c : Thread nD τ)))
    (hX : ∀ w, X w = G (Pipeline.arrRef spec0 w)) :
    (pdats m ρ 0 c).arrays X ⊣⊢ (Pipeline.arrBufs (Ix := Unit) (Name := ℕ) (U := UR sig nD τ) (Lvl := ℕ) spec0 c G : sProp 𝕄) := by
  rw [arrays0_eq m ρ c G X hX]
  unfold Pipeline.arrBufs
  rw [arrImage0, bigSep_insert (by decide), bigSep_insert (by decide), bigSep_singleton]
  rw [show (Finset.univ : Finset (Fin (Pipeline.pin (pcfgs (F := F)) adm 0).W)) = (Finset.univ : Finset (Fin 5)) from rfl, bigSep_W0]
  simp only [share0_0, share0_1, share0_2, share0_3, share0_4]
  show iprop((((c : Thread nD τ).loc main_v22) ↦{fullShare.left} G main_v22) ∗ (((c : Thread nD τ).loc main_v24) ↦{fullShare.left} G main_v24) ∗ (((c : Thread nD τ).loc main_v22) ↦{fullShare.right} G main_v22) ∗ (((c : Thread nD τ).loc main_v24) ↦{fullShare.right} G main_v24) ∗ (((c : Thread nD τ).loc main_v26) ↦{fullShare} G main_v26))
    ⊣⊢ (iprop((((c : Thread nD τ).loc main_v22) ↦{fullShare} G main_v22) ∗ (((c : Thread nD τ).loc main_v24) ↦{fullShare} G main_v24) ∗ (((c : Thread nD τ).loc main_v26) ↦{fullShare} G main_v26)) : sProp 𝕄)
  constructor
  · iintro ⟨H0, H1, H2, H3, H4⟩
    isplitl [H0 H2]
    · iapply (pointsTo_share (PosShare.mem_left_op_right fullShare)).2
      isplitl [H0]; · iexact H0
      iexact H2
    isplitl [H1 H3]
    · iapply (pointsTo_share (PosShare.mem_left_op_right fullShare)).2
      isplitl [H1]; · iexact H1
      iexact H3
    iexact H4
  · iintro ⟨Ha, Hb, H4⟩
    ihave Ha' := (pointsTo_share (PosShare.mem_left_op_right fullShare)).1 $$ Ha
    ihave Hb' := (pointsTo_share (PosShare.mem_left_op_right fullShare)).1 $$ Hb
    icases Ha' with ⟨H0, H2⟩
    icases Hb' with ⟨H1, H3⟩
    isplitl [H0]; · iexact H0
    isplitl [H1]; · iexact H1
    isplitl [H2]; · iexact H2
    isplitl [H3]; · iexact H3
    iexact H4

/-- ENTRY: the core's unscoped buffers at the entry contents are the pipeline's arrays at entry and the rest. -/
theorem entry0 (c : Dev nD) :
    (unscopedBufs c (V1 m ρ c) : sProp 𝕄) ⊢ iprop((pdats m ρ 0 c).arrays ((pdats m ρ 0 c).arrAt · 0) ∗ Pipeline.unscopedRest (Ix := Unit) (Name := ℕ) (U := UR sig nD τ) (Lvl := ℕ) spec0 c (V1 m ρ c)) := by
  rw [Pipeline.unscopedBufs_split₀ cfgs 0 winFacts₀0.arr_unscoped c (V1 m ρ c)]
  exact sep_mono (arrays0_iff m ρ c (V1 m ρ c) _ (fun w => rfl)).2 .rfl

/-- EXIT: the arrays at their final contents and the rest are the unscoped buffers at the exit contents. -/
theorem exit0 (c : Dev nD) :
    iprop((pdats m ρ 0 c).arrays ((pdats m ρ 0 c).arrAt · cfg0.N) ∗ Pipeline.unscopedRest (Ix := Unit) (Name := ℕ) (U := UR sig nD τ) (Lvl := ℕ) spec0 c (V1 m ρ c))
      ⊢ (unscopedBufs c (V2 m ρ c) : sProp 𝕄) := by
  rw [Pipeline.unscopedBufs_split₀ cfgs 0 winFacts₀0.arr_unscoped c (V2 m ρ c)]
  refine sep_mono (arrays0_iff m ρ c (V2 m ρ c) _ (hF0 m ρ c)).1 (Entails.of_eq ?_)
  unfold Pipeline.unscopedRest
  exact bigSep_congr fun b hb => by rw [hrest0 m ρ c b (Finset.mem_sdiff.mp hb).2]

/-! ### Region 1: its five windows stand on five distinct buffers, each held whole -/

theorem entry1 (c : Dev nD) :
    (unscopedBufs c (V2 m ρ c) : sProp 𝕄) ⊢ iprop((pdats m ρ 1 c).arrays ((pdats m ρ 1 c).arrAt · 0) ∗ Pipeline.unscopedRest (Ix := Unit) (Name := ℕ) (U := UR sig nD τ) (Lvl := ℕ) spec1 c (V2 m ρ c)) :=
  Pipeline.arrays_of_unscopedBufs (p := 1) (pcfgs (F := F)) adm (pdats m ρ) launch1.win launch1.arr_whole c
    ((pdats m ρ 1 c).share_full fun _ => rfl) (V2 m ρ c) fun _ => rfl

theorem exit1 (c : Dev nD) :
    iprop((pdats m ρ 1 c).arrays ((pdats m ρ 1 c).arrAt · cfg1.N) ∗ Pipeline.unscopedRest (Ix := Unit) (Name := ℕ) (U := UR sig nD τ) (Lvl := ℕ) spec1 c (V2 m ρ c))
      ⊢ (unscopedBufs c (V3 m ρ c) : sProp 𝕄) :=
  Pipeline.unscopedBufs_of_arrays (p := 1) (pcfgs (F := F)) adm (Ix := Unit) (Name := ℕ) (U := UR sig nD τ) (Lvl := ℕ)
    launch1.win launch1.arr_whole c (pdats m ρ) ((pdats m ρ 1 c).share_full fun _ => rfl)
    (V2 m ρ c) (V3 m ρ c) ((pdats m ρ 1 c).arrAt · cfg1.N) (hF1 m ρ c) (hrest1 m ρ c)

/-! ### Region 2: two windows read the means' table and two the variances' table, so each table is held half and half -/

theorem share2_0 (c : Dev nD) : (pdats m ρ 2 c).share 0 = fullShare.left := rfl
theorem share2_1 (c : Dev nD) : (pdats m ρ 2 c).share 1 = fullShare.left := rfl
theorem share2_2 (c : Dev nD) : (pdats m ρ 2 c).share 2 = fullShare.right := rfl
theorem share2_3 (c : Dev nD) : (pdats m ρ 2 c).share 3 = fullShare.right := rfl
theorem share2_4 (c : Dev nD) : (pdats m ρ 2 c).share 4 = fullShare := rfl

/-- The distinct buffers behind region 2's five windows. -/
theorem arrImage2 : Finset.univ.image (Pipeline.arrRef spec2) = {main_v23, main_v25, main_v28} := by decide

/-- The pipeline's arrays at contents `G` of the buffers behind them, window by window, each at its share. -/
theorem arrays2_eq (c : Dev nD) (G : (b : Ref sig .tc) → Buf (Elt F) ((c : Thread nD τ).loc b))
    (X : (w : Fin (Pipeline.pin (pcfgs (F := F)) adm 2).W) → Buf (Elt F) (((Pipeline.pin (pcfgs (F := F)) adm 2).spec w).arr.view.loc (c : Thread nD τ)))
    (hX : ∀ w, X w = G (Pipeline.arrRef spec2 w)) :
    (pdats m ρ 2 c).arrays X = bigSep Finset.univ fun w : Fin (Pipeline.pin (pcfgs (F := F)) adm 2).W =>
      (((c : Thread nD τ).loc (Pipeline.arrRef spec2 w)) ↦{(pdats m ρ 2 c).share w} G (Pipeline.arrRef spec2 w) : sProp 𝕄) := by
  have harr : ∀ w, ((Pipeline.pin (pcfgs (F := F)) adm 2).spec w).arr.IsWhole := arr_whole2
  unfold Pipeline.Dat.arrays
  exact bigSep_congr fun w _ => by rw [(harr w).set_eq_univ, hX w]; rfl

/-- The pipeline's arrays at contents `G` (the two windows on one table holding the same contents) are the three
    buffers behind them, each whole: the halves of a table's share joined, or a whole share split. -/
theorem arrays2_iff (c : Dev nD) (G : (b : Ref sig .tc) → Buf (Elt F) ((c : Thread nD τ).loc b))
    (X : (w : Fin (Pipeline.pin (pcfgs (F := F)) adm 2).W) → Buf (Elt F) (((Pipeline.pin (pcfgs (F := F)) adm 2).spec w).arr.view.loc (c : Thread nD τ)))
    (hX : ∀ w, X w = G (Pipeline.arrRef spec2 w)) :
    (pdats m ρ 2 c).arrays X ⊣⊢ (Pipeline.arrBufs (Ix := Unit) (Name := ℕ) (U := UR sig nD τ) (Lvl := ℕ) spec2 c G : sProp 𝕄) := by
  rw [arrays2_eq m ρ c G X hX]
  unfold Pipeline.arrBufs
  rw [arrImage2, bigSep_insert (by decide), bigSep_insert (by decide), bigSep_singleton]
  rw [show (Finset.univ : Finset (Fin (Pipeline.pin (pcfgs (F := F)) adm 2).W)) = (Finset.univ : Finset (Fin 5)) from rfl, bigSep_W2]
  simp only [share2_0, share2_1, share2_2, share2_3, share2_4]
  show iprop((((c : Thread nD τ).loc main_v23) ↦{fullShare.left} G main_v23) ∗ (((c : Thread nD τ).loc main_v25) ↦{fullShare.left} G main_v25) ∗ (((c : Thread nD τ).loc main_v23) ↦{fullShare.right} G main_v23) ∗ (((c : Thread nD τ).loc main_v25) ↦{fullShare.right} G main_v25) ∗ (((c : Thread nD τ).loc main_v28) ↦{fullShare} G main_v28))
    ⊣⊢ (iprop((((c : Thread nD τ).loc main_v23) ↦{fullShare} G main_v23) ∗ (((c : Thread nD τ).loc main_v25) ↦{fullShare} G main_v25) ∗ (((c : Thread nD τ).loc main_v28) ↦{fullShare} G main_v28)) : sProp 𝕄)
  constructor
  · iintro ⟨H0, H1, H2, H3, H4⟩
    isplitl [H0 H2]
    · iapply (pointsTo_share (PosShare.mem_left_op_right fullShare)).2
      isplitl [H0]; · iexact H0
      iexact H2
    isplitl [H1 H3]
    · iapply (pointsTo_share (PosShare.mem_left_op_right fullShare)).2
      isplitl [H1]; · iexact H1
      iexact H3
    iexact H4
  · iintro ⟨Ha, Hb, H4⟩
    ihave Ha' := (pointsTo_share (PosShare.mem_left_op_right fullShare)).1 $$ Ha
    ihave Hb' := (pointsTo_share (PosShare.mem_left_op_right fullShare)).1 $$ Hb
    icases Ha' with ⟨H0, H2⟩
    icases Hb' with ⟨H1, H3⟩
    isplitl [H0]; · iexact H0
    isplitl [H1]; · iexact H1
    isplitl [H2]; · iexact H2
    isplitl [H3]; · iexact H3
    iexact H4

/-- ENTRY: the core's unscoped buffers at the entry contents are the pipeline's arrays at entry and the rest. -/
theorem entry2 (c : Dev nD) :
    (unscopedBufs c (V3 m ρ c) : sProp 𝕄) ⊢ iprop((pdats m ρ 2 c).arrays ((pdats m ρ 2 c).arrAt · 0) ∗ Pipeline.unscopedRest (Ix := Unit) (Name := ℕ) (U := UR sig nD τ) (Lvl := ℕ) spec2 c (V3 m ρ c)) := by
  rw [Pipeline.unscopedBufs_split₀ cfgs 2 winFacts₀2.arr_unscoped c (V3 m ρ c)]
  exact sep_mono (arrays2_iff m ρ c (V3 m ρ c) _ (fun w => rfl)).2 .rfl

/-- EXIT: the arrays at their final contents and the rest are the unscoped buffers at the exit contents. -/
theorem exit2 (c : Dev nD) :
    iprop((pdats m ρ 2 c).arrays ((pdats m ρ 2 c).arrAt · cfg2.N) ∗ Pipeline.unscopedRest (Ix := Unit) (Name := ℕ) (U := UR sig nD τ) (Lvl := ℕ) spec2 c (V3 m ρ c))
      ⊢ (unscopedBufs c (V4 m ρ c) : sProp 𝕄) := by
  rw [Pipeline.unscopedBufs_split₀ cfgs 2 winFacts₀2.arr_unscoped c (V4 m ρ c)]
  refine sep_mono (arrays2_iff m ρ c (V4 m ρ c) _ (hF2 m ρ c)).1 (Entails.of_eq ?_)
  unfold Pipeline.unscopedRest
  exact bigSep_congr fun b hb => by rw [hrest2 m ρ c b (Finset.mem_sdiff.mp hb).2]

/-! ## The regions as segments -/

-- a library lemma stated over the pinned configuration unifies with the printed one only when unification may unfold
-- plain definitions in a metavariable's type
set_option backward.isDefEq.respectTransparency.types false in
/-- REGION 0 as a segment: entered from every unscoped buffer at `W1`, left at `W2`; the generator register
    goes into the invariant and comes back; nothing is owed; the kernel has no semaphore of its own. -/
def reg0 : Pipeline.RegionSeg (pcfgs (F := F)) adm (pdats m ρ) () defs₀ 𝒱₀ L lv 0 where
  win := winFacts₀_0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := exit0 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 as a segment: entered from every unscoped buffer at `W2`, left at `W3`; the generator register
    goes into the invariant and comes back; nothing is owed; the kernel has no semaphore of its own. -/
def reg1 : Pipeline.RegionSeg (pcfgs (F := F)) adm (pdats m ρ) () defs₀ 𝒱₀ L lv 1 where
  win := winFacts₀_1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 as a segment: entered from every unscoped buffer at `W3`, left at `W4`; the generator register
    goes into the invariant and comes back; nothing is owed; the kernel has no semaphore of its own. -/
def reg2 : Pipeline.RegionSeg (pcfgs (F := F)) adm (pdats m ρ) () defs₀ 𝒱₀ L lv 2 where
  win := winFacts₀_2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := entry2 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V3 m ρ) c)
    unfold Pipeline.ΦA
    iintro ⟨Hp, -, Hr⟩
    isplitl [Hr]; · iexact Hr
    iexact Hp
  hout c := by
    rw [Pipeline.ownSems0_none]
    refine (hout2 (V3 m ρ) c).trans ?_
    unfold Pipeline.ΦA
    iintro ⟨Hr, Hp⟩
    isplitl [Hp]; · iexact Hp
    isplitr; · iempintro
    iexact Hr
  hexit c := by
    have hjoin := exit2 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ),
    .host (hseg hostOps3 hostOps3_sub hostOps3_fresh' (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer of every core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W5 m ρ c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Gen

end
-- ==== Proof.KernelIdealArgs.lean ====
/-
  The four argument arrays end as launched: neither stretch of host operations writes one, and each region's only
  written array is its own one-cell output.  With the run this gives the frame claim at any float instance.
-/
import proofs.«159096_j1580547971931_1_alg».proof.Proof.Gen.KernelIdeal.Launch
import proofs.«159096_j1580547971931_1_alg».proof.Proof.Gen.KernelIdeal.Skeleton
import proofs.«159096_j1580547971931_1_alg».proof.Proof.Gen.KernelIdeal.Points
import proofs.«159096_j1580547971931_1_alg».proof.Proof.KernelIdealFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 0 reaches the end as launched: no host operation writes it and no region's output is it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 1 reaches the end as launched: no host operation writes it and no region's output is it. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 2 reaches the end as launched: no host operation writes it and no region's output is it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 reaches the end as launched: no host operation writes it and no region's output is it. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- THE FRAME at any float instance: every weakly fair execution of @main terminates, nothing faulting, with the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_main m ρ)

end Cert.KernelIdeal.Gen

end
-- ==== Proof.KernelIdealPieces0.lean ====
/-
  What the body of the first pair-sum kernel leaves in its one-cell scratch and in its one-cell output block, in
  each control case, at any float instance.

  Every store of the body writes the whole one-cell buffer, so the cell ends holding the payload of the last store.
  At a middle point (case B) and at the last point (case C) the scratch holding the running total `xs0` ends holding
  `xs0` plus the partial sum of the point's blocks; at the first point (case A) zero is stored first and read back,
  so the scratch ends holding zero plus the partial sum.  At the last point the output block then receives what the
  scratch holds.
-/
import proofs.«159096_j1580547971931_1_alg».proof.Proof.KernelIdealBody0
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Both offsets of the one-cell buffer's whole-buffer rectangle are zero. -/
theorem hz11 : (![0, 0] : Fin 2 → Nat) = fun _ => 0 := funext fun a => by fin_cases a <;> rfl

/-- Case B (a middle point): the scratch holding `xs0` ends holding `xs0` plus the block's partial sum — the body's
    one store covers the whole cell, and its loads read the whole buffers. -/
theorem sout0_B_eq (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 : Vec F S32x128 .f32) (x2 x3 : Vec F S128x128 .f32) (xs0 : Vec F S1x1 .f32) :
    sout0_B c i arg2 harg2 arg3 harg3 arg4 harg4 arg5 harg5 arg6 harg6 arg7 harg7 hc0 hc1 x0 x1 x2 x3 xs0 = k0_pay1 (k0_pay3 x0 x1 x2 x3 xs0) := by
  unfold sout0_B
  rw [View.read_writes_eq_canon _ _ _ (scover0_B c i arg2 harg2 arg3 harg3 arg4 harg4 arg5 harg5 arg6 harg6 arg7 harg7 hc0 hc1 x0 x1 x2 x3 xs0)]
  unfold kernelRun0_B
  dsimp only
  sl_unfold_words
  rw [View.canon_unit_zero hz11]
  simp only [View.readAt_eq_ld, harg2.read_unread, harg3.read_unread, harg4.read_unread, harg5.read_unread, harg7.read_unread,
    View.ld_unit_zero (S := S32x128) hz11, View.ld_unit_zero (S := S128x128) hz11, View.ld_unit_zero (S := S1x1) hz11]

/-- Case A (the first point): zero is stored first and read back, so the scratch ends holding zero plus the block's
    partial sum; the last store covers the whole cell whatever was stored before. -/
theorem sout0_A_eq (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 : Vec F S32x128 .f32) (x2 x3 : Vec F S128x128 .f32) :
    sout0_A c i arg2 harg2 arg3 harg3 arg4 harg4 arg5 harg5 arg6 harg6 arg7 harg7 hc0 hc1 x0 x1 x2 x3 = k0_pay1 (k0_pay3 x0 x1 x2 x3 (k0_pay2 (F := F))) := by
  unfold sout0_A
  rw [View.read_writes_eq_canon _ _ _ (scover0_A c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz11, View.readCov_unit_zero (S := S1x1) _ hz11]
  simp only [View.readAt_eq_ld, harg2.read_unread, harg3.read_unread, harg4.read_unread, harg5.read_unread,
    View.ld_unit_zero (S := S32x128) hz11, View.ld_unit_zero (S := S128x128) hz11]

/-- Case C (the last point), the scratch: as in case B it ends holding `xs0` plus the block's partial sum. -/
theorem sout0_C_eq (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S32x128 .f32) (x2 x3 : Vec F S128x128 .f32) (xs0 : Vec F S1x1 .f32) :
    sout0_C c i arg2 harg2 arg3 harg3 arg4 harg4 arg5 harg5 arg6 harg6 arg7 harg7 hc0 hc1 x0 x1 x2 x3 xs0 = k0_pay1 (k0_pay3 x0 x1 x2 x3 xs0) := by
  unfold sout0_C
  rw [View.read_writes_eq_canon _ _ _ (scover0_C c i arg2 harg2 arg3 harg3 arg4 harg4 arg5 harg5 arg6 harg6 arg7 harg7 hc0 hc1 x0 x1 x2 x3 xs0)]
  unfold kernelRun0_C
  dsimp only
  sl_unfold_words
  rw [View.canon_unit_zero hz11]
  simp only [View.readAt_eq_ld, harg2.read_unread, harg3.read_unread, harg4.read_unread, harg5.read_unread, harg7.read_unread,
    View.ld_unit_zero (S := S32x128) hz11, View.ld_unit_zero (S := S128x128) hz11, View.ld_unit_zero (S := S1x1) hz11]

/-- Case C (the last point), the output block: it receives what the scratch holds after the store, `xs0` plus the
    block's partial sum. -/
theorem out0_C_eq (c : Dev nD) (i : grid0.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S32x128 .f32) (x2 x3 : Vec F S128x128 .f32) (xs0 : Vec F S1x1 .f32) :
    out0_C c i arg2 harg2 arg3 harg3 arg4 harg4 arg5 harg5 arg6 harg6 arg7 harg7 hc0 hc1 x0 x1 x2 x3 xs0 = k0_pay1 (k0_pay3 x0 x1 x2 x3 xs0) := by
  unfold out0_C
  rw [View.read_writes_eq_canon _ _ _ (cover0_C c i arg2 harg2 arg3 harg3 arg4 harg4 arg5 harg5 arg6 harg6 arg7 harg7 hc0 hc1 x0 x1 x2 x3 xs0)]
  unfold kernelRun0_C
  dsimp only
  sl_unfold_words
  rw [View.canon_unit_zero hz11, View.readCov_unit_zero (S := S1x1) _ hz11]
  simp only [View.readAt_eq_ld, harg2.read_unread, harg3.read_unread, harg4.read_unread, harg5.read_unread, harg7.read_unread,
    View.ld_unit_zero (S := S32x128) hz11, View.ld_unit_zero (S := S128x128) hz11, View.ld_unit_zero (S := S1x1) hz11]

end Cert.KernelIdeal.Gen

end
-- ==== Proof.PairSpec.lean ====
/-
  The mathematics both programs compute, stated once over plain index types.

  For two pairs of [128, 4096] tables (a mean and a variance each) the PAIR SUM is
      Σ_i Σ_j Σ_d  exp(−½ · ((ml i d − mr j d)² / (vl i d + vr j d) + log (vl i d + vr j d)))
  over all rows i of the left pair, all rows j of the right pair and all depths d.  The kernel reaches it in 128
  steps, step t adding the PARTIAL SUM over the 32 left rows 32·(t / 32) … 32·(t / 32) + 31, all 128 right rows and the
  128 depths 128·(t % 32) … 128·(t % 32) + 127; the reference takes it in one sum.  The extended reals' addition is
  commutative and associative, so the two agree with no finiteness assumption (`acc_full`, proved in PairAlgebra).
  The result of both programs is `combine`: aa + bb − 2·ab.
-/
import Idealize.ShloMosaic.PureOps.Ideal

noncomputable section

namespace Cert.PairSpec

open Idealize.ShloMosaic

/-- One term of the pair sum; the factor −½ is kept as its f32 word (the same word on both sides, never evaluated). -/
def term (ml vl mr vr : EReal) : EReal :=
  Ideal.exp (Ideal.ofBits .f32 0xBF000000#32 * (Ideal.div ((ml - mr) * (ml - mr)) (vl + vr) + Ideal.log (vl + vr)))

/-- The pair sum over all left rows, right rows and depths. -/
def pairSum (ml vl mr vr : Fin 128 → Fin 4096 → EReal) : EReal :=
  ∑ i : Fin 128, ∑ j : Fin 128, ∑ d : Fin 4096, term (ml i d) (vl i d) (mr j d) (vr j d)

/-- The left row that step `t` reads at offset `a` of its 32-row block. -/
def rowOf (t : Fin 128) (a : Fin 32) : Fin 128 := ⟨32 * (t.val / 32) + a.val, by have := t.isLt; have := a.isLt; omega⟩

/-- The depth that step `t` reads at offset `k` of its 128-wide block. -/
def colOf (t : Fin 128) (k : Fin 128) : Fin 4096 := ⟨128 * (t.val % 32) + k.val, by have := t.isLt; have := k.isLt; omega⟩

/-- What step `t` adds: its 32 left rows against all right rows over its 128 depths, summed depth first, then right
    rows, then left rows. -/
def partialSum (ml vl mr vr : Fin 128 → Fin 4096 → EReal) (t : Fin 128) : EReal :=
  ∑ a : Fin 32, ∑ j : Fin 128, ∑ k : Fin 128,
    term (ml (rowOf t a) (colOf t k)) (vl (rowOf t a) (colOf t k)) (mr j (colOf t k)) (vr j (colOf t k))

/-- The running total before step `n`: zero, then one partial sum per step. -/
def acc (ml vl mr vr : Fin 128 → Fin 4096 → EReal) : ℕ → EReal
  | 0 => 0
  | n + 1 => acc ml vl mr vr n + (if h : n < 128 then partialSum ml vl mr vr ⟨n, h⟩ else 0)

/-- Both programs' result from the four pooled tables: aa + bb − 2·ab, the 2 kept as its f32 word. -/
def combine (ma va mb vb : Fin 128 → Fin 4096 → EReal) : EReal :=
  (pairSum ma va ma va + pairSum mb vb mb vb) - Ideal.ofBits .f32 0x40000000#32 * pairSum ma va mb vb

end Cert.PairSpec

end
-- ==== Proof.PayloadIdeal.lean ====
/-
  The kernel body's arithmetic, read at the ideal values.

  One step of a pair sum takes a left block of 32 rows (a mean and a variance, each [32, 128]), a right block of 128 rows
  (a mean and a variance, each [128, 128]) and the running total (a [1, 1] cell). It lifts the left tables to [32, 1, 128]
  and the right tables to [1, 128, 128], repeats both over [32, 128, 128], forms at every (a, j, k) the term
      exp(−½ · ((ml a k − mr j k)² / (vl a k + vr j k) + log (vl a k + vr j k))),
  sums it over k, then over j, then over a — each sum started at zero — and adds the total to the cell. Read at the
  extended reals, the new cell is therefore the old cell plus the triple sum of PairSpec's term over the block. The other
  two values the body stores are the cell itself (a shape cast of a shape to itself) and the zero cell.
-/
import proofs.«159096_j1580547971931_1_alg».proof.Proof.Gen.KernelIdeal.Skeleton
import proofs.«159096_j1580547971931_1_alg».proof.Proof.PairSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadIdeal

open Cert.KernelIdeal Cert.KernelIdeal.Gen Idealize.ShloMosaic Idealize.ShloMosaic.ValueIdx

variable [Cert.KernelIdeal.Facts]

/-! ## Layout steps read at an index given by coordinates -/

section Layout
variable {α : Type}

/-- An [a, c] matrix cast to [a, 1, c] reads, at (p, u, r), the matrix at (p, r), whatever the unit coordinate u. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An [a, b] matrix cast to [a, b, 1] reads, at (p, q, u), the matrix at (p, q), whatever the unit coordinate u. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, 1, c] array repeated over [a, b, c] reads, at (p, q, r), the operand at (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array repeated over [a, b, c] reads, at (p, q, r), the operand at (0, q, r). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Layout

/-- The left block's table on the [32, 128, 128] grid: cast to itself, lifted to [32, 1, 128] and repeated along the middle
    axis, it reads at (a, j, k) the table at (a, k). -/
theorem left_apply (x : FVec Ideal S32x128 .f32) (hs : S32x128.ShapeCasts S32x128) (hc : S32x128.ShapeCasts S32x1x128)
    (hb : S32x1x128.Broadcasts S32x128x128) (a : Fin 32) (j k : Fin 128) :
    broadcastTo S32x128x128 (shapeCast S32x1x128 (shapeCast S32x128 x hs) hc) hb (ix3 a j k) = x (ix2 a k) := by
  rw [shapeCast_self]
  exact (broadcastTo_a1c_abc_apply _ hb a j k).trans (shapeCast_ac_a1c_apply x hc a 0 k)

/-- The right block's table on the [32, 128, 128] grid: cast to itself, lifted to [1, 128, 128] and repeated along the first
    axis, it reads at (a, j, k) the table at (j, k). -/
theorem right_apply (x : FVec Ideal S128x128 .f32) (hs : S128x128.ShapeCasts S128x128) (hc : S128x128.ShapeCasts S1x128x128)
    (hb : S1x128x128.Broadcasts S32x128x128) (a : Fin 32) (j k : Fin 128) :
    broadcastTo S32x128x128 (shapeCast S1x128x128 (shapeCast S128x128 x hs) hc) hb (ix3 a j k) = x (ix2 j k) := by
  rw [shapeCast_self]
  exact (broadcastTo_1bc_abc_apply _ hb a j k).trans (shapeCast_ab_1ab_apply x hc 0 j k)

/-! ## The three sums, each over one axis and started at zero -/

/-- The sum over the last axis of a [32, 128, 128] array reads, at (a, j), the sum over k of the array at (a, j, k). -/
theorem sum_last (v : FVec Ideal S32x128x128 .f32) (h : S32x128x128.Reduces [2] S32x128) (hφ : FKind.Formats .f32)
    (hacc : (0x00000000#32 : BitVec 32) = FKind.add.neutral .f32 hφ) (a : Fin 32) (j : Fin 128) :
    multiReduction .add [2] S32x128 v 0x00000000#32 h hφ hacc (ix2 a j) = ∑ k : Fin 128, v (ix3 a j k) := by
  refine (Ideal.multiReduction_add_single v _ h hφ hacc (ix2 a j)).trans ?_
  refine Finset.sum_congr rfl fun k _ => congrArg v ?_
  funext c
  match c with
  | ⟨0, _⟩ => exact Fin.ext rfl
  | ⟨1, _⟩ => exact Fin.ext rfl
  | ⟨2, _⟩ => exact Fin.ext rfl

/-- The sum over the middle axis of a [32, 128, 1] array reads, at (a, u), the sum over j of the array at (a, j, u). -/
theorem sum_middle (v : FVec Ideal S32x128x1 .f32) (h : S32x128x1.Reduces [1] S32x1) (hφ : FKind.Formats .f32)
    (hacc : (0x00000000#32 : BitVec 32) = FKind.add.neutral .f32 hφ) (a : Fin 32) (u : Fin 1) :
    multiReduction .add [1] S32x1 v 0x00000000#32 h hφ hacc (ix2 a u) = ∑ j : Fin 128, v (ix3 a j u) := by
  refine (Ideal.multiReduction_add_single v _ h hφ hacc (ix2 a u)).trans ?_
  refine Finset.sum_congr rfl fun j _ => congrArg v ?_
  funext c
  match c with
  | ⟨0, _⟩ => exact Fin.ext rfl
  | ⟨1, _⟩ => exact Fin.ext rfl
  | ⟨2, _⟩ => exact Fin.ext rfl

/-- The sum over the first axis of a [32, 1, 1] array reads, at (u, w), the sum over a of the array at (a, u, w). -/
theorem sum_first (v : FVec Ideal S32x1x1 .f32) (h : S32x1x1.Reduces [0] S1x1) (hφ : FKind.Formats .f32)
    (hacc : (0x00000000#32 : BitVec 32) = FKind.add.neutral .f32 hφ) (u w : Fin 1) :
    multiReduction .add [0] S1x1 v 0x00000000#32 h hφ hacc (ix2 u w) = ∑ a : Fin 32, v (ix3 a u w) := by
  refine (Ideal.multiReduction_add_single v _ h hφ hacc (ix2 u w)).trans ?_
  refine Finset.sum_congr rfl fun a _ => congrArg v ?_
  funext c
  match c with
  | ⟨0, _⟩ => exact Fin.ext rfl
  | ⟨1, _⟩ => exact Fin.ext rfl
  | ⟨2, _⟩ => exact Fin.ext rfl

/-! ## The term at one grid point -/

/-- At one point of the grid the body's arithmetic on the four repeated tables is PairSpec's term of their four
    elements there: the difference squared over the variance sum, plus its logarithm, times the word of −½, exponentiated. -/
theorem term_apply (A B C D : FVec Ideal S32x128x128 .f32) (i : S32x128x128.Idx) :
    exp (mulf (broadcast S32x128x128 (Scalar.ofBits (F := Ideal) .f32 0xBF000000#32))
      (addf (divf (mulf (subf A B) (subf A B)) (addf C D)) (log (addf C D)))) i
      = Cert.PairSpec.term (A i) (C i) (B i) (D i) := rfl

/-- PairSpec's term at equal arguments. -/
theorem term_congr {a a' b b' c c' d d' : EReal} (ha : a = a') (hb : b = b') (hc : c = c') (hd : d = d') :
    Cert.PairSpec.term a b c d = Cert.PairSpec.term a' b' c' d' := by
  subst ha hb hc hd; rfl

/-! ## The three stored values -/

/-- The value stored back at the end of a step is the cell's value: a shape cast of a shape to itself changes nothing. -/
theorem pay1_eq0 (v : FVec Ideal S1x1 .f32) : k0_pay1 (F := Ideal) v = v := by
  unfold k0_pay1
  exact shapeCast_self v _

/-- The value stored at a pair sum's first step is the zero cell: a splat of the zero word, cast to its own shape. -/
theorem pay2_eq0 (y : S1x1.Idx) : k0_pay2 (F := Ideal) y = 0 := by
  unfold k0_pay2
  rw [shapeCast_self]
  exact Ideal.ofBits_zero_f32

/-- One step's new total: the old total plus the sum, over the block's 32 left rows a, 128 right rows j and 128 depths k, of
    PairSpec's term of the left mean and variance at (a, k) and the right mean and variance at (j, k). -/
theorem pay3_eq0 (v5 v7 : Vec Ideal S32x128 .f32) (v9 v11 : Vec Ideal S128x128 .f32) (v36 : Vec Ideal S1x1 .f32) (y : S1x1.Idx) :
    k0_pay3 (F := Ideal) v5 v7 v9 v11 v36 y
      = v36 y + ∑ a : Fin 32, ∑ j : Fin 128, ∑ k : Fin 128,
          Cert.PairSpec.term (v5 (ix2 a k)) (v7 (ix2 a k)) (v9 (ix2 j k)) (v11 (ix2 j k)) := by
  obtain ⟨p, q, rfl⟩ : ∃ p q, y = ix2 p q := ⟨y 0, y 1, eq_ix2 y⟩
  unfold k0_pay3
  refine congrArg (v36 (ix2 p q) + ·) ?_
  refine (shapeCast_1ab_ab_apply _ _ p q).trans ?_
  refine (shapeCast_ab_1ab_apply _ _ (0 : Fin 1) p q).trans ?_
  refine (sum_first _ _ _ _ p q).trans ?_
  refine Finset.sum_congr rfl fun a _ => ?_
  refine (shapeCast_ab_ab1_apply _ _ a p q).trans ?_
  refine (sum_middle _ _ _ _ a p).trans ?_
  refine Finset.sum_congr rfl fun j _ => ?_
  refine (shapeCast_ab_ab1_apply _ _ a j p).trans ?_
  refine (sum_last _ _ _ _ a j).trans ?_
  refine Finset.sum_congr rfl fun k _ => ?_
  refine (term_apply _ _ _ _ (ix3 a j k)).trans ?_
  exact term_congr (left_apply v5 _ _ _ a j k) (left_apply v7 _ _ _ a j k)
    (right_apply v9 _ _ _ a j k) (right_apply v11 _ _ _ a j k)

/-! ## The second and third pair sums: the same body -/

/-- The second pair sum's stored-back value is the cell's value. -/
theorem pay1_eq1 (v : FVec Ideal S1x1 .f32) : k1_pay1 (F := Ideal) v = v := by
  unfold k1_pay1
  exact shapeCast_self v _

/-- The second pair sum's first-step value is the zero cell. -/
theorem pay2_eq1 (y : S1x1.Idx) : k1_pay2 (F := Ideal) y = 0 := by
  unfold k1_pay2
  rw [shapeCast_self]
  exact Ideal.ofBits_zero_f32

/-- The second pair sum's body is the first's, term for term. -/
theorem k1_pay3_eq_k0 (v5 v7 : Vec Ideal S32x128 .f32) (v9 v11 : Vec Ideal S128x128 .f32) (v36 : Vec Ideal S1x1 .f32) :
    k1_pay3 (F := Ideal) v5 v7 v9 v11 v36 = k0_pay3 (F := Ideal) v5 v7 v9 v11 v36 := rfl

/-- One step's new total in the second pair sum: the old total plus the block's triple sum of PairSpec's term. -/
theorem pay3_eq1 (v5 v7 : Vec Ideal S32x128 .f32) (v9 v11 : Vec Ideal S128x128 .f32) (v36 : Vec Ideal S1x1 .f32) (y : S1x1.Idx) :
    k1_pay3 (F := Ideal) v5 v7 v9 v11 v36 y
      = v36 y + ∑ a : Fin 32, ∑ j : Fin 128, ∑ k : Fin 128,
          Cert.PairSpec.term (v5 (ix2 a k)) (v7 (ix2 a k)) (v9 (ix2 j k)) (v11 (ix2 j k)) :=
  (congrFun (k1_pay3_eq_k0 v5 v7 v9 v11 v36) y).trans (pay3_eq0 v5 v7 v9 v11 v36 y)

/-- The third pair sum's stored-back value is the cell's value. -/
theorem pay1_eq2 (v : FVec Ideal S1x1 .f32) : k2_pay1 (F := Ideal) v = v := by
  unfold k2_pay1
  exact shapeCast_self v _

/-- The third pair sum's first-step value is the zero cell. -/
theorem pay2_eq2 (y : S1x1.Idx) : k2_pay2 (F := Ideal) y = 0 := by
  unfold k2_pay2
  rw [shapeCast_self]
  exact Ideal.ofBits_zero_f32

/-- The third pair sum's body is the first's, term for term. -/
theorem k2_pay3_eq_k0 (v5 v7 : Vec Ideal S32x128 .f32) (v9 v11 : Vec Ideal S128x128 .f32) (v36 : Vec Ideal S1x1 .f32) :
    k2_pay3 (F := Ideal) v5 v7 v9 v11 v36 = k0_pay3 (F := Ideal) v5 v7 v9 v11 v36 := rfl

/-- One step's new total in the third pair sum: the old total plus the block's triple sum of PairSpec's term. -/
theorem pay3_eq2 (v5 v7 : Vec Ideal S32x128 .f32) (v9 v11 : Vec Ideal S128x128 .f32) (v36 : Vec Ideal S1x1 .f32) (y : S1x1.Idx) :
    k2_pay3 (F := Ideal) v5 v7 v9 v11 v36 y
      = v36 y + ∑ a : Fin 32, ∑ j : Fin 128, ∑ k : Fin 128,
          Cert.PairSpec.term (v5 (ix2 a k)) (v7 (ix2 a k)) (v9 (ix2 j k)) (v11 (ix2 j k)) :=
  (congrFun (k2_pay3_eq_k0 v5 v7 v9 v11 v36) y).trans (pay3_eq0 v5 v7 v9 v11 v36 y)

end Cert.KernelIdeal.PayloadIdeal

end
-- ==== Proof.PairAlgebra.lean ====
/-
  The sum algebra behind the 128-step accumulation.

  The running total after all 128 steps is the sum of the 128 partial sums.  Step t = 32·p + q (p < 4, q < 32)
  covers the left rows 32·p + a (a < 32) and the depths 128·q + k (k < 128); as (p, a) runs over Fin 4 × Fin 32 the
  row 32·p + a runs over Fin 128 exactly once, and as (q, k) runs over Fin 32 × Fin 128 the depth 128·q + k runs over
  Fin 4096 exactly once.  Addition on the extended reals is commutative and associative, so the finite sums may be
  split, exchanged and reindexed with no finiteness assumption on the terms.
-/
import proofs.«159096_j1580547971931_1_alg».proof.Proof.PairSpec

noncomputable section

namespace Cert.PairSpec

open Idealize.ShloMosaic

/-- One step of the running total: the total after step `t` is the total before it plus the partial sum of step `t`. -/
theorem acc_succ (ml vl mr vr : Fin 128 → Fin 4096 → EReal) (t : Fin 128) :
    acc ml vl mr vr (t.val + 1) = acc ml vl mr vr t.val + partialSum ml vl mr vr t := by
  show acc ml vl mr vr t.val + (if h : t.val < 128 then partialSum ml vl mr vr ⟨t.val, h⟩ else 0) = _
  rw [dif_pos t.isLt]

/-- A sum over 128 indices, split into 4 blocks of 32: the index is `32·p + a`. -/
theorem sum_fin128_split {M : Type} [AddCommMonoid M] (G : Fin 128 → M) :
    ∑ i : Fin 128, G i =
      ∑ p : Fin 4, ∑ a : Fin 32, G ⟨32 * p.val + a.val, by have := p.isLt; have := a.isLt; omega⟩ := by
  rw [← (finProdFinEquiv : Fin 4 × Fin 32 ≃ Fin 128).sum_comp G, Fintype.sum_prod_type]
  refine Finset.sum_congr rfl fun p _ => Finset.sum_congr rfl fun a _ => ?_
  congr 1
  apply Fin.ext
  simp [finProdFinEquiv]
  omega

/-- A sum over 4096 indices, split into 32 blocks of 128: the index is `128·q + k`. -/
theorem sum_fin4096_split {M : Type} [AddCommMonoid M] (G : Fin 4096 → M) :
    ∑ d : Fin 4096, G d =
      ∑ q : Fin 32, ∑ k : Fin 128, G ⟨128 * q.val + k.val, by have := q.isLt; have := k.isLt; omega⟩ := by
  rw [← (finProdFinEquiv : Fin 32 × Fin 128 ≃ Fin 4096).sum_comp G, Fintype.sum_prod_type]
  refine Finset.sum_congr rfl fun q _ => Finset.sum_congr rfl fun k _ => ?_
  congr 1
  apply Fin.ext
  simp [finProdFinEquiv]
  omega

/-- The running total before step `n` is the sum of the partial sums of the steps below `n` (steps from 128 on add
    nothing). -/
theorem acc_eq_sum_range (ml vl mr vr : Fin 128 → Fin 4096 → EReal) (n : ℕ) :
    acc ml vl mr vr n =
      ∑ k ∈ Finset.range n, (if h : k < 128 then partialSum ml vl mr vr ⟨k, h⟩ else 0) := by
  induction n with
  | zero => rfl
  | succ n ih => rw [Finset.sum_range_succ, ← ih]; rfl

/-- The running total after all 128 steps is the sum of the 128 partial sums. -/
theorem acc_128_eq_sum (ml vl mr vr : Fin 128 → Fin 4096 → EReal) :
    acc ml vl mr vr 128 = ∑ t : Fin 128, partialSum ml vl mr vr t := by
  rw [acc_eq_sum_range,
    ← Fin.sum_univ_eq_sum_range (fun k => if h : k < 128 then partialSum ml vl mr vr ⟨k, h⟩ else 0) 128]
  refine Finset.sum_congr rfl fun t _ => ?_
  rw [dif_pos t.isLt]

/-- Step `32·p + q` reads, at offset `a`, the left row `32·p + a`. -/
theorem rowOf_split (p : Fin 4) (q a : Fin 32) (h : 32 * p.val + q.val < 128) :
    rowOf ⟨32 * p.val + q.val, h⟩ a = ⟨32 * p.val + a.val, by have := p.isLt; have := a.isLt; omega⟩ := by
  apply Fin.ext
  show 32 * ((32 * p.val + q.val) / 32) + a.val = 32 * p.val + a.val
  have := q.isLt
  omega

/-- Step `32·p + q` reads, at offset `k`, the depth `128·q + k`. -/
theorem colOf_split (p : Fin 4) (q : Fin 32) (k : Fin 128) (h : 32 * p.val + q.val < 128) :
    colOf ⟨32 * p.val + q.val, h⟩ k = ⟨128 * q.val + k.val, by have := q.isLt; have := k.isLt; omega⟩ := by
  apply Fin.ext
  show 128 * ((32 * p.val + q.val) % 32) + k.val = 128 * q.val + k.val
  have := q.isLt
  omega

/-- Over the 128 steps, the (row, depth) pairs `(rowOf t a, colOf t k)` run over all of Fin 128 × Fin 4096 exactly once:
    a sum over steps, row offsets and depth offsets is the sum over all rows and depths. -/
theorem sum_steps_eq {M : Type} [AddCommMonoid M] (G : Fin 128 → Fin 4096 → M) :
    ∑ t : Fin 128, ∑ a : Fin 32, ∑ k : Fin 128, G (rowOf t a) (colOf t k) =
      ∑ i : Fin 128, ∑ d : Fin 4096, G i d := by
  rw [sum_fin128_split (fun t => ∑ a : Fin 32, ∑ k : Fin 128, G (rowOf t a) (colOf t k)),
    sum_fin128_split (fun i => ∑ d : Fin 4096, G i d)]
  refine Finset.sum_congr rfl fun p _ => ?_
  simp only [rowOf_split, colOf_split]
  rw [Finset.sum_comm]
  refine Finset.sum_congr rfl fun a _ => ?_
  rw [sum_fin4096_split (fun d => G _ d)]

/-- The sum of the 128 partial sums is the pair sum. -/
theorem sum_partialSum (ml vl mr vr : Fin 128 → Fin 4096 → EReal) :
    ∑ t : Fin 128, partialSum ml vl mr vr t = pairSum ml vl mr vr := by
  have hp : ∀ t : Fin 128, partialSum ml vl mr vr t =
      ∑ a : Fin 32, ∑ k : Fin 128,
        (fun (i : Fin 128) (d : Fin 4096) => ∑ j : Fin 128, term (ml i d) (vl i d) (mr j d) (vr j d))
          (rowOf t a) (colOf t k) := fun t => by
    unfold partialSum
    exact Finset.sum_congr rfl fun a _ => Finset.sum_comm
  have hs : pairSum ml vl mr vr =
      ∑ i : Fin 128, ∑ d : Fin 4096,
        (fun (i : Fin 128) (d : Fin 4096) => ∑ j : Fin 128, term (ml i d) (vl i d) (mr j d) (vr j d)) i d := by
    unfold pairSum
    exact Finset.sum_congr rfl fun i _ => Finset.sum_comm
  rw [hs, ← sum_steps_eq]
  exact Finset.sum_congr rfl fun t _ => hp t

/-- After all 128 steps the running total is the pair sum: the 128 steps cover every (left row, right row, depth)
    triple exactly once, and sums on the extended reals may be regrouped freely. -/
theorem acc_full (ml vl mr vr : Fin 128 → Fin 4096 → EReal) :
    acc ml vl mr vr 128 = pairSum ml vl mr vr := by
  rw [acc_128_eq_sum, sum_partialSum]

end Cert.PairSpec

end
-- ==== Proof.KernelIdealTab.lean ====
/-
  A [128, 4096] table of the kernel's program read by row and depth.
-/
import proofs.«159096_j1580547971931_1_alg».proof.KernelIdeal
import Idealize.ShloMosaic.Lib.ValueIdx

noncomputable section

namespace Cert.KernelIdeal

open Idealize.ShloMosaic

/-- Entry (i, d) of a [128, 4096] table of extended reals. -/
def ktab (X : S128x4096.Idx → EReal) : Fin 128 → Fin 4096 → EReal := fun i d => X (ValueIdx.ix2 i d)

end Cert.KernelIdeal

end
-- ==== Proof.KernelIdealBlocks.lean ====
/-
  Where a block sits in its table.

  Each of the three pair sums runs over 128 grid points t = 32·p + q of a 4 × 32 grid (row-major). At point t the two left
  windows take the [32, 128] block (p, q) of a [128, 4096] table and the two right windows the [128, 128] block (0, q): read at
  (a, k), a left block is the table at row 32·(t / 32) + a and depth 128·(t % 32) + k, and a right block read at (j, k) is the
  table at row j and the same depth — PairSpec's rowOf and colOf. The one-cell output window covers its whole [1, 1] array
  at every point, so writing a cell through it leaves the array holding that cell.

  A block's coordinate on an axis is its block index times the block's extent plus the coordinate inside the block; the
  block indices are decided once over the grid.
-/
import proofs.«159096_j1580547971931_1_alg».proof.Proof.Gen.KernelIdeal.Launch
import proofs.«159096_j1580547971931_1_alg».proof.Proof.Gen.KernelIdeal.Points
import proofs.«159096_j1580547971931_1_alg».proof.Proof.PairSpec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx

variable {F : FTy → Type} [FloatOps F]

/-! ## The one-cell shape -/

/-- The [1, 1] shape has one index. -/
theorem idx_S1x1_eq (a b : S1x1.Idx) : a = b := by
  funext d
  apply Fin.ext
  match d with
  | ⟨0, _⟩ =>
    show (a 0).val = (b 0).val
    have h1 : (a 0).val < 1 := (a 0).isLt
    have h2 : (b 0).val < 1 := (b 0).isLt
    omega
  | ⟨1, _⟩ =>
    show (a 1).val = (b 1).val
    have h1 : (a 1).val < 1 := (a 1).isLt
    have h2 : (b 1).val < 1 := (b 1).isLt
    omega

instance : Subsingleton S1x1.Idx := ⟨idx_S1x1_eq⟩

/-! ## The first pair sum's windows -/

/-- A grid point of the first pair sum is below 128. -/
theorem point_lt0 (t : Fin cfg0.N) : t.val < 128 := by
  have h1 := t.isLt
  have h2 : cfg0.N = 128 := N_0
  omega

/-- The block indices at point t = 32·p + q, decided over the grid: (p, q) for the two left windows, (0, q) for the two right
    windows, (0, 0) for the output cell. -/
theorem index0 : ∀ t : Fin cfg0.N,
    win0_0.index t (0 : Fin 2) = t.val / 32 ∧ win0_0.index t (1 : Fin 2) = t.val % 32
  ∧ win0_1.index t (0 : Fin 2) = t.val / 32 ∧ win0_1.index t (1 : Fin 2) = t.val % 32
  ∧ win0_2.index t (0 : Fin 2) = 0 ∧ win0_2.index t (1 : Fin 2) = t.val % 32
  ∧ win0_3.index t (0 : Fin 2) = 0 ∧ win0_3.index t (1 : Fin 2) = t.val % 32
  ∧ win0_4.index t (0 : Fin 2) = 0 ∧ win0_4.index t (1 : Fin 2) = 0 :=
  (by decide +kernel : ∀ t : Fin grid0.N, _)

/-- Window 0 (a left table) at point t, read at (a, k), is the table at row 32·(t / 32) + a and depth 128·(t % 32) + k; the
    point is given as a number below 128. -/
theorem blk0_0_at (t : Fin cfg0.N) (t' : Fin 128) (ht : t'.val = t.val)
    (X : ((cfg0.win 0).blk t).view.ty.Contents (Elt F)) (a : Fin 32) (k : Fin 128) :
    ((cfg0.win 0).blk t).view.read (Elt F) X (ix2 a k)
      = (X : S128x4096.Idx → Elt F .f32) (ix2 (Cert.PairSpec.rowOf t' a) (Cert.PairSpec.colOf t' k)) := by
  obtain ⟨e0, e1, -⟩ := index0 t
  rw [View.read_apply]
  show (X : S128x4096.Idx → Elt F .f32) _ = _
  congr 1
  funext c
  apply Fin.ext
  match c with
  | ⟨0, _⟩ =>
    show win0_0.index t (0 : Fin 2) * 32 + 1 * a.val = 32 * (t'.val / 32) + a.val
    rw [e0, ht]; omega
  | ⟨1, _⟩ =>
    show win0_0.index t (1 : Fin 2) * 128 + 1 * k.val = 128 * (t'.val % 32) + k.val
    rw [e1, ht]; omega

/-- Window 0 (a left table) at point t, read at (a, k), is the table at row rowOf t a and depth colOf t k. -/
theorem blk0_0 (t : Fin cfg0.N) (X : ((cfg0.win 0).blk t).view.ty.Contents (Elt F)) (a : Fin 32) (k : Fin 128) :
    ((cfg0.win 0).blk t).view.read (Elt F) X (ix2 a k)
      = (X : S128x4096.Idx → Elt F .f32)
          (ix2 (Cert.PairSpec.rowOf ⟨t.val, point_lt0 t⟩ a) (Cert.PairSpec.colOf ⟨t.val, point_lt0 t⟩ k)) :=
  blk0_0_at t ⟨t.val, point_lt0 t⟩ rfl X a k

/-- Window 1 (a left table) at point t, read at (a, k), is the table at row 32·(t / 32) + a and depth 128·(t % 32) + k; the
    point is given as a number below 128. -/
theorem blk0_1_at (t : Fin cfg0.N) (t' : Fin 128) (ht : t'.val = t.val)
    (X : ((cfg0.win 1).blk t).view.ty.Contents (Elt F)) (a : Fin 32) (k : Fin 128) :
    ((cfg0.win 1).blk t).view.read (Elt F) X (ix2 a k)
      = (X : S128x4096.Idx → Elt F .f32) (ix2 (Cert.PairSpec.rowOf t' a) (Cert.PairSpec.colOf t' k)) := by
  obtain ⟨-, -, e0, e1, -⟩ := index0 t
  rw [View.read_apply]
  show (X : S128x4096.Idx → Elt F .f32) _ = _
  congr 1
  funext c
  apply Fin.ext
  match c with
  | ⟨0, _⟩ =>
    show win0_1.index t (0 : Fin 2) * 32 + 1 * a.val = 32 * (t'.val / 32) + a.val
    rw [e0, ht]; omega
  | ⟨1, _⟩ =>
    show win0_1.index t (1 : Fin 2) * 128 + 1 * k.val = 128 * (t'.val % 32) + k.val
    rw [e1, ht]; omega

/-- Window 1 (a left table) at point t, read at (a, k), is the table at row rowOf t a and depth colOf t k. -/
theorem blk0_1 (t : Fin cfg0.N) (X : ((cfg0.win 1).blk t).view.ty.Contents (Elt F)) (a : Fin 32) (k : Fin 128) :
    ((cfg0.win 1).blk t).view.read (Elt F) X (ix2 a k)
      = (X : S128x4096.Idx → Elt F .f32)
          (ix2 (Cert.PairSpec.rowOf ⟨t.val, point_lt0 t⟩ a) (Cert.PairSpec.colOf ⟨t.val, point_lt0 t⟩ k)) :=
  blk0_1_at t ⟨t.val, point_lt0 t⟩ rfl X a k

/-- Window 2 (a right table) at point t, read at (j, k), is the table at row j and depth 128·(t % 32) + k; the point is given
    as a number below 128. -/
theorem blk0_2_at (t : Fin cfg0.N) (t' : Fin 128) (ht : t'.val = t.val)
    (X : ((cfg0.win 2).blk t).view.ty.Contents (Elt F)) (j : Fin 128) (k : Fin 128) :
    ((cfg0.win 2).blk t).view.read (Elt F) X (ix2 j k)
      = (X : S128x4096.Idx → Elt F .f32) (ix2 j (Cert.PairSpec.colOf t' k)) := by
  obtain ⟨-, -, -, -, e0, e1, -⟩ := index0 t
  rw [View.read_apply]
  show (X : S128x4096.Idx → Elt F .f32) _ = _
  congr 1
  funext c
  apply Fin.ext
  match c with
  | ⟨0, _⟩ =>
    show win0_2.index t (0 : Fin 2) * 128 + 1 * j.val = j.val
    rw [e0]; omega
  | ⟨1, _⟩ =>
    show win0_2.index t (1 : Fin 2) * 128 + 1 * k.val = 128 * (t'.val % 32) + k.val
    rw [e1, ht]; omega

/-- Window 2 (a right table) at point t, read at (j, k), is the table at row j and depth colOf t k. -/
theorem blk0_2 (t : Fin cfg0.N) (X : ((cfg0.win 2).blk t).view.ty.Contents (Elt F)) (j : Fin 128) (k : Fin 128) :
    ((cfg0.win 2).blk t).view.read (Elt F) X (ix2 j k)
      = (X : S128x4096.Idx → Elt F .f32) (ix2 j (Cert.PairSpec.colOf ⟨t.val, point_lt0 t⟩ k)) :=
  blk0_2_at t ⟨t.val, point_lt0 t⟩ rfl X j k

/-- Window 3 (a right table) at point t, read at (j, k), is the table at row j and depth 128·(t % 32) + k; the point is given
    as a number below 128. -/
theorem blk0_3_at (t : Fin cfg0.N) (t' : Fin 128) (ht : t'.val = t.val)
    (X : ((cfg0.win 3).blk t).view.ty.Contents (Elt F)) (j : Fin 128) (k : Fin 128) :
    ((cfg0.win 3).blk t).view.read (Elt F) X (ix2 j k)
      = (X : S128x4096.Idx → Elt F .f32) (ix2 j (Cert.PairSpec.colOf t' k)) := by
  obtain ⟨-, -, -, -, -, -, e0, e1, -⟩ := index0 t
  rw [View.read_apply]
  show (X : S128x4096.Idx → Elt F .f32) _ = _
  congr 1
  funext c
  apply Fin.ext
  match c with
  | ⟨0, _⟩ =>
    show win0_3.index t (0 : Fin 2) * 128 + 1 * j.val = j.val
    rw [e0]; omega
  | ⟨1, _⟩ =>
    show win0_3.index t (1 : Fin 2) * 128 + 1 * k.val = 128 * (t'.val % 32) + k.val
    rw [e1, ht]; omega

/-- Window 3 (a right table) at point t, read at (j, k), is the table at row j and depth colOf t k. -/
theorem blk0_3 (t : Fin cfg0.N) (X : ((cfg0.win 3).blk t).view.ty.Contents (Elt F)) (j : Fin 128) (k : Fin 128) :
    ((cfg0.win 3).blk t).view.read (Elt F) X (ix2 j k)
      = (X : S128x4096.Idx → Elt F .f32) (ix2 j (Cert.PairSpec.colOf ⟨t.val, point_lt0 t⟩ k)) :=
  blk0_3_at t ⟨t.val, point_lt0 t⟩ rfl X j k

/-- The output window's block at any point is the whole [1, 1] array: an index of the block sits at itself. -/
theorem blk0_out_emb (t : Fin cfg0.N) (i : S1x1.Idx) : ((cfg0.win 4).blk t).view.emb i = i := by
  obtain ⟨-, -, -, -, -, -, -, -, e0, e1⟩ := index0 t
  funext c
  apply Fin.ext
  match c with
  | ⟨0, _⟩ =>
    show win0_4.index t (0 : Fin 2) * 1 + 1 * (i 0).val = (i 0).val
    rw [e0]; omega
  | ⟨1, _⟩ =>
    show win0_4.index t (1 : Fin 2) * 1 + 1 * (i 1).val = (i 1).val
    rw [e1]; omega

/-- A cell written through the output window at any point, over all of the block, is what the array then holds at each index. -/
theorem blk0_out_apply (t : Fin cfg0.N) (Y : ((cfg0.win 4).blk t).view.ty.Contents (Elt F)) (Z : Vec F S1x1 .f32)
    (i : S1x1.Idx) :
    (((cfg0.win 4).blk t).view.write (Elt F) Y Z Finset.univ : S1x1.Idx → Elt F .f32) i = Z i :=
  (congrArg (((cfg0.win 4).blk t).view.write (Elt F) Y Z Finset.univ : S1x1.Idx → Elt F .f32) (blk0_out_emb t i).symm).trans
    (View.write_emb_of_mem (v := ((cfg0.win 4).blk t).view) Y Z (Finset.mem_univ i))

/-- A cell written through the output window at any point, over all of the block, is the array afterwards. -/
theorem blk0_out (t : Fin cfg0.N) (Y : ((cfg0.win 4).blk t).view.ty.Contents (Elt F)) (Z : Vec F S1x1 .f32) :
    (((cfg0.win 4).blk t).view.write (Elt F) Y Z Finset.univ : S1x1.Idx → Elt F .f32) = Z :=
  funext fun i => blk0_out_apply t Y Z i

/-- Every index of the [1, 1] array is in the output window's block at any point: the block is the whole array. -/
theorem mem_blk0_out (t : Fin cfg0.N) (i : S1x1.Idx) : i ∈ ((cfg0.win 4).blk t).view.set :=
  Eq.mp (congrArg (· ∈ ((cfg0.win 4).blk t).view.set) (blk0_out_emb t i)) (((cfg0.win 4).blk t).view.emb_mem_set i)

/-- The output window's block at any point, read at an index, is the [1, 1] array there. -/
theorem read_blk0_out (t : Fin cfg0.N) (G : ((cfg0.win 4).blk t).view.ty.Contents (Elt F)) (y : S1x1.Idx) :
    ((cfg0.win 4).blk t).view.read (Elt F) G y = (G : S1x1.Idx → Elt F .f32) y :=
  (View.read_apply (v := ((cfg0.win 4).blk t).view) G y).trans (congrArg (G : S1x1.Idx → Elt F .f32) (blk0_out_emb t y))

/-- The output window's block at any point, read back, is the whole [1, 1] array. -/
theorem read_blk0_out_eq (t : Fin cfg0.N) (G : ((cfg0.win 4).blk t).view.ty.Contents (Elt F)) :
    (((cfg0.win 4).blk t).view.read (Elt F) G : S1x1.Idx → Elt F .f32) = G :=
  funext fun y => read_blk0_out t G y

/-- The output window's block at any point, read at any index, is the [1, 1] array's one cell. -/
theorem read_blk0_out_zero (t : Fin cfg0.N) (G : ((cfg0.win 4).blk t).view.ty.Contents (Elt F)) (y : S1x1.Idx) :
    ((cfg0.win 4).blk t).view.read (Elt F) G y = (G : S1x1.Idx → Elt F .f32) (ix2 (0 : Fin 1) (0 : Fin 1)) :=
  (read_blk0_out t G y).trans (congrArg (G : S1x1.Idx → Elt F .f32) (idx_S1x1_eq y _))

/-! ## The second pair sum's windows -/

/-- A grid point of the second pair sum is below 128. -/
theorem point_lt1 (t : Fin cfg1.N) : t.val < 128 := by
  have h1 := t.isLt
  have h2 : cfg1.N = 128 := N_1
  omega

/-- The block indices at point t = 32·p + q, decided over the grid: (p, q) for the two left windows, (0, q) for the two right
    windows, (0, 0) for the output cell. -/
theorem index1 : ∀ t : Fin cfg1.N,
    win1_0.index t (0 : Fin 2) = t.val / 32 ∧ win1_0.index t (1 : Fin 2) = t.val % 32
  ∧ win1_1.index t (0 : Fin 2) = t.val / 32 ∧ win1_1.index t (1 : Fin 2) = t.val % 32
  ∧ win1_2.index t (0 : Fin 2) = 0 ∧ win1_2.index t (1 : Fin 2) = t.val % 32
  ∧ win1_3.index t (0 : Fin 2) = 0 ∧ win1_3.index t (1 : Fin 2) = t.val % 32
  ∧ win1_4.index t (0 : Fin 2) = 0 ∧ win1_4.index t (1 : Fin 2) = 0 :=
  (by decide +kernel : ∀ t : Fin grid1.N, _)

/-- Window 0 (a left table) at point t, read at (a, k), is the table at row 32·(t / 32) + a and depth 128·(t % 32) + k; the
    point is given as a number below 128. -/
theorem blk1_0_at (t : Fin cfg1.N) (t' : Fin 128) (ht : t'.val = t.val)
    (X : ((cfg1.win 0).blk t).view.ty.Contents (Elt F)) (a : Fin 32) (k : Fin 128) :
    ((cfg1.win 0).blk t).view.read (Elt F) X (ix2 a k)
      = (X : S128x4096.Idx → Elt F .f32) (ix2 (Cert.PairSpec.rowOf t' a) (Cert.PairSpec.colOf t' k)) := by
  obtain ⟨e0, e1, -⟩ := index1 t
  rw [View.read_apply]
  show (X : S128x4096.Idx → Elt F .f32) _ = _
  congr 1
  funext c
  apply Fin.ext
  match c with
  | ⟨0, _⟩ =>
    show win1_0.index t (0 : Fin 2) * 32 + 1 * a.val = 32 * (t'.val / 32) + a.val
    rw [e0, ht]; omega
  | ⟨1, _⟩ =>
    show win1_0.index t (1 : Fin 2) * 128 + 1 * k.val = 128 * (t'.val % 32) + k.val
    rw [e1, ht]; omega

/-- Window 0 (a left table) at point t, read at (a, k), is the table at row rowOf t a and depth colOf t k. -/
theorem blk1_0 (t : Fin cfg1.N) (X : ((cfg1.win 0).blk t).view.ty.Contents (Elt F)) (a : Fin 32) (k : Fin 128) :
    ((cfg1.win 0).blk t).view.read (Elt F) X (ix2 a k)
      = (X : S128x4096.Idx → Elt F .f32)
          (ix2 (Cert.PairSpec.rowOf ⟨t.val, point_lt1 t⟩ a) (Cert.PairSpec.colOf ⟨t.val, point_lt1 t⟩ k)) :=
  blk1_0_at t ⟨t.val, point_lt1 t⟩ rfl X a k

/-- Window 1 (a left table) at point t, read at (a, k), is the table at row 32·(t / 32) + a and depth 128·(t % 32) + k; the
    point is given as a number below 128. -/
theorem blk1_1_at (t : Fin cfg1.N) (t' : Fin 128) (ht : t'.val = t.val)
    (X : ((cfg1.win 1).blk t).view.ty.Contents (Elt F)) (a : Fin 32) (k : Fin 128) :
    ((cfg1.win 1).blk t).view.read (Elt F) X (ix2 a k)
      = (X : S128x4096.Idx → Elt F .f32) (ix2 (Cert.PairSpec.rowOf t' a) (Cert.PairSpec.colOf t' k)) := by
  obtain ⟨-, -, e0, e1, -⟩ := index1 t
  rw [View.read_apply]
  show (X : S128x4096.Idx → Elt F .f32) _ = _
  congr 1
  funext c
  apply Fin.ext
  match c with
  | ⟨0, _⟩ =>
    show win1_1.index t (0 : Fin 2) * 32 + 1 * a.val = 32 * (t'.val / 32) + a.val
    rw [e0, ht]; omega
  | ⟨1, _⟩ =>
    show win1_1.index t (1 : Fin 2) * 128 + 1 * k.val = 128 * (t'.val % 32) + k.val
    rw [e1, ht]; omega

/-- Window 1 (a left table) at point t, read at (a, k), is the table at row rowOf t a and depth colOf t k. -/
theorem blk1_1 (t : Fin cfg1.N) (X : ((cfg1.win 1).blk t).view.ty.Contents (Elt F)) (a : Fin 32) (k : Fin 128) :
    ((cfg1.win 1).blk t).view.read (Elt F) X (ix2 a k)
      = (X : S128x4096.Idx → Elt F .f32)
          (ix2 (Cert.PairSpec.rowOf ⟨t.val, point_lt1 t⟩ a) (Cert.PairSpec.colOf ⟨t.val, point_lt1 t⟩ k)) :=
  blk1_1_at t ⟨t.val, point_lt1 t⟩ rfl X a k

/-- Window 2 (a right table) at point t, read at (j, k), is the table at row j and depth 128·(t % 32) + k; the point is given
    as a number below 128. -/
theorem blk1_2_at (t : Fin cfg1.N) (t' : Fin 128) (ht : t'.val = t.val)
    (X : ((cfg1.win 2).blk t).view.ty.Contents (Elt F)) (j : Fin 128) (k : Fin 128) :
    ((cfg1.win 2).blk t).view.read (Elt F) X (ix2 j k)
      = (X : S128x4096.Idx → Elt F .f32) (ix2 j (Cert.PairSpec.colOf t' k)) := by
  obtain ⟨-, -, -, -, e0, e1, -⟩ := index1 t
  rw [View.read_apply]
  show (X : S128x4096.Idx → Elt F .f32) _ = _
  congr 1
  funext c
  apply Fin.ext
  match c with
  | ⟨0, _⟩ =>
    show win1_2.index t (0 : Fin 2) * 128 + 1 * j.val = j.val
    rw [e0]; omega
  | ⟨1, _⟩ =>
    show win1_2.index t (1 : Fin 2) * 128 + 1 * k.val = 128 * (t'.val % 32) + k.val
    rw [e1, ht]; omega

/-- Window 2 (a right table) at point t, read at (j, k), is the table at row j and depth colOf t k. -/
theorem blk1_2 (t : Fin cfg1.N) (X : ((cfg1.win 2).blk t).view.ty.Contents (Elt F)) (j : Fin 128) (k : Fin 128) :
    ((cfg1.win 2).blk t).view.read (Elt F) X (ix2 j k)
      = (X : S128x4096.Idx → Elt F .f32) (ix2 j (Cert.PairSpec.colOf ⟨t.val, point_lt1 t⟩ k)) :=
  blk1_2_at t ⟨t.val, point_lt1 t⟩ rfl X j k

/-- Window 3 (a right table) at point t, read at (j, k), is the table at row j and depth 128·(t % 32) + k; the point is given
    as a number below 128. -/
theorem blk1_3_at (t : Fin cfg1.N) (t' : Fin 128) (ht : t'.val = t.val)
    (X : ((cfg1.win 3).blk t).view.ty.Contents (Elt F)) (j : Fin 128) (k : Fin 128) :
    ((cfg1.win 3).blk t).view.read (Elt F) X (ix2 j k)
      = (X : S128x4096.Idx → Elt F .f32) (ix2 j (Cert.PairSpec.colOf t' k)) := by
  obtain ⟨-, -, -, -, -, -, e0, e1, -⟩ := index1 t
  rw [View.read_apply]
  show (X : S128x4096.Idx → Elt F .f32) _ = _
  congr 1
  funext c
  apply Fin.ext
  match c with
  | ⟨0, _⟩ =>
    show win1_3.index t (0 : Fin 2) * 128 + 1 * j.val = j.val
    rw [e0]; omega
  | ⟨1, _⟩ =>
    show win1_3.index t (1 : Fin 2) * 128 + 1 * k.val = 128 * (t'.val % 32) + k.val
    rw [e1, ht]; omega

/-- Window 3 (a right table) at point t, read at (j, k), is the table at row j and depth colOf t k. -/
theorem blk1_3 (t : Fin cfg1.N) (X : ((cfg1.win 3).blk t).view.ty.Contents (Elt F)) (j : Fin 128) (k : Fin 128) :
    ((cfg1.win 3).blk t).view.read (Elt F) X (ix2 j k)
      = (X : S128x4096.Idx → Elt F .f32) (ix2 j (Cert.PairSpec.colOf ⟨t.val, point_lt1 t⟩ k)) :=
  blk1_3_at t ⟨t.val, point_lt1 t⟩ rfl X j k

/-- The output window's block at any point is the whole [1, 1] array: an index of the block sits at itself. -/
theorem blk1_out_emb (t : Fin cfg1.N) (i : S1x1.Idx) : ((cfg1.win 4).blk t).view.emb i = i := by
  obtain ⟨-, -, -, -, -, -, -, -, e0, e1⟩ := index1 t
  funext c
  apply Fin.ext
  match c with
  | ⟨0, _⟩ =>
    show win1_4.index t (0 : Fin 2) * 1 + 1 * (i 0).val = (i 0).val
    rw [e0]; omega
  | ⟨1, _⟩ =>
    show win1_4.index t (1 : Fin 2) * 1 + 1 * (i 1).val = (i 1).val
    rw [e1]; omega

/-- A cell written through the output window at any point, over all of the block, is what the array then holds at each index. -/
theorem blk1_out_apply (t : Fin cfg1.N) (Y : ((cfg1.win 4).blk t).view.ty.Contents (Elt F)) (Z : Vec F S1x1 .f32)
    (i : S1x1.Idx) :
    (((cfg1.win 4).blk t).view.write (Elt F) Y Z Finset.univ : S1x1.Idx → Elt F .f32) i = Z i :=
  (congrArg (((cfg1.win 4).blk t).view.write (Elt F) Y Z Finset.univ : S1x1.Idx → Elt F .f32) (blk1_out_emb t i).symm).trans
    (View.write_emb_of_mem (v := ((cfg1.win 4).blk t).view) Y Z (Finset.mem_univ i))

/-- A cell written through the output window at any point, over all of the block, is the array afterwards. -/
theorem blk1_out (t : Fin cfg1.N) (Y : ((cfg1.win 4).blk t).view.ty.Contents (Elt F)) (Z : Vec F S1x1 .f32) :
    (((cfg1.win 4).blk t).view.write (Elt F) Y Z Finset.univ : S1x1.Idx → Elt F .f32) = Z :=
  funext fun i => blk1_out_apply t Y Z i

/-- Every index of the [1, 1] array is in the output window's block at any point: the block is the whole array. -/
theorem mem_blk1_out (t : Fin cfg1.N) (i : S1x1.Idx) : i ∈ ((cfg1.win 4).blk t).view.set :=
  Eq.mp (congrArg (· ∈ ((cfg1.win 4).blk t).view.set) (blk1_out_emb t i)) (((cfg1.win 4).blk t).view.emb_mem_set i)

/-- The output window's block at any point, read at an index, is the [1, 1] array there. -/
theorem read_blk1_out (t : Fin cfg1.N) (G : ((cfg1.win 4).blk t).view.ty.Contents (Elt F)) (y : S1x1.Idx) :
    ((cfg1.win 4).blk t).view.read (Elt F) G y = (G : S1x1.Idx → Elt F .f32) y :=
  (View.read_apply (v := ((cfg1.win 4).blk t).view) G y).trans (congrArg (G : S1x1.Idx → Elt F .f32) (blk1_out_emb t y))

/-- The output window's block at any point, read back, is the whole [1, 1] array. -/
theorem read_blk1_out_eq (t : Fin cfg1.N) (G : ((cfg1.win 4).blk t).view.ty.Contents (Elt F)) :
    (((cfg1.win 4).blk t).view.read (Elt F) G : S1x1.Idx → Elt F .f32) = G :=
  funext fun y => read_blk1_out t G y

/-- The output window's block at any point, read at any index, is the [1, 1] array's one cell. -/
theorem read_blk1_out_zero (t : Fin cfg1.N) (G : ((cfg1.win 4).blk t).view.ty.Contents (Elt F)) (y : S1x1.Idx) :
    ((cfg1.win 4).blk t).view.read (Elt F) G y = (G : S1x1.Idx → Elt F .f32) (ix2 (0 : Fin 1) (0 : Fin 1)) :=
  (read_blk1_out t G y).trans (congrArg (G : S1x1.Idx → Elt F .f32) (idx_S1x1_eq y _))

/-! ## The third pair sum's windows -/

/-- A grid point of the third pair sum is below 128. -/
theorem point_lt2 (t : Fin cfg2.N) : t.val < 128 := by
  have h1 := t.isLt
  have h2 : cfg2.N = 128 := N_2
  omega

/-- The block indices at point t = 32·p + q, decided over the grid: (p, q) for the two left windows, (0, q) for the two right
    windows, (0, 0) for the output cell. -/
theorem index2 : ∀ t : Fin cfg2.N,
    win2_0.index t (0 : Fin 2) = t.val / 32 ∧ win2_0.index t (1 : Fin 2) = t.val % 32
  ∧ win2_1.index t (0 : Fin 2) = t.val / 32 ∧ win2_1.index t (1 : Fin 2) = t.val % 32
  ∧ win2_2.index t (0 : Fin 2) = 0 ∧ win2_2.index t (1 : Fin 2) = t.val % 32
  ∧ win2_3.index t (0 : Fin 2) = 0 ∧ win2_3.index t (1 : Fin 2) = t.val % 32
  ∧ win2_4.index t (0 : Fin 2) = 0 ∧ win2_4.index t (1 : Fin 2) = 0 :=
  (by decide +kernel : ∀ t : Fin grid2.N, _)

/-- Window 0 (a left table) at point t, read at (a, k), is the table at row 32·(t / 32) + a and depth 128·(t % 32) + k; the
    point is given as a number below 128. -/
theorem blk2_0_at (t : Fin cfg2.N) (t' : Fin 128) (ht : t'.val = t.val)
    (X : ((cfg2.win 0).blk t).view.ty.Contents (Elt F)) (a : Fin 32) (k : Fin 128) :
    ((cfg2.win 0).blk t).view.read (Elt F) X (ix2 a k)
      = (X : S128x4096.Idx → Elt F .f32) (ix2 (Cert.PairSpec.rowOf t' a) (Cert.PairSpec.colOf t' k)) := by
  obtain ⟨e0, e1, -⟩ := index2 t
  rw [View.read_apply]
  show (X : S128x4096.Idx → Elt F .f32) _ = _
  congr 1
  funext c
  apply Fin.ext
  match c with
  | ⟨0, _⟩ =>
    show win2_0.index t (0 : Fin 2) * 32 + 1 * a.val = 32 * (t'.val / 32) + a.val
    rw [e0, ht]; omega
  | ⟨1, _⟩ =>
    show win2_0.index t (1 : Fin 2) * 128 + 1 * k.val = 128 * (t'.val % 32) + k.val
    rw [e1, ht]; omega

/-- Window 0 (a left table) at point t, read at (a, k), is the table at row rowOf t a and depth colOf t k. -/
theorem blk2_0 (t : Fin cfg2.N) (X : ((cfg2.win 0).blk t).view.ty.Contents (Elt F)) (a : Fin 32) (k : Fin 128) :
    ((cfg2.win 0).blk t).view.read (Elt F) X (ix2 a k)
      = (X : S128x4096.Idx → Elt F .f32)
          (ix2 (Cert.PairSpec.rowOf ⟨t.val, point_lt2 t⟩ a) (Cert.PairSpec.colOf ⟨t.val, point_lt2 t⟩ k)) :=
  blk2_0_at t ⟨t.val, point_lt2 t⟩ rfl X a k

/-- Window 1 (a left table) at point t, read at (a, k), is the table at row 32·(t / 32) + a and depth 128·(t % 32) + k; the
    point is given as a number below 128. -/
theorem blk2_1_at (t : Fin cfg2.N) (t' : Fin 128) (ht : t'.val = t.val)
    (X : ((cfg2.win 1).blk t).view.ty.Contents (Elt F)) (a : Fin 32) (k : Fin 128) :
    ((cfg2.win 1).blk t).view.read (Elt F) X (ix2 a k)
      = (X : S128x4096.Idx → Elt F .f32) (ix2 (Cert.PairSpec.rowOf t' a) (Cert.PairSpec.colOf t' k)) := by
  obtain ⟨-, -, e0, e1, -⟩ := index2 t
  rw [View.read_apply]
  show (X : S128x4096.Idx → Elt F .f32) _ = _
  congr 1
  funext c
  apply Fin.ext
  match c with
  | ⟨0, _⟩ =>
    show win2_1.index t (0 : Fin 2) * 32 + 1 * a.val = 32 * (t'.val / 32) + a.val
    rw [e0, ht]; omega
  | ⟨1, _⟩ =>
    show win2_1.index t (1 : Fin 2) * 128 + 1 * k.val = 128 * (t'.val % 32) + k.val
    rw [e1, ht]; omega

/-- Window 1 (a left table) at point t, read at (a, k), is the table at row rowOf t a and depth colOf t k. -/
theorem blk2_1 (t : Fin cfg2.N) (X : ((cfg2.win 1).blk t).view.ty.Contents (Elt F)) (a : Fin 32) (k : Fin 128) :
    ((cfg2.win 1).blk t).view.read (Elt F) X (ix2 a k)
      = (X : S128x4096.Idx → Elt F .f32)
          (ix2 (Cert.PairSpec.rowOf ⟨t.val, point_lt2 t⟩ a) (Cert.PairSpec.colOf ⟨t.val, point_lt2 t⟩ k)) :=
  blk2_1_at t ⟨t.val, point_lt2 t⟩ rfl X a k

/-- Window 2 (a right table) at point t, read at (j, k), is the table at row j and depth 128·(t % 32) + k; the point is given
    as a number below 128. -/
theorem blk2_2_at (t : Fin cfg2.N) (t' : Fin 128) (ht : t'.val = t.val)
    (X : ((cfg2.win 2).blk t).view.ty.Contents (Elt F)) (j : Fin 128) (k : Fin 128) :
    ((cfg2.win 2).blk t).view.read (Elt F) X (ix2 j k)
      = (X : S128x4096.Idx → Elt F .f32) (ix2 j (Cert.PairSpec.colOf t' k)) := by
  obtain ⟨-, -, -, -, e0, e1, -⟩ := index2 t
  rw [View.read_apply]
  show (X : S128x4096.Idx → Elt F .f32) _ = _
  congr 1
  funext c
  apply Fin.ext
  match c with
  | ⟨0, _⟩ =>
    show win2_2.index t (0 : Fin 2) * 128 + 1 * j.val = j.val
    rw [e0]; omega
  | ⟨1, _⟩ =>
    show win2_2.index t (1 : Fin 2) * 128 + 1 * k.val = 128 * (t'.val % 32) + k.val
    rw [e1, ht]; omega

/-- Window 2 (a right table) at point t, read at (j, k), is the table at row j and depth colOf t k. -/
theorem blk2_2 (t : Fin cfg2.N) (X : ((cfg2.win 2).blk t).view.ty.Contents (Elt F)) (j : Fin 128) (k : Fin 128) :
    ((cfg2.win 2).blk t).view.read (Elt F) X (ix2 j k)
      = (X : S128x4096.Idx → Elt F .f32) (ix2 j (Cert.PairSpec.colOf ⟨t.val, point_lt2 t⟩ k)) :=
  blk2_2_at t ⟨t.val, point_lt2 t⟩ rfl X j k

/-- Window 3 (a right table) at point t, read at (j, k), is the table at row j and depth 128·(t % 32) + k; the point is given
    as a number below 128. -/
theorem blk2_3_at (t : Fin cfg2.N) (t' : Fin 128) (ht : t'.val = t.val)
    (X : ((cfg2.win 3).blk t).view.ty.Contents (Elt F)) (j : Fin 128) (k : Fin 128) :
    ((cfg2.win 3).blk t).view.read (Elt F) X (ix2 j k)
      = (X : S128x4096.Idx → Elt F .f32) (ix2 j (Cert.PairSpec.colOf t' k)) := by
  obtain ⟨-, -, -, -, -, -, e0, e1, -⟩ := index2 t
  rw [View.read_apply]
  show (X : S128x4096.Idx → Elt F .f32) _ = _
  congr 1
  funext c
  apply Fin.ext
  match c with
  | ⟨0, _⟩ =>
    show win2_3.index t (0 : Fin 2) * 128 + 1 * j.val = j.val
    rw [e0]; omega
  | ⟨1, _⟩ =>
    show win2_3.index t (1 : Fin 2) * 128 + 1 * k.val = 128 * (t'.val % 32) + k.val
    rw [e1, ht]; omega

/-- Window 3 (a right table) at point t, read at (j, k), is the table at row j and depth colOf t k. -/
theorem blk2_3 (t : Fin cfg2.N) (X : ((cfg2.win 3).blk t).view.ty.Contents (Elt F)) (j : Fin 128) (k : Fin 128) :
    ((cfg2.win 3).blk t).view.read (Elt F) X (ix2 j k)
      = (X : S128x4096.Idx → Elt F .f32) (ix2 j (Cert.PairSpec.colOf ⟨t.val, point_lt2 t⟩ k)) :=
  blk2_3_at t ⟨t.val, point_lt2 t⟩ rfl X j k

/-- The output window's block at any point is the whole [1, 1] array: an index of the block sits at itself. -/
theorem blk2_out_emb (t : Fin cfg2.N) (i : S1x1.Idx) : ((cfg2.win 4).blk t).view.emb i = i := by
  obtain ⟨-, -, -, -, -, -, -, -, e0, e1⟩ := index2 t
  funext c
  apply Fin.ext
  match c with
  | ⟨0, _⟩ =>
    show win2_4.index t (0 : Fin 2) * 1 + 1 * (i 0).val = (i 0).val
    rw [e0]; omega
  | ⟨1, _⟩ =>
    show win2_4.index t (1 : Fin 2) * 1 + 1 * (i 1).val = (i 1).val
    rw [e1]; omega

/-- A cell written through the output window at any point, over all of the block, is what the array then holds at each index. -/
theorem blk2_out_apply (t : Fin cfg2.N) (Y : ((cfg2.win 4).blk t).view.ty.Contents (Elt F)) (Z : Vec F S1x1 .f32)
    (i : S1x1.Idx) :
    (((cfg2.win 4).blk t).view.write (Elt F) Y Z Finset.univ : S1x1.Idx → Elt F .f32) i = Z i :=
  (congrArg (((cfg2.win 4).blk t).view.write (Elt F) Y Z Finset.univ : S1x1.Idx → Elt F .f32) (blk2_out_emb t i).symm).trans
    (View.write_emb_of_mem (v := ((cfg2.win 4).blk t).view) Y Z (Finset.mem_univ i))

/-- A cell written through the output window at any point, over all of the block, is the array afterwards. -/
theorem blk2_out (t : Fin cfg2.N) (Y : ((cfg2.win 4).blk t).view.ty.Contents (Elt F)) (Z : Vec F S1x1 .f32) :
    (((cfg2.win 4).blk t).view.write (Elt F) Y Z Finset.univ : S1x1.Idx → Elt F .f32) = Z :=
  funext fun i => blk2_out_apply t Y Z i

/-- Every index of the [1, 1] array is in the output window's block at any point: the block is the whole array. -/
theorem mem_blk2_out (t : Fin cfg2.N) (i : S1x1.Idx) : i ∈ ((cfg2.win 4).blk t).view.set :=
  Eq.mp (congrArg (· ∈ ((cfg2.win 4).blk t).view.set) (blk2_out_emb t i)) (((cfg2.win 4).blk t).view.emb_mem_set i)

/-- The output window's block at any point, read at an index, is the [1, 1] array there. -/
theorem read_blk2_out (t : Fin cfg2.N) (G : ((cfg2.win 4).blk t).view.ty.Contents (Elt F)) (y : S1x1.Idx) :
    ((cfg2.win 4).blk t).view.read (Elt F) G y = (G : S1x1.Idx → Elt F .f32) y :=
  (View.read_apply (v := ((cfg2.win 4).blk t).view) G y).trans (congrArg (G : S1x1.Idx → Elt F .f32) (blk2_out_emb t y))

/-- The output window's block at any point, read back, is the whole [1, 1] array. -/
theorem read_blk2_out_eq (t : Fin cfg2.N) (G : ((cfg2.win 4).blk t).view.ty.Contents (Elt F)) :
    (((cfg2.win 4).blk t).view.read (Elt F) G : S1x1.Idx → Elt F .f32) = G :=
  funext fun y => read_blk2_out t G y

/-- The output window's block at any point, read at any index, is the [1, 1] array's one cell. -/
theorem read_blk2_out_zero (t : Fin cfg2.N) (G : ((cfg2.win 4).blk t).view.ty.Contents (Elt F)) (y : S1x1.Idx) :
    ((cfg2.win 4).blk t).view.read (Elt F) G y = (G : S1x1.Idx → Elt F .f32) (ix2 (0 : Fin 1) (0 : Fin 1)) :=
  (read_blk2_out t G y).trans (congrArg (G : S1x1.Idx → Elt F .f32) (idx_S1x1_eq y _))

end Cert.KernelIdeal.Blocks

end
-- ==== Proof.KernelIdealAcc0.lean ====
/-
  The first pair-sum kernel's scratch cell and result, read at the extended reals.

  At grid point t the kernel's four input blocks are pieces of two [128, 4096] tables (a mean and a variance, each
  read once as the left and once as the right operand): the left blocks hold rows 32·(t / 32) … + 31 and depths
  128·(t % 32) … + 127, the right blocks all 128 rows over the same depths.  One step adds to the scratch cell the sum,
  over the block's left rows, right rows and depths, of the pair-sum term — the partial sum of step t.  So after point
  n the cell holds the running total after n + 1 steps (by induction on the point: zero plus the first partial sum at
  point 0, the previous cell plus the point's partial sum afterwards), and after point 127 it holds the whole pair
  sum, which the last point writes to the one-cell result array.
-/
import proofs.«159096_j1580547971931_1_alg».proof.Proof.KernelIdealRegion0
import proofs.«159096_j1580547971931_1_alg».proof.Proof.KernelIdealPieces0
import proofs.«159096_j1580547971931_1_alg».proof.Proof.PayloadIdeal
import proofs.«159096_j1580547971931_1_alg».proof.Proof.PairAlgebra
import proofs.«159096_j1580547971931_1_alg».proof.Proof.KernelIdealTab
import proofs.«159096_j1580547971931_1_alg».proof.Proof.KernelIdealBlocks
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal (ktab)

section Acc

variable (V : (c : Dev nD) → (b : Ref sig .tc) → Buf (Elt Ideal) ((c : Thread nD τ).loc b))

/-! ## The four input blocks read in the tables -/

/-- The left mean block at point `t`, read at (a, k), is the mean table at row `rowOf t a` and depth `colOf t k`. -/
theorem iblk0_0_at (c : Dev nD) (t : Fin cfg0.N) (t' : Fin 128) (ht : t'.val = t.val) (a : Fin 32) (k : Fin 128) :
    (iblk0 V c 0 t : Vec Ideal S32x128 .f32) (ValueIdx.ix2 a k)
      = ktab (V c main_v22) (Cert.PairSpec.rowOf t' a) (Cert.PairSpec.colOf t' k) := by
  unfold iblk0
  exact Blocks.blk0_0_at t t' ht _ a k

/-- The left variance block at point `t`, read at (a, k), is the variance table at row `rowOf t a` and depth
    `colOf t k`. -/
theorem iblk0_1_at (c : Dev nD) (t : Fin cfg0.N) (t' : Fin 128) (ht : t'.val = t.val) (a : Fin 32) (k : Fin 128) :
    (iblk0 V c 1 t : Vec Ideal S32x128 .f32) (ValueIdx.ix2 a k)
      = ktab (V c main_v24) (Cert.PairSpec.rowOf t' a) (Cert.PairSpec.colOf t' k) := by
  unfold iblk0
  exact Blocks.blk0_1_at t t' ht _ a k

/-- The right mean block at point `t`, read at (j, k), is the mean table at row `j` and depth `colOf t k`. -/
theorem iblk0_2_at (c : Dev nD) (t : Fin cfg0.N) (t' : Fin 128) (ht : t'.val = t.val) (j k : Fin 128) :
    (iblk0 V c 2 t : Vec Ideal S128x128 .f32) (ValueIdx.ix2 j k)
      = ktab (V c main_v22) j (Cert.PairSpec.colOf t' k) := by
  unfold iblk0
  exact Blocks.blk0_2_at t t' ht _ j k

/-- The right variance block at point `t`, read at (j, k), is the variance table at row `j` and depth `colOf t k`. -/
theorem iblk0_3_at (c : Dev nD) (t : Fin cfg0.N) (t' : Fin 128) (ht : t'.val = t.val) (j k : Fin 128) :
    (iblk0 V c 3 t : Vec Ideal S128x128 .f32) (ValueIdx.ix2 j k)
      = ktab (V c main_v24) j (Cert.PairSpec.colOf t' k) := by
  unfold iblk0
  exact Blocks.blk0_3_at t t' ht _ j k

/-! ## One step -/

/-- One step at point `t`: the cell holding `xs` ends holding `xs` plus the partial sum of step `t` over the tables. -/
theorem step0 (c : Dev nD) (t : Fin cfg0.N) (t' : Fin 128) (ht : t'.val = t.val) (xs : Vec Ideal S1x1 .f32)
    (y : S1x1.Idx) :
    k0_pay1 (F := Ideal) (k0_pay3 (F := Ideal) (iblk0 V c 0 t) (iblk0 V c 1 t) (iblk0 V c 2 t) (iblk0 V c 3 t) xs) y
      = xs y + Cert.PairSpec.partialSum (ktab (V c main_v22)) (ktab (V c main_v24)) (ktab (V c main_v22))
          (ktab (V c main_v24)) t' := by
  rw [PayloadIdeal.pay1_eq0, PayloadIdeal.pay3_eq0]
  refine congrArg (xs y + ·) ?_
  unfold Cert.PairSpec.partialSum
  refine Finset.sum_congr rfl fun a _ => Finset.sum_congr rfl fun j _ => Finset.sum_congr rfl fun k _ => ?_
  exact PayloadIdeal.term_congr (iblk0_0_at V c t t' ht a k) (iblk0_1_at V c t t' ht a k)
    (iblk0_2_at V c t t' ht j k) (iblk0_3_at V c t t' ht j k)

/-! ## The scratch cell, point by point -/

/-- The scratch cell after point `n` holds the running total after `n + 1` steps: at point 0 zero plus the first
    partial sum, afterwards what the point before left plus the point's partial sum. -/
theorem accAt0_val (c : Dev nD) (n : ℕ) (hn : n < cfg0.N) (y : S1x1.Idx) :
    accAt0 V c n hn y = Cert.PairSpec.acc (ktab (V c main_v22)) (ktab (V c main_v24)) (ktab (V c main_v22)) (ktab (V c main_v24)) (n + 1) := by
  have hN : cfg0.N = 128 := N_0
  induction n with
  | zero =>
    refine (congrFun (accAt0_A V c ⟨0, hn⟩ rfl (by show ¬ (0 : ℕ) = 127; omega)) y).trans ?_
    rw [sout0_A_eq, step0 V c ⟨0, hn⟩ ⟨0, by omega⟩ rfl, PayloadIdeal.pay2_eq0, zero_add]
    exact ((Cert.PairSpec.acc_succ _ _ _ _ ⟨0, by omega⟩).trans (zero_add _)).symm
  | succ n ih =>
    have hlt : n + 1 < 128 := by omega
    have ih' := ih (Nat.lt_of_succ_lt hn)
    by_cases h1 : n + 1 = 127
    · refine (congrFun (accAt0_C V c ⟨n + 1, hn⟩ (Nat.succ_ne_zero n) h1) y).trans ?_
      rw [sout0_C_eq, step0 V c ⟨n + 1, hn⟩ ⟨n + 1, hlt⟩ rfl]
      refine (congrArg (· + _) ih').trans ?_
      exact (Cert.PairSpec.acc_succ _ _ _ _ ⟨n + 1, hlt⟩).symm
    · refine (congrFun (accAt0_B V c ⟨n + 1, hn⟩ (Nat.succ_ne_zero n) h1) y).trans ?_
      rw [sout0_B_eq, step0 V c ⟨n + 1, hn⟩ ⟨n + 1, hlt⟩ rfl]
      refine (congrArg (· + _) ih').trans ?_
      exact (Cert.PairSpec.acc_succ _ _ _ _ ⟨n + 1, hlt⟩).symm

/-! ## The result array -/

/-- After the 128 points the one-cell result array holds the pair sum of the tables: the last point writes back the
    scratch, which then holds the running total after all 128 steps. -/
theorem out0_val (c : Dev nD) :
    (dat0 V c).arrAt 4 cfg0.N = fun _ => Cert.PairSpec.pairSum (ktab (V c main_v22)) (ktab (V c main_v24)) (ktab (V c main_v22)) (ktab (V c main_v24)) := by
  have hN : cfg0.N = 128 := N_0
  refine Dat.arrAt_eq_of_cover (dat0 V c) 4 _ (fun t hf => ?_) (fun i => ?_)
  · have h127 : t.val = 127 := by have := (flush0_4 t).mp hf; have := t.isLt; omega
    funext y
    refine Eq.trans ?_ (Blocks.read_blk0_out (F := Ideal) t _ y).symm
    show (dat0 V c).after 4 t y = _
    rw [after0_4]
    unfold outAt0
    rw [dif_pos h127, out0_C_eq, step0 V c t ⟨127, by omega⟩ h127.symm]
    rw [accAt0_val V c (t.val - 1) _ y, show t.val - 1 + 1 = 127 from by omega, ← Cert.PairSpec.acc_full]
    exact (Cert.PairSpec.acc_succ _ _ _ _ ⟨127, by omega⟩).symm
  · exact ⟨⟨127, by omega⟩, (flush0_4 _).mpr rfl, Blocks.mem_blk0_out _ i⟩

end Acc

end Cert.KernelIdeal.Gen

end
-- ==== Proof.KernelIdealPieces1.lean ====
/-
  What the body of the second pair-sum kernel leaves in its one-cell scratch and in its one-cell output block, in
  each control case, at any float instance.

  Every store of the body writes the whole one-cell buffer, so the cell ends holding the payload of the last store.
  At a middle point (case B) and at the last point (case C) the scratch holding the running total `xs0` ends holding
  `xs0` plus the partial sum of the point's blocks; at the first point (case A) zero is stored first and read back,
  so the scratch ends holding zero plus the partial sum.  At the last point the output block then receives what the
  scratch holds.
-/
import proofs.«159096_j1580547971931_1_alg».proof.Proof.KernelIdealBody1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Both offsets of the one-cell buffer's whole-buffer rectangle are zero. -/
theorem hz11_1 : (![0, 0] : Fin 2 → Nat) = fun _ => 0 := funext fun a => by fin_cases a <;> rfl

/-- Case B (a middle point): the scratch holding `xs0` ends holding `xs0` plus the block's partial sum — the body's
    one store covers the whole cell, and its loads read the whole buffers. -/
theorem sout1_B_eq (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i) (x0 x1 : Vec F S32x128 .f32) (x2 x3 : Vec F S128x128 .f32) (xs0 : Vec F S1x1 .f32) :
    sout1_B c i arg2 harg2 arg3 harg3 arg4 harg4 arg5 harg5 arg6 harg6 arg7 harg7 hc0 hc1 x0 x1 x2 x3 xs0 = k1_pay1 (k1_pay3 x0 x1 x2 x3 xs0) := by
  unfold sout1_B
  rw [View.read_writes_eq_canon _ _ _ (scover1_B c i arg2 harg2 arg3 harg3 arg4 harg4 arg5 harg5 arg6 harg6 arg7 harg7 hc0 hc1 x0 x1 x2 x3 xs0)]
  unfold kernelRun1_B
  dsimp only
  sl_unfold_words
  rw [View.canon_unit_zero hz11_1]
  simp only [View.readAt_eq_ld, harg2.read_unread, harg3.read_unread, harg4.read_unread, harg5.read_unread, harg7.read_unread,
    View.ld_unit_zero (S := S32x128) hz11_1, View.ld_unit_zero (S := S128x128) hz11_1, View.ld_unit_zero (S := S1x1) hz11_1]

/-- Case A (the first point): zero is stored first and read back, so the scratch ends holding zero plus the block's
    partial sum; the last store covers the whole cell whatever was stored before. -/
theorem sout1_A_eq (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i) (x0 x1 : Vec F S32x128 .f32) (x2 x3 : Vec F S128x128 .f32) :
    sout1_A c i arg2 harg2 arg3 harg3 arg4 harg4 arg5 harg5 arg6 harg6 arg7 harg7 hc0 hc1 x0 x1 x2 x3 = k1_pay1 (k1_pay3 x0 x1 x2 x3 (k1_pay2 (F := F))) := by
  unfold sout1_A
  rw [View.read_writes_eq_canon _ _ _ (scover1_A c i arg2 harg2 arg3 harg3 arg4 harg4 arg5 harg5 arg6 harg6 arg7 harg7 hc0 hc1 x0 x1 x2 x3)]
  unfold kernelRun1_A
  dsimp only
  sl_unfold_words
  rw [View.canon_cons_unit_zero (S := S1x1) hz11_1, View.readCov_unit_zero (S := S1x1) _ hz11_1]
  simp only [View.readAt_eq_ld, harg2.read_unread, harg3.read_unread, harg4.read_unread, harg5.read_unread,
    View.ld_unit_zero (S := S32x128) hz11_1, View.ld_unit_zero (S := S128x128) hz11_1]

/-- Case C (the last point), the scratch: as in case B it ends holding `xs0` plus the block's partial sum. -/
theorem sout1_C_eq (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 x1 : Vec F S32x128 .f32) (x2 x3 : Vec F S128x128 .f32) (xs0 : Vec F S1x1 .f32) :
    sout1_C c i arg2 harg2 arg3 harg3 arg4 harg4 arg5 harg5 arg6 harg6 arg7 harg7 hc0 hc1 x0 x1 x2 x3 xs0 = k1_pay1 (k1_pay3 x0 x1 x2 x3 xs0) := by
  unfold sout1_C
  rw [View.read_writes_eq_canon _ _ _ (scover1_C c i arg2 harg2 arg3 harg3 arg4 harg4 arg5 harg5 arg6 harg6 arg7 harg7 hc0 hc1 x0 x1 x2 x3 xs0)]
  unfold kernelRun1_C
  dsimp only
  sl_unfold_words
  rw [View.canon_unit_zero hz11_1]
  simp only [View.readAt_eq_ld, harg2.read_unread, harg3.read_unread, harg4.read_unread, harg5.read_unread, harg7.read_unread,
    View.ld_unit_zero (S := S32x128) hz11_1, View.ld_unit_zero (S := S128x128) hz11_1, View.ld_unit_zero (S := S1x1) hz11_1]

/-- Case C (the last point), the output block: it receives what the scratch holds after the store, `xs0` plus the
    block's partial sum. -/
theorem out1_C_eq (c : Dev nD) (i : grid1.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 x1 : Vec F S32x128 .f32) (x2 x3 : Vec F S128x128 .f32) (xs0 : Vec F S1x1 .f32) :
    out1_C c i arg2 harg2 arg3 harg3 arg4 harg4 arg5 harg5 arg6 harg6 arg7 harg7 hc0 hc1 x0 x1 x2 x3 xs0 = k1_pay1 (k1_pay3 x0 x1 x2 x3 xs0) := by
  unfold out1_C
  rw [View.read_writes_eq_canon _ _ _ (cover1_C c i arg2 harg2 arg3 harg3 arg4 harg4 arg5 harg5 arg6 harg6 arg7 harg7 hc0 hc1 x0 x1 x2 x3 xs0)]
  unfold kernelRun1_C
  dsimp only
  sl_unfold_words
  rw [View.canon_unit_zero hz11_1, View.readCov_unit_zero (S := S1x1) _ hz11_1]
  simp only [View.readAt_eq_ld, harg2.read_unread, harg3.read_unread, harg4.read_unread, harg5.read_unread, harg7.read_unread,
    View.ld_unit_zero (S := S32x128) hz11_1, View.ld_unit_zero (S := S128x128) hz11_1, View.ld_unit_zero (S := S1x1) hz11_1]

end Cert.KernelIdeal.Gen

end
-- ==== Proof.KernelIdealAcc1.lean ====
/-
  The second pair-sum kernel's scratch cell and result, read at the extended reals.

  At grid point t the kernel's four input blocks are pieces of four [128, 4096] tables (a left mean and variance, a
  right mean and variance): the left blocks hold rows 32·(t / 32) … + 31 and depths 128·(t % 32) … + 127, the right
  blocks all 128 rows over the same depths.  One step adds to the scratch cell the sum,
  over the block's left rows, right rows and depths, of the pair-sum term — the partial sum of step t.  So after point
  n the cell holds the running total after n + 1 steps (by induction on the point: zero plus the first partial sum at
  point 0, the previous cell plus the point's partial sum afterwards), and after point 127 it holds the whole pair
  sum, which the last point writes to the one-cell result array.
-/
import proofs.«159096_j1580547971931_1_alg».proof.Proof.KernelIdealRegion1
import proofs.«159096_j1580547971931_1_alg».proof.Proof.KernelIdealPieces1
import proofs.«159096_j1580547971931_1_alg».proof.Proof.PayloadIdeal
import proofs.«159096_j1580547971931_1_alg».proof.Proof.PairAlgebra
import proofs.«159096_j1580547971931_1_alg».proof.Proof.KernelIdealTab
import proofs.«159096_j1580547971931_1_alg».proof.Proof.KernelIdealBlocks
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal (ktab)

section Acc

variable (V : (c : Dev nD) → (b : Ref sig .tc) → Buf (Elt Ideal) ((c : Thread nD τ).loc b))

/-! ## The four input blocks read in the tables -/

/-- The left mean block at point `t`, read at (a, k), is the mean table at row `rowOf t a` and depth `colOf t k`. -/
theorem iblk1_0_at (c : Dev nD) (t : Fin cfg1.N) (t' : Fin 128) (ht : t'.val = t.val) (a : Fin 32) (k : Fin 128) :
    (iblk1 V c 0 t : Vec Ideal S32x128 .f32) (ValueIdx.ix2 a k)
      = ktab (V c main_v22) (Cert.PairSpec.rowOf t' a) (Cert.PairSpec.colOf t' k) := by
  unfold iblk1
  exact Blocks.blk1_0_at t t' ht _ a k

/-- The left variance block at point `t`, read at (a, k), is the variance table at row `rowOf t a` and depth
    `colOf t k`. -/
theorem iblk1_1_at (c : Dev nD) (t : Fin cfg1.N) (t' : Fin 128) (ht : t'.val = t.val) (a : Fin 32) (k : Fin 128) :
    (iblk1 V c 1 t : Vec Ideal S32x128 .f32) (ValueIdx.ix2 a k)
      = ktab (V c main_v24) (Cert.PairSpec.rowOf t' a) (Cert.PairSpec.colOf t' k) := by
  unfold iblk1
  exact Blocks.blk1_1_at t t' ht _ a k

/-- The right mean block at point `t`, read at (j, k), is the mean table at row `j` and depth `colOf t k`. -/
theorem iblk1_2_at (c : Dev nD) (t : Fin cfg1.N) (t' : Fin 128) (ht : t'.val = t.val) (j k : Fin 128) :
    (iblk1 V c 2 t : Vec Ideal S128x128 .f32) (ValueIdx.ix2 j k)
      = ktab (V c main_v23) j (Cert.PairSpec.colOf t' k) := by
  unfold iblk1
  exact Blocks.blk1_2_at t t' ht _ j k

/-- The right variance block at point `t`, read at (j, k), is the variance table at row `j` and depth `colOf t k`. -/
theorem iblk1_3_at (c : Dev nD) (t : Fin cfg1.N) (t' : Fin 128) (ht : t'.val = t.val) (j k : Fin 128) :
    (iblk1 V c 3 t : Vec Ideal S128x128 .f32) (ValueIdx.ix2 j k)
      = ktab (V c main_v25) j (Cert.PairSpec.colOf t' k) := by
  unfold iblk1
  exact Blocks.blk1_3_at t t' ht _ j k

/-! ## One step -/

/-- One step at point `t`: the cell holding `xs` ends holding `xs` plus the partial sum of step `t` over the tables. -/
theorem step1 (c : Dev nD) (t : Fin cfg1.N) (t' : Fin 128) (ht : t'.val = t.val) (xs : Vec Ideal S1x1 .f32)
    (y : S1x1.Idx) :
    k1_pay1 (F := Ideal) (k1_pay3 (F := Ideal) (iblk1 V c 0 t) (iblk1 V c 1 t) (iblk1 V c 2 t) (iblk1 V c 3 t) xs) y
      = xs y + Cert.PairSpec.partialSum (ktab (V c main_v22)) (ktab (V c main_v24)) (ktab (V c main_v23))
          (ktab (V c main_v25)) t' := by
  rw [PayloadIdeal.pay1_eq1, PayloadIdeal.pay3_eq1]
  refine congrArg (xs y + ·) ?_
  unfold Cert.PairSpec.partialSum
  refine Finset.sum_congr rfl fun a _ => Finset.sum_congr rfl fun j _ => Finset.sum_congr rfl fun k _ => ?_
  exact PayloadIdeal.term_congr (iblk1_0_at V c t t' ht a k) (iblk1_1_at V c t t' ht a k)
    (iblk1_2_at V c t t' ht j k) (iblk1_3_at V c t t' ht j k)

/-! ## The scratch cell, point by point -/

/-- The scratch cell after point `n` holds the running total after `n + 1` steps: at point 0 zero plus the first
    partial sum, afterwards what the point before left plus the point's partial sum. -/
theorem accAt1_val (c : Dev nD) (n : ℕ) (hn : n < cfg1.N) (y : S1x1.Idx) :
    accAt1 V c n hn y = Cert.PairSpec.acc (ktab (V c main_v22)) (ktab (V c main_v24)) (ktab (V c main_v23)) (ktab (V c main_v25)) (n + 1) := by
  have hN : cfg1.N = 128 := N_1
  induction n with
  | zero =>
    refine (congrFun (accAt1_A V c ⟨0, hn⟩ rfl (by show ¬ (0 : ℕ) = 127; omega)) y).trans ?_
    rw [sout1_A_eq, step1 V c ⟨0, hn⟩ ⟨0, by omega⟩ rfl, PayloadIdeal.pay2_eq1, zero_add]
    exact ((Cert.PairSpec.acc_succ _ _ _ _ ⟨0, by omega⟩).trans (zero_add _)).symm
  | succ n ih =>
    have hlt : n + 1 < 128 := by omega
    have ih' := ih (Nat.lt_of_succ_lt hn)
    by_cases h1 : n + 1 = 127
    · refine (congrFun (accAt1_C V c ⟨n + 1, hn⟩ (Nat.succ_ne_zero n) h1) y).trans ?_
      rw [sout1_C_eq, step1 V c ⟨n + 1, hn⟩ ⟨n + 1, hlt⟩ rfl]
      refine (congrArg (· + _) ih').trans ?_
      exact (Cert.PairSpec.acc_succ _ _ _ _ ⟨n + 1, hlt⟩).symm
    · refine (congrFun (accAt1_B V c ⟨n + 1, hn⟩ (Nat.succ_ne_zero n) h1) y).trans ?_
      rw [sout1_B_eq, step1 V c ⟨n + 1, hn⟩ ⟨n + 1, hlt⟩ rfl]
      refine (congrArg (· + _) ih').trans ?_
      exact (Cert.PairSpec.acc_succ _ _ _ _ ⟨n + 1, hlt⟩).symm

/-! ## The result array -/

/-- After the 128 points the one-cell result array holds the pair sum of the tables: the last point writes back the
    scratch, which then holds the running total after all 128 steps. -/
theorem out1_val (c : Dev nD) :
    (dat1 V c).arrAt 4 cfg1.N = fun _ => Cert.PairSpec.pairSum (ktab (V c main_v22)) (ktab (V c main_v24)) (ktab (V c main_v23)) (ktab (V c main_v25)) := by
  have hN : cfg1.N = 128 := N_1
  refine Dat.arrAt_eq_of_cover (dat1 V c) 4 _ (fun t hf => ?_) (fun i => ?_)
  · have h127 : t.val = 127 := by have := (flush1_4 t).mp hf; have := t.isLt; omega
    funext y
    refine Eq.trans ?_ (Blocks.read_blk1_out (F := Ideal) t _ y).symm
    show (dat1 V c).after 4 t y = _
    rw [after1_4]
    unfold outAt1
    rw [dif_pos h127, out1_C_eq, step1 V c t ⟨127, by omega⟩ h127.symm]
    rw [accAt1_val V c (t.val - 1) _ y, show t.val - 1 + 1 = 127 from by omega, ← Cert.PairSpec.acc_full]
    exact (Cert.PairSpec.acc_succ _ _ _ _ ⟨127, by omega⟩).symm
  · exact ⟨⟨127, by omega⟩, (flush1_4 _).mpr rfl, Blocks.mem_blk1_out _ i⟩

end Acc

end Cert.KernelIdeal.Gen

end
-- ==== Proof.KernelIdealPieces2.lean ====
/-
  What the body of the third pair-sum kernel leaves in its one-cell scratch and in its one-cell output block, in
  each control case, at any float instance.

  Every store of the body writes the whole one-cell buffer, so the cell ends holding the payload of the last store.
  At a middle point (case B) and at the last point (case C) the scratch holding the running total `xs0` ends holding
  `xs0` plus the partial sum of the point's blocks; at the first point (case A) zero is stored first and read back,
  so the scratch ends holding zero plus the partial sum.  At the last point the output block then receives what the
  scratch holds.
-/
import proofs.«159096_j1580547971931_1_alg».proof.Proof.KernelIdealBody2
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Both offsets of the one-cell buffer's whole-buffer rectangle are zero. -/
theorem hz11_2 : (![0, 0] : Fin 2 → Nat) = fun _ => 0 := funext fun a => by fin_cases a <;> rfl

/-- Case B (a middle point): the scratch holding `xs0` ends holding `xs0` plus the block's partial sum — the body's
    one store covers the whole cell, and its loads read the whole buffers. -/
theorem sout2_B_eq (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i) (x0 x1 : Vec F S32x128 .f32) (x2 x3 : Vec F S128x128 .f32) (xs0 : Vec F S1x1 .f32) :
    sout2_B c i arg2 harg2 arg3 harg3 arg4 harg4 arg5 harg5 arg6 harg6 arg7 harg7 hc0 hc1 x0 x1 x2 x3 xs0 = k2_pay1 (k2_pay3 x0 x1 x2 x3 xs0) := by
  unfold sout2_B
  rw [View.read_writes_eq_canon _ _ _ (scover2_B c i arg2 harg2 arg3 harg3 arg4 harg4 arg5 harg5 arg6 harg6 arg7 harg7 hc0 hc1 x0 x1 x2 x3 xs0)]
  unfold kernelRun2_B
  dsimp only
  sl_unfold_words
  rw [View.canon_unit_zero hz11_2]
  simp only [View.readAt_eq_ld, harg2.read_unread, harg3.read_unread, harg4.read_unread, harg5.read_unread, harg7.read_unread,
    View.ld_unit_zero (S := S32x128) hz11_2, View.ld_unit_zero (S := S128x128) hz11_2, View.ld_unit_zero (S := S1x1) hz11_2]

/-- Case A (the first point): zero is stored first and read back, so the scratch ends holding zero plus the block's
    partial sum; the last store covers the whole cell whatever was stored before. -/
theorem sout2_A_eq (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i) (x0 x1 : Vec F S32x128 .f32) (x2 x3 : Vec F S128x128 .f32) :
    sout2_A c i arg2 harg2 arg3 harg3 arg4 harg4 arg5 harg5 arg6 harg6 arg7 harg7 hc0 hc1 x0 x1 x2 x3 = k2_pay1 (k2_pay3 x0 x1 x2 x3 (k2_pay2 (F := F))) := by
  unfold sout2_A
  rw [View.read_writes_eq_canon _ _ _ (scover2_A c i arg2 harg2 arg3 harg3 arg4 harg4 arg5 harg5 arg6 harg6 arg7 harg7 hc0 hc1 x0 x1 x2 x3)]
  unfold kernelRun2_A
  dsimp only
  sl_unfold_words
  rw [View.canon_cons_unit_zero (S := S1x1) hz11_2, View.readCov_unit_zero (S := S1x1) _ hz11_2]
  simp only [View.readAt_eq_ld, harg2.read_unread, harg3.read_unread, harg4.read_unread, harg5.read_unread,
    View.ld_unit_zero (S := S32x128) hz11_2, View.ld_unit_zero (S := S128x128) hz11_2]

/-- Case C (the last point), the scratch: as in case B it ends holding `xs0` plus the block's partial sum. -/
theorem sout2_C_eq (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i) (x0 x1 : Vec F S32x128 .f32) (x2 x3 : Vec F S128x128 .f32) (xs0 : Vec F S1x1 .f32) :
    sout2_C c i arg2 harg2 arg3 harg3 arg4 harg4 arg5 harg5 arg6 harg6 arg7 harg7 hc0 hc1 x0 x1 x2 x3 xs0 = k2_pay1 (k2_pay3 x0 x1 x2 x3 xs0) := by
  unfold sout2_C
  rw [View.read_writes_eq_canon _ _ _ (scover2_C c i arg2 harg2 arg3 harg3 arg4 harg4 arg5 harg5 arg6 harg6 arg7 harg7 hc0 hc1 x0 x1 x2 x3 xs0)]
  unfold kernelRun2_C
  dsimp only
  sl_unfold_words
  rw [View.canon_unit_zero hz11_2]
  simp only [View.readAt_eq_ld, harg2.read_unread, harg3.read_unread, harg4.read_unread, harg5.read_unread, harg7.read_unread,
    View.ld_unit_zero (S := S32x128) hz11_2, View.ld_unit_zero (S := S128x128) hz11_2, View.ld_unit_zero (S := S1x1) hz11_2]

/-- Case C (the last point), the output block: it receives what the scratch holds after the store, `xs0` plus the
    block's partial sum. -/
theorem out2_C_eq (c : Dev nD) (i : grid2.Coords) (arg2 : Memref sig .tc .vmem S32x128 .f32) (harg2 : arg2.IsWhole) (arg3 : Memref sig .tc .vmem S32x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i) (x0 x1 : Vec F S32x128 .f32) (x2 x3 : Vec F S128x128 .f32) (xs0 : Vec F S1x1 .f32) :
    out2_C c i arg2 harg2 arg3 harg3 arg4 harg4 arg5 harg5 arg6 harg6 arg7 harg7 hc0 hc1 x0 x1 x2 x3 xs0 = k2_pay1 (k2_pay3 x0 x1 x2 x3 xs0) := by
  unfold out2_C
  rw [View.read_writes_eq_canon _ _ _ (cover2_C c i arg2 harg2 arg3 harg3 arg4 harg4 arg5 harg5 arg6 harg6 arg7 harg7 hc0 hc1 x0 x1 x2 x3 xs0)]
  unfold kernelRun2_C
  dsimp only
  sl_unfold_words
  rw [View.canon_unit_zero hz11_2, View.readCov_unit_zero (S := S1x1) _ hz11_2]
  simp only [View.readAt_eq_ld, harg2.read_unread, harg3.read_unread, harg4.read_unread, harg5.read_unread, harg7.read_unread,
    View.ld_unit_zero (S := S32x128) hz11_2, View.ld_unit_zero (S := S128x128) hz11_2, View.ld_unit_zero (S := S1x1) hz11_2]

end Cert.KernelIdeal.Gen

end
-- ==== Proof.KernelIdealAcc2.lean ====
/-
  The third pair-sum kernel's scratch cell and result, read at the extended reals.

  At grid point t the kernel's four input blocks are pieces of two [128, 4096] tables (a mean and a variance, each
  read once as the left and once as the right operand): the left blocks hold rows 32·(t / 32) … + 31 and depths
  128·(t % 32) … + 127, the right blocks all 128 rows over the same depths.  One step adds to the scratch cell the sum,
  over the block's left rows, right rows and depths, of the pair-sum term — the partial sum of step t.  So after point
  n the cell holds the running total after n + 1 steps (by induction on the point: zero plus the first partial sum at
  point 0, the previous cell plus the point's partial sum afterwards), and after point 127 it holds the whole pair
  sum, which the last point writes to the one-cell result array.
-/
import proofs.«159096_j1580547971931_1_alg».proof.Proof.KernelIdealRegion2
import proofs.«159096_j1580547971931_1_alg».proof.Proof.KernelIdealPieces2
import proofs.«159096_j1580547971931_1_alg».proof.Proof.PayloadIdeal
import proofs.«159096_j1580547971931_1_alg».proof.Proof.PairAlgebra
import proofs.«159096_j1580547971931_1_alg».proof.Proof.KernelIdealTab
import proofs.«159096_j1580547971931_1_alg».proof.Proof.KernelIdealBlocks
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal (ktab)

section Acc

variable (V : (c : Dev nD) → (b : Ref sig .tc) → Buf (Elt Ideal) ((c : Thread nD τ).loc b))

/-! ## The four input blocks read in the tables -/

/-- The left mean block at point `t`, read at (a, k), is the mean table at row `rowOf t a` and depth `colOf t k`. -/
theorem iblk2_0_at (c : Dev nD) (t : Fin cfg2.N) (t' : Fin 128) (ht : t'.val = t.val) (a : Fin 32) (k : Fin 128) :
    (iblk2 V c 0 t : Vec Ideal S32x128 .f32) (ValueIdx.ix2 a k)
      = ktab (V c main_v23) (Cert.PairSpec.rowOf t' a) (Cert.PairSpec.colOf t' k) := by
  unfold iblk2
  exact Blocks.blk2_0_at t t' ht _ a k

/-- The left variance block at point `t`, read at (a, k), is the variance table at row `rowOf t a` and depth
    `colOf t k`. -/
theorem iblk2_1_at (c : Dev nD) (t : Fin cfg2.N) (t' : Fin 128) (ht : t'.val = t.val) (a : Fin 32) (k : Fin 128) :
    (iblk2 V c 1 t : Vec Ideal S32x128 .f32) (ValueIdx.ix2 a k)
      = ktab (V c main_v25) (Cert.PairSpec.rowOf t' a) (Cert.PairSpec.colOf t' k) := by
  unfold iblk2
  exact Blocks.blk2_1_at t t' ht _ a k

/-- The right mean block at point `t`, read at (j, k), is the mean table at row `j` and depth `colOf t k`. -/
theorem iblk2_2_at (c : Dev nD) (t : Fin cfg2.N) (t' : Fin 128) (ht : t'.val = t.val) (j k : Fin 128) :
    (iblk2 V c 2 t : Vec Ideal S128x128 .f32) (ValueIdx.ix2 j k)
      = ktab (V c main_v23) j (Cert.PairSpec.colOf t' k) := by
  unfold iblk2
  exact Blocks.blk2_2_at t t' ht _ j k

/-- The right variance block at point `t`, read at (j, k), is the variance table at row `j` and depth `colOf t k`. -/
theorem iblk2_3_at (c : Dev nD) (t : Fin cfg2.N) (t' : Fin 128) (ht : t'.val = t.val) (j k : Fin 128) :
    (iblk2 V c 3 t : Vec Ideal S128x128 .f32) (ValueIdx.ix2 j k)
      = ktab (V c main_v25) j (Cert.PairSpec.colOf t' k) := by
  unfold iblk2
  exact Blocks.blk2_3_at t t' ht _ j k

/-! ## One step -/

/-- One step at point `t`: the cell holding `xs` ends holding `xs` plus the partial sum of step `t` over the tables. -/
theorem step2 (c : Dev nD) (t : Fin cfg2.N) (t' : Fin 128) (ht : t'.val = t.val) (xs : Vec Ideal S1x1 .f32)
    (y : S1x1.Idx) :
    k2_pay1 (F := Ideal) (k2_pay3 (F := Ideal) (iblk2 V c 0 t) (iblk2 V c 1 t) (iblk2 V c 2 t) (iblk2 V c 3 t) xs) y
      = xs y + Cert.PairSpec.partialSum (ktab (V c main_v23)) (ktab (V c main_v25)) (ktab (V c main_v23))
          (ktab (V c main_v25)) t' := by
  rw [PayloadIdeal.pay1_eq2, PayloadIdeal.pay3_eq2]
  refine congrArg (xs y + ·) ?_
  unfold Cert.PairSpec.partialSum
  refine Finset.sum_congr rfl fun a _ => Finset.sum_congr rfl fun j _ => Finset.sum_congr rfl fun k _ => ?_
  exact PayloadIdeal.term_congr (iblk2_0_at V c t t' ht a k) (iblk2_1_at V c t t' ht a k)
    (iblk2_2_at V c t t' ht j k) (iblk2_3_at V c t t' ht j k)

/-! ## The scratch cell, point by point -/

/-- The scratch cell after point `n` holds the running total after `n + 1` steps: at point 0 zero plus the first
    partial sum, afterwards what the point before left plus the point's partial sum. -/
theorem accAt2_val (c : Dev nD) (n : ℕ) (hn : n < cfg2.N) (y : S1x1.Idx) :
    accAt2 V c n hn y = Cert.PairSpec.acc (ktab (V c main_v23)) (ktab (V c main_v25)) (ktab (V c main_v23)) (ktab (V c main_v25)) (n + 1) := by
  have hN : cfg2.N = 128 := N_2
  induction n with
  | zero =>
    refine (congrFun (accAt2_A V c ⟨0, hn⟩ rfl (by show ¬ (0 : ℕ) = 127; omega)) y).trans ?_
    rw [sout2_A_eq, step2 V c ⟨0, hn⟩ ⟨0, by omega⟩ rfl, PayloadIdeal.pay2_eq2, zero_add]
    exact ((Cert.PairSpec.acc_succ _ _ _ _ ⟨0, by omega⟩).trans (zero_add _)).symm
  | succ n ih =>
    have hlt : n + 1 < 128 := by omega
    have ih' := ih (Nat.lt_of_succ_lt hn)
    by_cases h1 : n + 1 = 127
    · refine (congrFun (accAt2_C V c ⟨n + 1, hn⟩ (Nat.succ_ne_zero n) h1) y).trans ?_
      rw [sout2_C_eq, step2 V c ⟨n + 1, hn⟩ ⟨n + 1, hlt⟩ rfl]
      refine (congrArg (· + _) ih').trans ?_
      exact (Cert.PairSpec.acc_succ _ _ _ _ ⟨n + 1, hlt⟩).symm
    · refine (congrFun (accAt2_B V c ⟨n + 1, hn⟩ (Nat.succ_ne_zero n) h1) y).trans ?_
      rw [sout2_B_eq, step2 V c ⟨n + 1, hn⟩ ⟨n + 1, hlt⟩ rfl]
      refine (congrArg (· + _) ih').trans ?_
      exact (Cert.PairSpec.acc_succ _ _ _ _ ⟨n + 1, hlt⟩).symm

/-! ## The result array -/

/-- After the 128 points the one-cell result array holds the pair sum of the tables: the last point writes back the
    scratch, which then holds the running total after all 128 steps. -/
theorem out2_val (c : Dev nD) :
    (dat2 V c).arrAt 4 cfg2.N = fun _ => Cert.PairSpec.pairSum (ktab (V c main_v23)) (ktab (V c main_v25)) (ktab (V c main_v23)) (ktab (V c main_v25)) := by
  have hN : cfg2.N = 128 := N_2
  refine Dat.arrAt_eq_of_cover (dat2 V c) 4 _ (fun t hf => ?_) (fun i => ?_)
  · have h127 : t.val = 127 := by have := (flush2_4 t).mp hf; have := t.isLt; omega
    funext y
    refine Eq.trans ?_ (Blocks.read_blk2_out (F := Ideal) t _ y).symm
    show (dat2 V c).after 4 t y = _
    rw [after2_4]
    unfold outAt2
    rw [dif_pos h127, out2_C_eq, step2 V c t ⟨127, by omega⟩ h127.symm]
    rw [accAt2_val V c (t.val - 1) _ y, show t.val - 1 + 1 = 127 from by omega, ← Cert.PairSpec.acc_full]
    exact (Cert.PairSpec.acc_succ _ _ _ _ ⟨127, by omega⟩).symm
  · exact ⟨⟨127, by omega⟩, (flush2_4 _).mpr rfl, Blocks.mem_blk2_out _ i⟩

end Acc

end Cert.KernelIdeal.Gen

end
-- ==== Proof.KernelIdealHost.lean ====
/-
  The host operations around the three pair sums, read at the ideal values.

  Before the pair sums the program pools its four arguments: the two means by a 2 × 2 average; the two log-variances by
  exponentiating, the same average and the factor ¼; each result reshaped to a [128, 4096] table. The reference applies the
  same operations to the same arguments, so each pooled table is the reference's stage of that name: an equation between two
  spellings of one composed term, with no stage opened.

  After the pair sums the program reshapes the three one-cell results P0 (first), P1 (second) and P2 (third) to scalars and
  returns (P0 + P2) − 2 · P1, the 2 kept as its f32 word.
-/
import proofs.«159096_j1580547971931_1_alg».proof.Proof.Gen.KernelIdeal.Launch
import proofs.«159096_j1580547971931_1_alg».proof.Proof.Gen.ReferenceIdeal.Read
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

/-! ## The four pooled tables -/

/-- The first mean table after the host operations is the reference's pooled mean of the first argument. -/
theorem pre_v22 (W : Valuation τ sig (Elt Ideal)) :
    (StableHlo.after (hostOps0 (F := Ideal)) W (Proc.devRef .tc main_v22) : S128x4096.Idx → EReal)
      = Cert.ReferenceIdeal.Read.val_main_v22 (F := Ideal) (W (Proc.devRef .tc main_arg0)) := by
  after_results
  rfl

/-- The first variance table after the host operations is the reference's pooled variance of the second argument. -/
theorem pre_v24 (W : Valuation τ sig (Elt Ideal)) :
    (StableHlo.after (hostOps0 (F := Ideal)) W (Proc.devRef .tc main_v24) : S128x4096.Idx → EReal)
      = Cert.ReferenceIdeal.Read.val_main_v24 (F := Ideal) (W (Proc.devRef .tc main_arg1)) := by
  after_results
  rfl

/-- The second mean table after the host operations is the reference's pooled mean of the third argument. -/
theorem pre_v23 (W : Valuation τ sig (Elt Ideal)) :
    (StableHlo.after (hostOps0 (F := Ideal)) W (Proc.devRef .tc main_v23) : S128x4096.Idx → EReal)
      = Cert.ReferenceIdeal.Read.val_main_v23 (F := Ideal) (W (Proc.devRef .tc main_arg2)) := by
  after_results
  rfl

/-- The second variance table after the host operations is the reference's pooled variance of the fourth argument. -/
theorem pre_v25 (W : Valuation τ sig (Elt Ideal)) :
    (StableHlo.after (hostOps0 (F := Ideal)) W (Proc.devRef .tc main_v25) : S128x4096.Idx → EReal)
      = Cert.ReferenceIdeal.Read.val_main_v25 (F := Ideal) (W (Proc.devRef .tc main_arg3)) := by
  after_results
  rfl

/-! ## The combination of the three pair sums -/

/-- From one-cell results holding P0, P1 and P2, the returned scalar is (P0 + P2) − 2 · P1, the 2 as its f32 word. -/
theorem tail_v34 (W : Valuation τ sig (Elt Ideal)) (P0 P1 P2 : EReal)
    (h26 : (W (Proc.devRef .tc main_v26) : S1x1.Idx → EReal) = fun _ => P0)
    (h27 : (W (Proc.devRef .tc main_v27) : S1x1.Idx → EReal) = fun _ => P1)
    (h28 : (W (Proc.devRef .tc main_v28) : S1x1.Idx → EReal) = fun _ => P2) (i : S_.Idx) :
    (StableHlo.after (hostOps3 (F := Ideal)) W (Proc.devRef .tc main_v34) : S_.Idx → EReal) i
      = (P0 + P2) - Ideal.ofBits .f32 0x40000000#32 * P1 := by
  after_results
  rw [h26, h27, h28]
  rfl

end Cert.KernelIdeal.Host

end
-- ==== Proof.RefValue.lean ====
/-
  The reference program's result, read as mathematics.

  The reference pools its four inputs into four [128, 4096] tables (two means, two variances) and then takes three
  sums over all triples (left row i, right row j, depth d) of
      exp(−½ · ((ml i d − mr j d)² / (vl i d + vr j d) + log (vl i d + vr j d))),
  once for the first pair of tables against itself, once for the second pair against itself and once for the first
  against the second; its result is the first plus the second minus twice the third.  Each of the three sums is a
  total sum of an elementwise expression over the [128, 128, 4096] index set; an index of that set is the triple of
  its coordinates, so the sum is the triple sum over rows, rows and depths, and the elementwise expression read at
  (i, j, d) reads the left tables at (i, d) and the right tables at (j, d).  The four pooled tables enter only through
  their values at a row and a depth.
-/
import proofs.«159096_j1580547971931_1_alg».proof.Proof.Gen.ReferenceIdeal.Read
import proofs.«159096_j1580547971931_1_alg».proof.Proof.PairSpec
import Idealize.ShloMosaic.Lib.ValueIdx

noncomputable section

namespace Cert.ReferenceIdeal.RefValue

open Cert.ReferenceIdeal Cert.ReferenceIdeal.Gen Cert.ReferenceIdeal.Read Idealize.ShloMosaic

/-- A [128, 4096] table read by its row and its depth. -/
def tab (x : S128x4096.Idx → EReal) : Fin 128 → Fin 4096 → EReal := fun i d => x (ValueIdx.ix2 i d)

/-- A rank-3 index set is the product of its three coordinate ranges. -/
def idxEquiv3 {n0 n1 n2 : Nat} : (⟨3, ![n0, n1, n2]⟩ : Shape).Idx ≃ Fin n0 × Fin n1 × Fin n2 where
  toFun k := (k 0, k 1, k 2)
  invFun p := ValueIdx.ix3 p.1 p.2.1 p.2.2
  left_inv k := (ValueIdx.eq_ix3 k).symm
  right_inv _ := rfl

/-- A sum over a rank-3 index set is the triple sum over its coordinates. -/
theorem sum_idx3 {M : Type*} [AddCommMonoid M] {n0 n1 n2 : Nat} (f : (⟨3, ![n0, n1, n2]⟩ : Shape).Idx → M) :
    ∑ k, f k = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The first pair of tables against itself: the summand at (i, j, d) is the pair-sum term of the left tables at
    (i, d) and the same tables at (j, d). -/
theorem v42_at (x0 x1 : (⟨S128x16x32x32, .f32⟩ : BufTy).Contents (Elt Ideal)) (i j : Fin 128) (d : Fin 4096) :
    val_main_v42 (F := Ideal) x0 x1 (ValueIdx.ix3 i j d) =
      Cert.PairSpec.term (tab (val_main_v22 (F := Ideal) x0) i d) (tab (val_main_v24 (F := Ideal) x1) i d)
        (tab (val_main_v22 (F := Ideal) x0) j d) (tab (val_main_v24 (F := Ideal) x1) j d) := by
  rw [val_main_v42_apply, val_main_v41_apply, val_main_v40_apply, val_main_cst_9_apply, val_main_v39_apply,
    val_main_v37_apply, val_main_v38_apply, val_main_v36_apply, val_main_v35_apply, val_main_v30_apply,
    val_main_v28_apply, val_main_v29_apply, val_main_v26_apply, val_main_v27_apply,
    val_main_v33_apply, val_main_v34_apply, val_main_v31_apply, val_main_v32_apply]
  generalize val_main_v22 (F := Ideal) x0 = A
  generalize val_main_v24 (F := Ideal) x1 = B
  have hl : idx_main_v26 (idx_main_v28 (ValueIdx.ix3 i j d)) = ValueIdx.ix2 i d := by
    funext a; match a with | ⟨0, _⟩ => rfl | ⟨1, _⟩ => rfl
  have hr : idx_main_v27 (idx_main_v29 (ValueIdx.ix3 i j d)) = ValueIdx.ix2 j d := by
    funext a; match a with | ⟨0, _⟩ => rfl | ⟨1, _⟩ => rfl
  have hl' : idx_main_v31 (idx_main_v33 (ValueIdx.ix3 i j d)) = ValueIdx.ix2 i d := hl
  have hr' : idx_main_v32 (idx_main_v34 (ValueIdx.ix3 i j d)) = ValueIdx.ix2 j d := hr
  rw [hl, hr, hl', hr']
  rfl

/-- The first pair of tables against the second: the summand at (i, j, d) is the pair-sum term of the first pair at
    (i, d) and the second pair at (j, d). -/
theorem v60_at (x0 x1 x2 x3 : (⟨S128x16x32x32, .f32⟩ : BufTy).Contents (Elt Ideal)) (i j : Fin 128) (d : Fin 4096) :
    val_main_v60 (F := Ideal) x0 x1 x2 x3 (ValueIdx.ix3 i j d) =
      Cert.PairSpec.term (tab (val_main_v22 (F := Ideal) x0) i d) (tab (val_main_v24 (F := Ideal) x1) i d)
        (tab (val_main_v23 (F := Ideal) x2) j d) (tab (val_main_v25 (F := Ideal) x3) j d) := by
  rw [val_main_v60_apply, val_main_v59_apply, val_main_v58_apply, val_main_cst_11_apply, val_main_v57_apply,
    val_main_v55_apply, val_main_v56_apply, val_main_v54_apply, val_main_v53_apply, val_main_v48_apply,
    val_main_v46_apply, val_main_v47_apply, val_main_v44_apply, val_main_v45_apply,
    val_main_v51_apply, val_main_v52_apply, val_main_v49_apply, val_main_v50_apply]
  generalize val_main_v22 (F := Ideal) x0 = A
  generalize val_main_v24 (F := Ideal) x1 = B
  generalize val_main_v23 (F := Ideal) x2 = C
  generalize val_main_v25 (F := Ideal) x3 = D
  have hl : idx_main_v44 (idx_main_v46 (ValueIdx.ix3 i j d)) = ValueIdx.ix2 i d := by
    funext a; match a with | ⟨0, _⟩ => rfl | ⟨1, _⟩ => rfl
  have hr : idx_main_v45 (idx_main_v47 (ValueIdx.ix3 i j d)) = ValueIdx.ix2 j d := by
    funext a; match a with | ⟨0, _⟩ => rfl | ⟨1, _⟩ => rfl
  have hl' : idx_main_v49 (idx_main_v51 (ValueIdx.ix3 i j d)) = ValueIdx.ix2 i d := hl
  have hr' : idx_main_v50 (idx_main_v52 (ValueIdx.ix3 i j d)) = ValueIdx.ix2 j d := hr
  rw [hl, hr, hl', hr']
  rfl

/-- The second pair of tables against itself: the summand at (i, j, d) is the pair-sum term of the second pair at
    (i, d) and the same tables at (j, d). -/
theorem v78_at (x2 x3 : (⟨S128x16x32x32, .f32⟩ : BufTy).Contents (Elt Ideal)) (i j : Fin 128) (d : Fin 4096) :
    val_main_v78 (F := Ideal) x2 x3 (ValueIdx.ix3 i j d) =
      Cert.PairSpec.term (tab (val_main_v23 (F := Ideal) x2) i d) (tab (val_main_v25 (F := Ideal) x3) i d)
        (tab (val_main_v23 (F := Ideal) x2) j d) (tab (val_main_v25 (F := Ideal) x3) j d) := by
  rw [val_main_v78_apply, val_main_v77_apply, val_main_v76_apply, val_main_cst_13_apply, val_main_v75_apply,
    val_main_v73_apply, val_main_v74_apply, val_main_v72_apply, val_main_v71_apply, val_main_v66_apply,
    val_main_v64_apply, val_main_v65_apply, val_main_v62_apply, val_main_v63_apply,
    val_main_v69_apply, val_main_v70_apply, val_main_v67_apply, val_main_v68_apply]
  generalize val_main_v23 (F := Ideal) x2 = C
  generalize val_main_v25 (F := Ideal) x3 = D
  have hl : idx_main_v62 (idx_main_v64 (ValueIdx.ix3 i j d)) = ValueIdx.ix2 i d := by
    funext a; match a with | ⟨0, _⟩ => rfl | ⟨1, _⟩ => rfl
  have hr : idx_main_v63 (idx_main_v65 (ValueIdx.ix3 i j d)) = ValueIdx.ix2 j d := by
    funext a; match a with | ⟨0, _⟩ => rfl | ⟨1, _⟩ => rfl
  have hl' : idx_main_v67 (idx_main_v69 (ValueIdx.ix3 i j d)) = ValueIdx.ix2 i d := hl
  have hr' : idx_main_v68 (idx_main_v70 (ValueIdx.ix3 i j d)) = ValueIdx.ix2 j d := hr
  rw [hl, hr, hl', hr']
  rfl

/-- The reference's first total sum is the pair sum of the first pair of tables against itself. -/
theorem v43_eq (x0 x1 : (⟨S128x16x32x32, .f32⟩ : BufTy).Contents (Elt Ideal)) (i : S_.Idx) :
    val_main_v43 (F := Ideal) x0 x1 i =
      Cert.PairSpec.pairSum (tab (val_main_v22 (F := Ideal) x0)) (tab (val_main_v24 (F := Ideal) x1))
        (tab (val_main_v22 (F := Ideal) x0)) (tab (val_main_v24 (F := Ideal) x1)) := by
  rw [val_main_v43_apply, val_main_cst_10_apply, Ideal.ofBits_def, Ideal.ofBits_zero_f32, zero_add, sum_idx3]
  unfold Cert.PairSpec.pairSum
  exact Finset.sum_congr rfl fun a _ => Finset.sum_congr rfl fun b _ => Finset.sum_congr rfl fun c _ =>
    v42_at x0 x1 a b c

/-- The reference's second total sum is the pair sum of the first pair of tables against the second. -/
theorem v61_eq (x0 x1 x2 x3 : (⟨S128x16x32x32, .f32⟩ : BufTy).Contents (Elt Ideal)) (i : S_.Idx) :
    val_main_v61 (F := Ideal) x0 x1 x2 x3 i =
      Cert.PairSpec.pairSum (tab (val_main_v22 (F := Ideal) x0)) (tab (val_main_v24 (F := Ideal) x1))
        (tab (val_main_v23 (F := Ideal) x2)) (tab (val_main_v25 (F := Ideal) x3)) := by
  rw [val_main_v61_apply, val_main_cst_12_apply, Ideal.ofBits_def, Ideal.ofBits_zero_f32, zero_add, sum_idx3]
  unfold Cert.PairSpec.pairSum
  exact Finset.sum_congr rfl fun a _ => Finset.sum_congr rfl fun b _ => Finset.sum_congr rfl fun c _ =>
    v60_at x0 x1 x2 x3 a b c

/-- The reference's third total sum is the pair sum of the second pair of tables against itself. -/
theorem v79_eq (x2 x3 : (⟨S128x16x32x32, .f32⟩ : BufTy).Contents (Elt Ideal)) (i : S_.Idx) :
    val_main_v79 (F := Ideal) x2 x3 i =
      Cert.PairSpec.pairSum (tab (val_main_v23 (F := Ideal) x2)) (tab (val_main_v25 (F := Ideal) x3))
        (tab (val_main_v23 (F := Ideal) x2)) (tab (val_main_v25 (F := Ideal) x3)) := by
  rw [val_main_v79_apply, val_main_cst_14_apply, Ideal.ofBits_def, Ideal.ofBits_zero_f32, zero_add, sum_idx3]
  unfold Cert.PairSpec.pairSum
  exact Finset.sum_congr rfl fun a _ => Finset.sum_congr rfl fun b _ => Finset.sum_congr rfl fun c _ =>
    v78_at x2 x3 a b c

/-- The reference's result is the combination of the three pair sums of its four pooled tables: the first pair
    against itself, plus the second pair against itself, minus twice the first against the second. -/
theorem ref_eq (x0 x1 x2 x3 : (⟨S128x16x32x32, .f32⟩ : BufTy).Contents (Elt Ideal)) (i : S_.Idx) :
    val_main_v82 (F := Ideal) x0 x1 x2 x3 i =
      Cert.PairSpec.combine (tab (val_main_v22 (F := Ideal) x0)) (tab (val_main_v24 (F := Ideal) x1))
        (tab (val_main_v23 (F := Ideal) x2)) (tab (val_main_v25 (F := Ideal) x3)) := by
  rw [val_main_v82_apply, val_main_v80_apply, val_main_v81_apply, val_main_cst_15_apply,
    v43_eq, v61_eq, v79_eq]
  rfl

end Cert.ReferenceIdeal.RefValue

end
-- ==== Proof.KernelIdealValue.lean ====
/-
  The idealized kernel's result is the reference's.

  After the three regions the one-cell arrays main_v26, main_v27, main_v28 hold the pair sums aa, ab, bb of the four
  pooled tables (each region's output array ends constant at its pair sum, and no later region writes it); the last
  stretch of host operations returns aa + bb − 2·ab, which is `combine` of the four tables; the four tables are the
  first stretch's results, the same host operations the reference applies to the same arguments; and the reference's
  result is `combine` of its tables.  So the final contents of main_v34 are the reference's result term of the
  arguments.
-/
import proofs.«159096_j1580547971931_1_alg».proof.Proof.Gen.KernelIdeal.Launch
import proofs.«159096_j1580547971931_1_alg».proof.Proof.Gen.KernelIdeal.Skeleton
import proofs.«159096_j1580547971931_1_alg».proof.Proof.Gen.KernelIdeal.Points
import proofs.«159096_j1580547971931_1_alg».proof.Proof.KernelIdealArgs
import proofs.«159096_j1580547971931_1_alg».proof.Proof.KernelIdealAcc0
import proofs.«159096_j1580547971931_1_alg».proof.Proof.KernelIdealAcc1
import proofs.«159096_j1580547971931_1_alg».proof.Proof.KernelIdealAcc2
import proofs.«159096_j1580547971931_1_alg».proof.Proof.KernelIdealHost
import proofs.«159096_j1580547971931_1_alg».proof.Proof.RefValue
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.KernelIdeal (ktab)

variable (m : (ℓ : Loc nD τ sig) → Buf (Elt Ideal) ℓ) (ρ : Dev nD → PrngReg)

/-! ## The regions' entry tables are the first stretch's results -/

theorem V2_v22 (c : Dev nD) : V2 m ρ c main_v22 = V1 m ρ c main_v22 := W2_of_ne m ρ c main_v22 (by decide)
theorem V2_v23 (c : Dev nD) : V2 m ρ c main_v23 = V1 m ρ c main_v23 := W2_of_ne m ρ c main_v23 (by decide)
theorem V2_v24 (c : Dev nD) : V2 m ρ c main_v24 = V1 m ρ c main_v24 := W2_of_ne m ρ c main_v24 (by decide)
theorem V2_v25 (c : Dev nD) : V2 m ρ c main_v25 = V1 m ρ c main_v25 := W2_of_ne m ρ c main_v25 (by decide)
theorem V3_v23 (c : Dev nD) : V3 m ρ c main_v23 = V1 m ρ c main_v23 := (W3_of_ne m ρ c main_v23 (by decide)).trans (V2_v23 m ρ c)
theorem V3_v25 (c : Dev nD) : V3 m ρ c main_v25 = V1 m ρ c main_v25 := (W3_of_ne m ρ c main_v25 (by decide)).trans (V2_v25 m ρ c)

/-! ## The three pair sums, as the last stretch finds them -/

/-- main_v26 holds aa. -/
theorem W4_v26 (c : Dev nD) : (W4 m ρ c (Proc.devRef .tc main_v26) : S1x1.Idx → EReal)
    = fun _ => Cert.PairSpec.pairSum (ktab (V1 m ρ c main_v22)) (ktab (V1 m ρ c main_v24)) (ktab (V1 m ρ c main_v22)) (ktab (V1 m ρ c main_v24)) :=
  (W4_of_ne m ρ c main_v26 (by decide)).trans ((W3_of_ne m ρ c main_v26 (by decide)).trans ((W2_out m ρ c).trans (out0_val (V1 m ρ) c)))

/-- main_v27 holds ab. -/
theorem W4_v27 (c : Dev nD) : (W4 m ρ c (Proc.devRef .tc main_v27) : S1x1.Idx → EReal)
    = fun _ => Cert.PairSpec.pairSum (ktab (V1 m ρ c main_v22)) (ktab (V1 m ρ c main_v24)) (ktab (V1 m ρ c main_v23)) (ktab (V1 m ρ c main_v25)) := by
  have h := out1_val (V2 m ρ) c
  rw [V2_v22 m ρ c, V2_v24 m ρ c, V2_v23 m ρ c, V2_v25 m ρ c] at h
  exact (W4_of_ne m ρ c main_v27 (by decide)).trans ((W3_out m ρ c).trans h)

/-- main_v28 holds bb. -/
theorem W4_v28 (c : Dev nD) : (W4 m ρ c (Proc.devRef .tc main_v28) : S1x1.Idx → EReal)
    = fun _ => Cert.PairSpec.pairSum (ktab (V1 m ρ c main_v23)) (ktab (V1 m ρ c main_v25)) (ktab (V1 m ρ c main_v23)) (ktab (V1 m ρ c main_v25)) := by
  have h := out2_val (V3 m ρ) c
  rw [V3_v23 m ρ c, V3_v25 m ρ c] at h
  exact (W4_out m ρ c).trans h

/-! ## The result -/

/-- The result, read at its one index, is `combine` of the four pooled tables. -/
theorem result_combine (c : Dev nD) (i : S_.Idx) : (W5 m ρ c (Proc.devRef .tc main_v34) : S_.Idx → EReal) i
    = Cert.PairSpec.combine (ktab (V1 m ρ c main_v22)) (ktab (V1 m ρ c main_v24)) (ktab (V1 m ρ c main_v23)) (ktab (V1 m ρ c main_v25)) :=
  Cert.KernelIdeal.Host.tail_v34 (W4 m ρ c) _ _ _ (W4_v26 m ρ c) (W4_v27 m ρ c) (W4_v28 m ρ c) i

/-- The result is the reference's result term of the four arguments. -/
theorem result_ref (c : Dev nD) : (W5 m ρ c (Proc.devRef .tc main_v34) : S_.Idx → EReal)
    = Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) := by
  funext i
  rw [result_combine m ρ c i]
  refine (Eq.trans ?_ (Cert.ReferenceIdeal.RefValue.ref_eq _ _ _ _ i).symm)
  have h22 := Cert.KernelIdeal.Host.pre_v22 (W0 m ρ c)
  have h24 := Cert.KernelIdeal.Host.pre_v24 (W0 m ρ c)
  have h23 := Cert.KernelIdeal.Host.pre_v23 (W0 m ρ c)
  have h25 := Cert.KernelIdeal.Host.pre_v25 (W0 m ρ c)
  show Cert.PairSpec.combine (ktab (W1 m ρ c (Proc.devRef .tc main_v22))) (ktab (W1 m ρ c (Proc.devRef .tc main_v24))) (ktab (W1 m ρ c (Proc.devRef .tc main_v23))) (ktab (W1 m ρ c (Proc.devRef .tc main_v25))) = _
  rw [show (W1 m ρ c (Proc.devRef .tc main_v22)) = _ from h22, show (W1 m ρ c (Proc.devRef .tc main_v24)) = _ from h24,
    show (W1 m ρ c (Proc.devRef .tc main_v23)) = _ from h23, show (W1 m ρ c (Proc.devRef .tc main_v25)) = _ from h25]
  rfl

end Cert.KernelIdeal.Gen

end
-- ==== Proof.lean ====
/-
  The certificate: the word-level kernel, its idealization and the idealized reference each run to the end without a
  fault and leave the four argument arrays as launched; the idealization rewrote nothing; and at the ideal instance the
  idealized kernel and the idealized reference, run on the same arguments, return the same extended real.

  Both programs pool the four [128,16,32,32] arguments into four [128,4096] tables by the same host operations and
  return aa + bb − 2·ab, where for two (mean, variance) pairs of tables the pair sum is
      Σ_i Σ_j Σ_d exp(−½·((ml_id − mr_jd)² / (vl_id + vr_jd) + log (vl_id + vr_jd))).
  The reference takes each pair sum in one sum over all (i, j, d); the kernel accumulates it over a 4 × 32 grid of
  128 points in a one-cell scratch (reset at the first point, copied to the output at the last), each point adding the
  sum over its 32 left rows, all 128 right rows and its 128 depths, by three nested lane sums.  Addition of extended
  reals is commutative and associative, so the two bracketings of the same terms agree; no finiteness of the inputs is
  used.
-/
import proofs.«159096_j1580547971931_1_alg».proof.Defs
import proofs.«159096_j1580547971931_1_alg».proof.Proof.Gen.Kernel
import proofs.«159096_j1580547971931_1_alg».proof.Proof.Gen.KernelIdeal
import proofs.«159096_j1580547971931_1_alg».proof.Proof.Gen.ReferenceIdeal
import proofs.«159096_j1580547971931_1_alg».proof.Proof.Gen.ReferenceIdeal.Run
import proofs.«159096_j1580547971931_1_alg».proof.Proof.Gen.ReferenceIdeal.Read
import proofs.«159096_j1580547971931_1_alg».proof.Proof.Gen.Pre_finite_inputs
import proofs.«159096_j1580547971931_1_alg».proof.Proof.KernelArgs
import proofs.«159096_j1580547971931_1_alg».proof.Proof.KernelIdealArgs
import proofs.«159096_j1580547971931_1_alg».proof.Proof.KernelIdealValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result: the kernel's final
    contents of its result buffer are the reference's result term of the arguments. -/
theorem algebraic : Cert.algebraic_KernelIdeal_ReferenceIdeal := by
  intro m ρ m' ρ' _ hagree
  refine ⟨fun c => Cert.KernelIdeal.Gen.W5 m ρ c (Proc.devRef .tc Cert.KernelIdeal.main_v34), ?_, ?_⟩
  · exact (θ_run Cert.KernelIdeal.defs _ _).mono (fun r h c =>
      ⟨h c _ (Cert.KernelIdeal.Gen.mem_uc Cert.KernelIdeal.main_v34 (by decide)),
       (h c _ (Cert.KernelIdeal.Gen.mem_uc Cert.KernelIdeal.main_arg0 (by decide))).trans (Cert.KernelIdeal.Gen.W5_main_arg0 m ρ c),
       (h c _ (Cert.KernelIdeal.Gen.mem_uc Cert.KernelIdeal.main_arg1 (by decide))).trans (Cert.KernelIdeal.Gen.W5_main_arg1 m ρ c),
       (h c _ (Cert.KernelIdeal.Gen.mem_uc Cert.KernelIdeal.main_arg2 (by decide))).trans (Cert.KernelIdeal.Gen.W5_main_arg2 m ρ c),
       (h c _ (Cert.KernelIdeal.Gen.mem_uc Cert.KernelIdeal.main_arg3 (by decide))).trans (Cert.KernelIdeal.Gen.W5_main_arg3 m ρ c)⟩)
      (Cert.KernelIdeal.Gen.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v82_eq, (hagree c).1, (hagree c).2.1, (hagree c).2.2.1, (hagree c).2.2.2]
    exact (Cert.KernelIdeal.Gen.result_ref m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
